-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S512 .f32) (main_arg5 : FVec F S512x256 .f32) (main_arg6 : FVec F S256 .f32) (main_arg7 : FVec F S256 .f32) (main_arg8 : FVec F S256 .f32) (main_arg9 : FVec F S256 .f32) (main_arg10 : FVec F S256 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x8192 .f32) (main_arg2 : FVec F S8192x8192 .f32) (main_arg3 : FVec F S1024x512 .f32) (main_arg4 : FVec F S512 .f32) (main_arg5 : FVec F S512x256 .f32) (main_arg6 : FVec F S256 .f32) (main_arg7 : FVec F S256 .f32) (main_arg8 : FVec F S256 .f32) (main_arg9 : FVec F S256 .f32) (main_arg10 : FVec F S256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S8192x512 : Shape := ⟨2, ![8192, 512]⟩
abbrev S1024x1024 : Shape := ⟨2, ![1024, 1024]⟩
abbrev S1x512 : Shape := ⟨2, ![1, 512]⟩
abbrev S8192x256 : Shape := ⟨2, ![8192, 256]⟩
abbrev S1024x256 : Shape := ⟨2, ![1024, 256]⟩
abbrev S_ : Shape := ⟨0, ![]⟩
abbrev S1x256 : Shape := ⟨2, ![1, 256]⟩

abbrev nBuf : Space → Nat
  | .hbm => 26
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x1024, .f32⟩
  | .local _ .vmem, ⟨6, _⟩ => ⟨S1024x1024, .f32⟩
  | .local _ .vmem, ⟨7, _⟩ => ⟨S8192x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x256, .f32⟩
  | .local _ .vmem, ⟨15, _⟩ => ⟨S1024x256, .f32⟩
  | .local _ .vmem, ⟨16, _⟩ => ⟨S1024x256, .f32⟩
  | .local _ .vmem, ⟨17, _⟩ => ⟨S1024x1024, .f32⟩
  | .local _ .vmem, ⟨18, _⟩ => ⟨S1024x1024, .f32⟩
  | .local _ .vmem, ⟨19, _⟩ => ⟨S8192x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_mult1 (i : grid3.Coords) : BitVec 32 :=
  let arg1 : BitVec 32 := BitVec.ofNat 32 (i 1).val
  let c1024_i32 : BitVec 32 := 1024#32
  let v3 : BitVec 32 := Scalar.muli arg1 c1024_i32
  v3
def k3_off1 (i : grid3.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k3_cond2 (i : grid3.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S512_S1x512 : S512.ShapeCasts S1x512
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S_S256 : S_.BroadcastsInDim S256 (![] : Fin 0 → Fin S256.rank)
  shapeCasts_S256_S1x256 : S256.ShapeCasts S1x256
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x256.size a ≤ S8192x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x256.size a ≤ S8192x256.size a
  hwx3_1 : ∀ i : grid3.Coords, EltTy.bits .f32 = 32 ∨ (Rect.block (s := S8192x256) S8192x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x256.size a ≤ S8192x256.size a
  hwx3_5 : ∀ i : grid3.Coords, EltTy.bits .f32 = 32 ∨ (Rect.block (s := S8192x256) S1024x256.size (cc3_transform_5 i) (hinb3_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S1024x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S8192x512 : Shape := ⟨2, ![8192, 512]⟩
abbrev S1x512 : Shape := ⟨2, ![1, 512]⟩
abbrev S_ : Shape := ⟨0, ![]⟩
abbrev S8192x256 : Shape := ⟨2, ![8192, 256]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8192x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S8192x256, .f32⟩
  | .hbm, ⟨31, _⟩ => ⟨S8192x256, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S8192x256, .f32⟩
  | .hbm, ⟨36, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S256 : S_.BroadcastsInDim S256 (![] : Fin 0 → Fin S256.rank)
  dot_S8192x1024_S1024x512_S8192x512_1_0_0_1_n_n_wf : DotDims.WF S8192x1024 S1024x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Region0.lean ====
import proofs.«111958_j2972117368867_1_alg».proof.Proof.Gen.Kernel.Launch
import proofs.«111958_j2972117368867_1_alg».proof.Proof.Gen.Kernel.Skeleton
import proofs.«111958_j2972117368867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: one dense product per grid point

The array behind window 0 is cut into eight row blocks; the array behind window 1 is staged whole, once; the
array behind window 2 receives, at point `t`, the product of row block `t` of the first with the whole second.
Everything is stated at `V`, the TensorCore's buffer contents when the region is entered. -/

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds row block `t` at point `t`: the block index moves at every point, so the
    block is fetched at every point, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole right factor at every point: its block index is constant, so it
    is fetched at the first point only, and at a later point the buffer still holds what the point before left, which
    is the same block since the body leaves it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1024x512 := Rect.unit (s := S1024x512) ![0, 0] S1024x512.size inb_S1024x512_S1024x512_0_0

/-! ## What the body leaves in the output window's buffer -/

/-- The product's staging buffer after the body: one store over the whole buffer, of the product of the two
    factors' buffers (each rounded to sixteen bits first, accumulated from zero). -/
def out0_2 (x0 : Vec F S1024x1024 .f32) (x1 : Vec F S1024x512 .f32) : Vec F S1024x512 .f32 :=
  View.canon [⟨r0_2, k0_pay1 (View.ld x0 r0_0) (View.ld x1 r0_1)⟩]

/-- The one store's rectangle is the whole buffer, so it covers every index. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

/-! ## The body's triple -/

set_option maxHeartbeats 1000000 in
/-- The body on whole staging memrefs — the factors' at read contents `x0`, `x1`, the product's at anything — runs to
    the continuation with the factors' buffers as they were and the product's at `out0_2 x0 x1`. The body also reads
    the product's buffer before it stores there; what it reads is not used by the stored value. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1024x512 .f32) (harg3 : arg3.IsWhole)
    (x0 : Vec F S1024x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the region finds them; after the body at point `t` each factor's
    buffer at its block and the product's at `out0_2` of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each factor's buffer: its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point, so the region enters and leaves with it as it stands. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end

end Cert.Kernel.Fr

end
-- ==== Proof.K.Region1.lean ====
import proofs.«111958_j2972117368867_1_alg».proof.Proof.Gen.Kernel.Launch
import proofs.«111958_j2972117368867_1_alg».proof.Proof.Gen.Kernel.Skeleton
import proofs.«111958_j2972117368867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the hidden layer, accumulated over column blocks of the adjacency matrix -/

/-! ## The body's two conditions on the grid point -/

/-- The first conditional's test: the column-block coordinate is 0 (the accumulator is cleared there). -/
abbrev cond1_0 (i : grid1.Coords) : Prop :=
  (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the column-block coordinate is 7 (the output block is produced there). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last column block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block it is live. -/
theorem liveAt1_3 : ∀ t : Fin cfg1.N, cond1_1 (grid1.coords t) → cfg1.idle 3 (grid1.coords t) = false := by decide +kernel

/-! ## One whole-buffer store -/

/-- A buffer whose newest store went through the whole-shape rectangle at zero offsets reads as that store's payload. -/
theorem r1_read_store_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  exact View.read_writes_cons_unit_of_mem v f inb w L y y h (fun a => by show (y a).val = 0 + (y a).val; omega)

/-! ## The body's accesses -/

/-- The rows of the resident feature matrix the body reads at grid point `i`. -/
abbrev r1_rows (i : grid1.Coords) : Rect S8192x512 := Rect.unit (s := S8192x512) (k1_off1 i) S1024x512.size (k1_off1_inb i)

/-- The zero offsets of a rank-2 access, as the constant function. -/
theorem r1_zero2 : (![0, 0] : Fin 2 → Nat) = fun _ => 0 := by funext a; fin_cases a <;> rfl

/-- A load through the whole-shape rectangle at zero offsets reads the buffer's contents. -/
theorem r1_readAt_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-! ## The body on whole staging buffers, case by case -/

set_option maxHeartbeats 1000000 in
/-- The first column block: the accumulator is cleared, then gains this block's product. -/
theorem r1_run_A (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : cond1_0 i) (hc1 : ¬cond1_1 i)
    (x0 : Vec F S1024x1024 .f32) (x1 : Vec F S8192x512 .f32) (x2 : Vec F S1x512 .f32) (xi3 : Vec F S1024x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (r1_rows i)) k1_pay1)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [r1_read_store_whole arg6.view fs r1_zero2, View.readCov_unit_zero arg6.view r1_zero2, r1_readAt_whole arg2.view f0 r1_zero2]
  rfl

set_option maxHeartbeats 1000000 in
/-- A middle column block: the accumulator gains this block's product. -/
theorem r1_run_B (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1_0 i) (hc1 : ¬cond1_1 i)
    (x0 : Vec F S1024x1024 .f32) (x1 : Vec F S8192x512 .f32) (x2 : Vec F S1x512 .f32) (xi3 : Vec F S1024x512 .f32)
    (xs : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (r1_rows i)) xs)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [r1_read_store_whole arg6.view fs r1_zero2, r1_readAt_whole arg2.view f0 r1_zero2, r1_readAt_whole arg6.view fs r1_zero2]
  rfl

set_option maxHeartbeats 1000000 in
/-- The last column block: the accumulator gains this block's product, and the output block is the accumulator plus
    the bias along the rows, rectified. -/
theorem r1_run_C (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1_0 i) (hc1 : cond1_1 i)
    (x0 : Vec F S1024x1024 .f32) (x1 : Vec F S8192x512 .f32) (x2 : Vec F S1x512 .f32)
    (xs : Vec F S1024x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 (View.ld x1 (r1_rows i)) xs) x2)
            ∗ owns (c : Thread nD τ) arg6 fullShare (k1_pay2 x0 (View.ld x1 (r1_rows i)) xs)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [r1_read_store_whole arg5.view f3 r1_zero2, View.readCov_unit_zero arg6.view r1_zero2, r1_readAt_whole arg2.view f0 r1_zero2,
      r1_readAt_whole arg6.view fs r1_zero2, r1_readAt_whole arg4.view f2 r1_zero2]
    rfl
  iexists _; isplitr
  swap; · iexact HS
  ipureintro
  sl_unfold_run_names
  rw [r1_read_store_whole arg6.view fs r1_zero2, r1_readAt_whole arg2.view f0 r1_zero2, r1_readAt_whole arg6.view fs r1_zero2]
  rfl

/-! ## The invariant: the accumulator beside the rest of the core's scoped buffers -/

/-- The accumulator as a memref: a whole scoped buffer of the kernel's own, passed beside the windows. -/
abbrev scM1 : Memref sig .tc .vmem S1024x512 .f32 := Memref.whole cc1_scratch0

/-- The core's scoped buffers that are neither staging buffers of this call nor its accumulator, each at some contents:
    what the body never touches. -/
def Rest1 (c : Dev nD) : sProp 𝕄 :=
  Pipeline.scopedRestBut (Ix := Unit) (Name := ℕ) (U := UR sig nD τ) (Lvl := ℕ) (Val := Elt F) spec1 c [cc1_scratch0]

/-- The region's entry invariant is the accumulator at some contents beside the rest and the generator register. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA Rest1
  rw [Pipeline.scopedRest_split_of_list spec1 c [cc1_scratch0] (by decide) (by decide)]
  simp only [scM1, owns_whole]; rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block's staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident feature matrix's staging buffer holds the whole matrix at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- One point's update: the accumulator `s` gains the product of the point's adjacency block with the rows of the
    feature matrix that the block's columns name. -/
def step1 (c : Dev nD) (t : Fin cfg1.N) (s : Vec F S1024x512 .f32) : Vec F S1024x512 .f32 :=
  k1_pay2 (iblk1 V c 0 t) (View.ld (iblk1 V c 1 t) (r1_rows (grid1.coords t))) s

/-- THE ACCUMULATION. The accumulator after the body at position `n`: at the first column block of a row block the
    update of the cleared accumulator, elsewhere the update of what the point before left. -/
def acc1 (c : Dev nD) : (n : ℕ) → n < cfg1.N → Vec F S1024x512 .f32
  | 0, hn => step1 V c ⟨0, hn⟩ k1_pay1
  | n + 1, hn =>
    if (n + 1) % 8 = 0 then step1 V c ⟨n + 1, hn⟩ k1_pay1
    else step1 V c ⟨n + 1, hn⟩ (acc1 c n (Nat.lt_of_succ_lt hn))

/-- At a first column block the accumulator restarts. -/
theorem acc1_first (c : Dev nD) (t : Fin cfg1.N) (h0 : t.val % 8 = 0) :
    acc1 V c t.val t.isLt = step1 V c t k1_pay1 := by
  obtain ⟨n, hn⟩ := t
  cases n with
  | zero => rfl
  | succ n => exact if_pos h0

/-- Elsewhere it continues from the point before. -/
theorem acc1_next (c : Dev nD) (t : Fin cfg1.N) (h0 : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: at the start the class's; afterwards the accumulator at what the point
    before left, beside the rest and the generator register. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ Rest1 (F := F) c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn) ∗ Rest1 (F := F) c) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega)) ∗ Rest1 (F := F) c) ∗ (∃ r, prngReg c r)) := by
  cases n with
  | zero => exact absurd rfl hz
  | succ n => rfl

/-! ## The pipeline's proof data -/

/-- The proof data of this call on core `c`: the arrays as the region finds them; after the body at point `t` each
    input's buffer at its block, and the output's at the rectified biased accumulator (consulted at the last column
    blocks only: elsewhere the window is idle); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- Each window's current staging memref at point `t`, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. By the column-block coordinate `k = t mod 8`:
    at `k = 0` the accumulator (at anything at the very first point, at what the row block before left otherwise) is
    cleared and gains the first product, the output window idle; at `0 < k < 7` the accumulator the point before left
    gains this block's product, the output window idle; at `k = 7` it gains the last product and the output block is
    produced from it. `k = 0` and `k = 7` exclude each other. The invariant takes the accumulator back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    unfold step1
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (r1_run_A c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_A c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      unfold step1
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_C c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [acc1_next V c t h0]
      unfold step1
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_B c Set.univ (grid1.coords t) _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the accumulator's contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 64 := N_1; omega)

end Cert.Kernel.Fr

end
-- ==== Proof.K.Region2.lean ====
import proofs.«111958_j2972117368867_1_alg».proof.Proof.Gen.Kernel.Launch
import proofs.«111958_j2972117368867_1_alg».proof.Proof.Gen.Kernel.Skeleton
import proofs.«111958_j2972117368867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: one dense product per grid point

The array behind window 0 is cut into eight row blocks; the array behind window 1 is staged whole, once; the
array behind window 2 receives, at point `t`, the product of row block `t` of the first with the whole second.
Everything is stated at `V`, the TensorCore's buffer contents when the region is entered. -/

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds row block `t` at point `t`: the block index moves at every point, so the
    block is fetched at every point, and the body leaves it as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging buffer holds the whole right factor at every point: its block index is constant, so it
    is fetched at the first point only, and at a later point the buffer still holds what the point before left, which
    is the same block since the body leaves it as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x512 := Rect.unit (s := S1024x512) ![0, 0] S1024x512.size inb_S1024x512_S1024x512_0_0
abbrev r2_1 : Rect S512x256 := Rect.unit (s := S512x256) ![0, 0] S512x256.size inb_S512x256_S512x256_0_0
abbrev r2_2 : Rect S1024x256 := Rect.unit (s := S1024x256) ![0, 0] S1024x256.size inb_S1024x256_S1024x256_0_0

/-! ## What the body leaves in the output window's buffer -/

/-- The product's staging buffer after the body: one store over the whole buffer, of the product of the two
    factors' buffers (each rounded to sixteen bits first, accumulated from zero). -/
def out2_2 (x0 : Vec F S1024x512 .f32) (x1 : Vec F S512x256 .f32) : Vec F S1024x256 .f32 :=
  View.canon [⟨r2_2, k2_pay1 (View.ld x0 r2_0) (View.ld x1 r2_1)⟩]

/-- The one store's rectangle is the whole buffer, so it covers every index. -/
theorem cover2_2 (p0 : Vec F S1024x256 .f32) (y : S1024x256.Idx) :
    ∃ pc ∈ ([⟨r2_2, p0⟩] : List (View.Piece (Elt F) S1024x256 .f32)), y ∈ pc.1.set :=
  View.cover_of_tiled [⟨r2_2, p0⟩] S1024x256.size (by rfl) y

/-! ## The body's triple -/

set_option maxHeartbeats 1000000 in
/-- The body on whole staging memrefs — the factors' at read contents `x0`, `x1`, the product's at anything — runs to
    the continuation with the factors' buffers as they were and the product's at `out2_2 x0 x1`. The body also reads
    the product's buffer before it stores there; what it reads is not used by the stored value. -/
theorem sound_kernel2 (c : Dev nD) (E : Set ℕ) (i : grid2.Coords) (arg1 : Memref sig .tc .vmem S1024x512 .f32) (harg1 : arg1.IsWhole) (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data on core `c`: the arrays as the region finds them; after the body at point `t` each factor's
    buffer at its block and the product's at `out2_2` of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each factor's buffer: its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant is the same at every point, so the region enters and leaves with it as it stands. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

end

end Cert.Kernel.Fr

end
-- ==== Proof.K.Region3.lean ====
/-
  Region 3 of the program: the output layer `(A₂ · S₂ + b₂) · inv + shift` as a pipelined reduction.

  The grid is 8 × 8, point `t = 8 i + k`: row block `i` of the result, column block `k` of the adjacency matrix.
  Window 0 is the adjacency block `(i, k)`, window 1 the whole support matrix `S₂` (resident; the body reads its rows
  `[1024 k, 1024 k + 1024)`), windows 2, 3, 4 the bias, scale and shift rows, window 5 the result's row block `i`.
  An accumulator of the block's shape lives in a scratch buffer that the body carries from point to point: zeroed at
  `k = 0`, one block product added at every `k`, and at `k = 7` the result block is stored as the accumulator plus the
  bias, times the scale, plus the shift. The result block is idle (neither stored nor written back) at `k < 7`.

  This module is the region's frame half at the entry contents `V`, for any float interpretation: the body's triple in
  each of the three cases of `k`, what the accumulator holds after each point (`r3_acc`), the region invariant carrying
  it (`r3_Phi`), the proof data (`dat3`) and the body obligation.
-/
import proofs.«111958_j2972117368867_1_alg».proof.Proof.Gen.Kernel.Launch
import proofs.«111958_j2972117368867_1_alg».proof.Proof.Gen.Kernel.Skeleton
import proofs.«111958_j2972117368867_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The kernel's first conditional (zero the accumulator) is taken exactly when the reduction coordinate is 0. -/
abbrev r3_c0 (i : grid3.Coords) : Prop := (Scalar.cmpi .ne (Scalar.extui (Scalar.cmpi .eq (BitVec.ofNat 32 (i 1).val) 0#32)) 0#32) = 1#1
/-- The second conditional (the affine epilogue and the store of the output block) is taken exactly when it is 7. -/
abbrev r3_c1 (i : grid3.Coords) : Prop := k3_cond2 i = 1#1

/-- The zero offsets of a whole-buffer access, as a constant function. -/
theorem r3_hz : (![0, 0] : Fin 2 → ℕ) = fun _ => 0 := by funext a; fin_cases a <;> rfl

/-- A store through the whole-shape rectangle, made last, leaves its payload whatever was stored before. -/
theorem r3_rw_unit {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 1000000 in
/-- At a point with reduction coordinate 0 the body zeroes the accumulator and adds the first product:
    the accumulator ends at the product of the adjacency block with the matching rows of the support matrix,
    added to zero; every input buffer and the (idle) output buffer are handed back as found. -/
theorem r3_run_first (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : r3_c0 i) (hc1 : ¬ r3_c1 i)
    (x0 : Vec F S1024x1024 .f32) (x1 : Vec F S8192x256 .f32) (x2 x3 x4 : Vec F S1x256 .f32) (x5 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 x0 (View.ld x1 (Rect.unit (s := S8192x256) (k3_off1 i) S1024x256.size (k3_off1_inb i))) (k3_pay1 (F := F)))) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

set_option maxHeartbeats 1000000 in
/-- At a point with reduction coordinate strictly between 0 and 7 the body adds one more product to the accumulator. -/
theorem r3_run_mid (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬ r3_c0 i) (hc1 : ¬ r3_c1 i)
    (x0 : Vec F S1024x1024 .f32) (x1 : Vec F S8192x256 .f32) (x2 x3 x4 : Vec F S1x256 .f32) (x5 : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 x0 (View.ld x1 (Rect.unit (s := S8192x256) (k3_off1 i) S1024x256.size (k3_off1_inb i))) xs)) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

set_option maxHeartbeats 1000000 in
/-- At a point with reduction coordinate 7 the body adds the last product, then stores into the output block
    the accumulator plus the bias row, times the scale row, plus the shift row (each row broadcast down the block). -/
theorem r3_run_last (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬ r3_c0 i) (hc1 : r3_c1 i)
    (x0 : Vec F S1024x1024 .f32) (x1 : Vec F S8192x256 .f32) (x2 x3 x4 : Vec F S1x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay3 (k3_pay2 x0 (View.ld x1 (Rect.unit (s := S8192x256) (k3_off1 i) S1024x256.size (k3_off1_inb i))) xs) x2 x3 x4)
            ∗ owns (c : Thread nD τ) arg8 fullShare (k3_pay2 x0 (View.ld x1 (Rect.unit (s := S8192x256) (k3_off1 i) S1024x256.size (k3_off1_inb i))) xs)) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [r3_rw_unit _ _ r3_hz]
    simp only [View.readAt_eq_ld, View.ld_unit_zero (S := S1024x1024) r3_hz, View.ld_unit_zero (S := S1024x256) r3_hz, View.ld_unit_zero (S := S1x256) r3_hz, View.readCov_unit_zero (S := S1024x256) _ r3_hz]
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: a point that
    does not fetch it has the block index of the point before, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: a point that
    does not fetch it has the block index of the point before, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: a point that
    does not fetch it has the block index of the point before, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: a point that
    does not fetch it has the block index of the point before, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: a point that
    does not fetch it has the block index of the point before, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The conditions and the idle points, in closed form over the 64 points (point `t = 8 i + k`) -/

theorem hcond3_0 : ∀ t : Fin cfg3.N, r3_c0 (grid3.coords t) ↔ t.val % 8 = 0 :=
  (by decide +kernel : ∀ t : Fin grid3.N, r3_c0 (grid3.coords t) ↔ t.val % 8 = 0)
theorem hcond3_1 : ∀ t : Fin cfg3.N, r3_c1 (grid3.coords t) ↔ t.val % 8 = 7 :=
  (by decide +kernel : ∀ t : Fin grid3.N, r3_c1 (grid3.coords t) ↔ t.val % 8 = 7)

/-- The inputs are never idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl
theorem liveAt3_4 (t : Fin cfg3.N) : cfg3.idle 4 (grid3.coords t) = false := rfl
/-- The output block is idle, and not written back, except at the last reduction step `k = 7`. -/
theorem idleAt3_5 : ∀ t : Fin cfg3.N, ¬ t.val % 8 = 7 → cfg3.idle 5 (grid3.coords t) = true := by decide +kernel
theorem noFlush3_5 : ∀ t : Fin cfg3.N, ¬ t.val % 8 = 7 → (cfg3.win 5).flush t = false := by decide +kernel
theorem liveAt3_5 : ∀ t : Fin cfg3.N, t.val % 8 = 7 → cfg3.idle 5 (grid3.coords t) = false := by decide +kernel

/-! ## The accumulator point by point -/

/-- The scratch accumulator as a memref. -/
abbrev scM3 : Memref sig .tc .vmem S1024x256 .f32 := Memref.whole cc3_scratch0

/-- The rows of the support matrix that point `t` multiplies: rows `[1024 k, 1024 k + 1024)` of the resident window 1. -/
abbrev r3_slice (c : Dev nD) (t : Fin cfg3.N) : Vec F S1024x256 .f32 :=
  View.ld (iblk3 V c 1 t) (Rect.unit (s := S8192x256) (k3_off1 (grid3.coords t)) S1024x256.size (k3_off1_inb (grid3.coords t)))

/-- What the accumulator holds after the body at point `n`: at a point with `k = 0` the product of the point's
    adjacency block with its rows of the support matrix added to zero, elsewhere that product added to what the point
    before left. -/
def r3_acc (c : Dev nD) : (n : ℕ) → n < cfg3.N → Vec F S1024x256 .f32
  | 0, hn => k3_pay2 (iblk3 V c 0 ⟨0, hn⟩) (r3_slice V c ⟨0, hn⟩) (k3_pay1 (F := F))
  | n + 1, hn =>
    if (n + 1) % 8 = 0 then k3_pay2 (iblk3 V c 0 ⟨n + 1, hn⟩) (r3_slice V c ⟨n + 1, hn⟩) (k3_pay1 (F := F))
    else k3_pay2 (iblk3 V c 0 ⟨n + 1, hn⟩) (r3_slice V c ⟨n + 1, hn⟩) (r3_acc c n (Nat.lt_of_succ_lt hn))

theorem r3_acc_first (c : Dev nD) (t : Fin cfg3.N) (h0 : t.val % 8 = 0) :
    r3_acc V c t.val t.isLt = k3_pay2 (iblk3 V c 0 t) (r3_slice V c t) (k3_pay1 (F := F)) := by
  obtain ⟨n, hn⟩ := t
  cases n with
  | zero => rfl
  | succ n => exact if_pos h0

theorem r3_acc_next (c : Dev nD) (t : Fin cfg3.N) (h0 : ¬ t.val % 8 = 0) :
    r3_acc V c t.val t.isLt = k3_pay2 (iblk3 V c 0 t) (r3_slice V c t)
      (r3_acc V c (t.val - 1) (Nat.lt_of_le_of_lt (Nat.sub_le _ _) t.isLt)) := by
  obtain ⟨n, hn⟩ := t
  cases n with
  | zero => exact absurd (Nat.zero_mod _) h0
  | succ n => exact if_neg h0

/-- What the body stores into the output block at a point with `k = 7`: the accumulator plus the bias row, times the
    scale row, plus the shift row. (At the other points the block is idle and this is not consulted.) -/
def r3_out (c : Dev nD) (t : Fin cfg3.N) : Vec F S1024x256 .f32 :=
  k3_pay3 (r3_acc V c t.val t.isLt) (iblk3 V c 2 t) (iblk3 V c 3 t) (iblk3 V c 4 t)

/-! ## The invariant: the accumulator carried from point to point -/

/-- The class's invariant with the accumulator split off the other scoped buffers. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole]; rfl

/-- The region invariant before position `n`: before the first point the class's; afterwards the accumulator at what
    the point before left in it, the other scoped buffers at anything, the generator register at some state. -/
def r3_Phi (c : Dev nD) : (n : ℕ) → n ≤ cfg3.N → sProp 𝕄
  | 0, _ => Pipeline.ΦA spec3 c
  | n + 1, hn => iprop(iprop(owns (c : Thread nD τ) scM3 fullShare (r3_acc V c n hn) ∗ Pipeline.scopedRestBut (Ix := Unit) (Name := ℕ) (U := UR sig nD τ) (Lvl := ℕ) (Val := Elt F) spec3 c [cc3_scratch0]) ∗ (∃ r, prngReg c r))

theorem r3_Phi_zero (c : Dev nD) (n : ℕ) (h : n ≤ cfg3.N) (hz : n = 0) : r3_Phi V c n h = Pipeline.ΦA spec3 c := by
  subst hz; rfl

theorem r3_Phi_succ (c : Dev nD) (n : ℕ) (hn : n < cfg3.N) :
    r3_Phi V c (n + 1) hn = iprop(iprop(owns (c : Thread nD τ) scM3 fullShare (r3_acc V c n hn) ∗ Pipeline.scopedRestBut (Ix := Unit) (Name := ℕ) (U := UR sig nD τ) (Lvl := ℕ) (Val := Elt F) spec3 c [cc3_scratch0]) ∗ (∃ r, prngReg c r)) := rfl

theorem r3_Phi_pos (c : Dev nD) (n : ℕ) (h : n ≤ cfg3.N) (hz : n ≠ 0) :
    r3_Phi V c n h = iprop(iprop(owns (c : Thread nD τ) scM3 fullShare (r3_acc V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `r3_out`; the invariant carrying the accumulator; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => r3_out V c t
  Φ t := r3_Phi V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl

theorem r3_Phi_castSucc (c : Dev nD) (t : Fin cfg3.N) :
    (dat3 V c).Φ t.castSucc = r3_Phi V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = r3_out V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point `t = 8 i + k`. The inputs' buffers hold their blocks. By cases on `k`: at `k = 0` the
    accumulator is taken at anything (the class's invariant at the very first point, what the row before left
    elsewhere) and handed back at the first product; at `0 < k < 7` it is taken at what the point before left and
    handed back with one more product added; at `k = 7` moreover the output block is stored. Except at `k = 7` the
    output block is idle and goes back as it came. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = r3_Phi V c (t.val + 1) t.isLt from rfl, r3_Phi_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  have hN : t.val < 64 := lt_of_lt_of_eq t.isLt (show cfg3.N = 64 from N_3)
  by_cases h0 : t.val % 8 = 0
  · have h1 : ¬ t.val % 8 = 7 := by omega
    rw [Dat.leavesExact_idle (dat3 V c) 5 t (idleAt3_5 t h1) (noFlush3_5 t h1)]
    rw [r3_acc_first V c t h0]
    by_cases hz : t.val = 0
    · rw [r3_Phi_castSucc V c t, r3_Phi_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_first c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_first c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat3 V c).leavesExact 5 t = owns (c : Thread nD τ) (st3_5 t) fullShare ((dat3 V c).after 5 t) from by
        unfold Dat.leavesExact; rw [liveAt3_5 t h1], after3_5]
      unfold r3_out
      rw [r3_acc_next V c t h0]
      rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_last c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 5 t (idleAt3_5 t h1) (noFlush3_5 t h1)]
      rw [r3_acc_next V c t h0]
      rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_mid c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = r3_Phi V c 0 (Nat.zero_le _) from rfl, r3_Phi_zero V c 0 _ rfl]
  try exact Idealize.SL.BI.Entails.refl _

/-- After any point but the first the invariant gives the class's back: the accumulator's named contents are forgotten. -/
theorem r3_Phi_out (c : Dev nD) (t : Fin (cfg3.N + 1)) (ht : t.val ≠ 0) : (dat3 V c).Φ t ⊢ (Pipeline.ΦA spec3 c : sProp 𝕄) := by
  rw [show (dat3 V c).Φ t = r3_Phi V c t.val (Nat.le_of_lt_succ t.isLt) from rfl, r3_Phi_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ (Pipeline.ΦA spec3 c : sProp 𝕄) :=
  r3_Phi_out V c _ (by rw [Fin.val_last]; have : cfg3.N = 64 := N_3; omega)

end Region3

end Cert.Kernel.Fr

end
-- ==== Proof.K.Run.lean ====
/-
  The run of the whole program, generic in the float instance: @main is four kernel regions among two stretches of
  host operations. The contents of every unscoped buffer are followed from the launch memory through the six
  segments: a host stretch leaves them at the stretch's composed operations; a region leaves each of its windows'
  arrays at what its write-backs leave and every other buffer as it was entered. Each region is entered from all
  unscoped buffers held at the boundary's contents, the generator register at some state and nothing owed, and is
  left in the same form at the next boundary; the regions' proof data are stated at their entry contents. The run
  ends with every unscoped buffer at the last boundary's contents, from which the argument arrays (read back through
  the fold to the launch memory) and the result are taken.
-/
import proofs.«111958_j2972117368867_1_alg».proof.Proof.K.Region0
import proofs.«111958_j2972117368867_1_alg».proof.Proof.K.Region1
import proofs.«111958_j2972117368867_1_alg».proof.Proof.K.Region2
import proofs.«111958_j2972117368867_1_alg».proof.Proof.K.Region3
import proofs.«111958_j2972117368867_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev Wd0 : Dev nD → Valuation τ sig (Elt F) := fun c b => (s₀ m ρ).mem ((c : Dev nD), b)
abbrev Vd0 : (c : Dev nD) → (b : Ref sig .tc) → Buf (Elt F) ((c : Thread nD τ).loc b) := fun c b => Wd0 m ρ c b

/-- At region 0's exit: its windows' arrays at what the write-backs leave, every other buffer as entered. -/
def Wd1 (c : Dev nD) : Valuation τ sig (Elt F) :=
  Pipeline.withArrays spec0 c (Wd0 m ρ c) fun w => (dat0 (Vd0 m ρ) c).arrAt w cfg0.N
theorem Wd1_arr (c : Dev nD) (w : Fin cfg0.W) :
    Wd1 m ρ c (Proc.devRef .tc (Pipeline.arrRef spec0 w)) = (dat0 (Vd0 m ρ) c).arrAt w cfg0.N := by
  unfold Wd1; exact Pipeline.withArrays_arr spec0 launch0.win.arr_inj c _ _ w
theorem Wd1_of_ne (c : Dev nD) (b : Ref sig .tc) (hb : ∀ w, Pipeline.arrRef spec0 w ≠ b) :
    Wd1 m ρ c (Proc.devRef .tc b) = Wd0 m ρ c (Proc.devRef .tc b) := by
  unfold Wd1; exact Pipeline.withArrays_of_ne spec0 c _ _ b hb
/-- An input window's array leaves the region as it entered it. -/
theorem Wd1_in (c : Dev nD) (w : Fin cfg0.W) (hw : (cfg0.win w).isOut = false) :
    Wd1 m ρ c (Proc.devRef .tc (Pipeline.arrRef spec0 w)) = Wd0 m ρ c (Proc.devRef .tc (Pipeline.arrRef spec0 w)) :=
  (Wd1_arr m ρ c w).trans (((dat0 (Vd0 m ρ) c).arrAt_in w hw _).trans (A_eq0 (Vd0 m ρ) c w))
abbrev Vd1 : (c : Dev nD) → (b : Ref sig .tc) → Buf (Elt F) ((c : Thread nD τ).loc b) := fun c b => Wd1 m ρ c b
theorem hF0 (c : Dev nD) (w : Fin cfg0.W) : (dat0 (Vd0 m ρ) c).arrAt w cfg0.N = Vd1 m ρ c (Pipeline.arrRef spec0 w) :=
  (Wd1_arr m ρ c w).symm
theorem hrest0 (c : Dev nD) : ∀ b, b ∉ Finset.univ.image (Pipeline.arrRef spec0) → Vd1 m ρ c b = Vd0 m ρ c b :=
  fun b hb => Wd1_of_ne m ρ c b fun w e => hb (Finset.mem_image.mpr ⟨w, Finset.mem_univ _, e⟩)

/-- After the host stretch `hostOps1`. -/
abbrev Wd2 : Dev nD → Valuation τ sig (Elt F) := fun c => StableHlo.after hostOps1 (Wd1 m ρ c)
abbrev Vd2 : (c : Dev nD) → (b : Ref sig .tc) → Buf (Elt F) ((c : Thread nD τ).loc b) := fun c b => Wd2 m ρ c b
/-- A buffer the stretch does not write is left alone. -/
theorem Wd2_keep (c : Dev nD) (r : Ref sig .tc) (h : r ∉ hostOps1_W) :
    Wd2 m ρ c (Proc.devRef .tc r) = Wd1 m ρ c (Proc.devRef .tc r) :=
  StableHlo.after_of_writes_sub hostOps1 _ hostOps1_writes h

/-- At region 1's exit: its windows' arrays at what the write-backs leave, every other buffer as entered. -/
def Wd3 (c : Dev nD) : Valuation τ sig (Elt F) :=
  Pipeline.withArrays spec1 c (Wd2 m ρ c) fun w => (dat1 (Vd2 m ρ) c).arrAt w cfg1.N
theorem Wd3_arr (c : Dev nD) (w : Fin cfg1.W) :
    Wd3 m ρ c (Proc.devRef .tc (Pipeline.arrRef spec1 w)) = (dat1 (Vd2 m ρ) c).arrAt w cfg1.N := by
  unfold Wd3; exact Pipeline.withArrays_arr spec1 launch1.win.arr_inj c _ _ w
theorem Wd3_of_ne (c : Dev nD) (b : Ref sig .tc) (hb : ∀ w, Pipeline.arrRef spec1 w ≠ b) :
    Wd3 m ρ c (Proc.devRef .tc b) = Wd2 m ρ c (Proc.devRef .tc b) := by
  unfold Wd3; exact Pipeline.withArrays_of_ne spec1 c _ _ b hb
/-- An input window's array leaves the region as it entered it. -/
theorem Wd3_in (c : Dev nD) (w : Fin cfg1.W) (hw : (cfg1.win w).isOut = false) :
    Wd3 m ρ c (Proc.devRef .tc (Pipeline.arrRef spec1 w)) = Wd2 m ρ c (Proc.devRef .tc (Pipeline.arrRef spec1 w)) :=
  (Wd3_arr m ρ c w).trans (((dat1 (Vd2 m ρ) c).arrAt_in w hw _).trans (A_eq1 (Vd2 m ρ) c w))
abbrev Vd3 : (c : Dev nD) → (b : Ref sig .tc) → Buf (Elt F) ((c : Thread nD τ).loc b) := fun c b => Wd3 m ρ c b
theorem hF1 (c : Dev nD) (w : Fin cfg1.W) : (dat1 (Vd2 m ρ) c).arrAt w cfg1.N = Vd3 m ρ c (Pipeline.arrRef spec1 w) :=
  (Wd3_arr m ρ c w).symm
theorem hrest1 (c : Dev nD) : ∀ b, b ∉ Finset.univ.image (Pipeline.arrRef spec1) → Vd3 m ρ c b = Vd2 m ρ c b :=
  fun b hb => Wd3_of_ne m ρ c b fun w e => hb (Finset.mem_image.mpr ⟨w, Finset.mem_univ _, e⟩)

/-- At region 2's exit: its windows' arrays at what the write-backs leave, every other buffer as entered. -/
def Wd4 (c : Dev nD) : Valuation τ sig (Elt F) :=
  Pipeline.withArrays spec2 c (Wd3 m ρ c) fun w => (dat2 (Vd3 m ρ) c).arrAt w cfg2.N
theorem Wd4_arr (c : Dev nD) (w : Fin cfg2.W) :
    Wd4 m ρ c (Proc.devRef .tc (Pipeline.arrRef spec2 w)) = (dat2 (Vd3 m ρ) c).arrAt w cfg2.N := by
  unfold Wd4; exact Pipeline.withArrays_arr spec2 launch2.win.arr_inj c _ _ w
theorem Wd4_of_ne (c : Dev nD) (b : Ref sig .tc) (hb : ∀ w, Pipeline.arrRef spec2 w ≠ b) :
    Wd4 m ρ c (Proc.devRef .tc b) = Wd3 m ρ c (Proc.devRef .tc b) := by
  unfold Wd4; exact Pipeline.withArrays_of_ne spec2 c _ _ b hb
/-- An input window's array leaves the region as it entered it. -/
theorem Wd4_in (c : Dev nD) (w : Fin cfg2.W) (hw : (cfg2.win w).isOut = false) :
    Wd4 m ρ c (Proc.devRef .tc (Pipeline.arrRef spec2 w)) = Wd3 m ρ c (Proc.devRef .tc (Pipeline.arrRef spec2 w)) :=
  (Wd4_arr m ρ c w).trans (((dat2 (Vd3 m ρ) c).arrAt_in w hw _).trans (A_eq2 (Vd3 m ρ) c w))
abbrev Vd4 : (c : Dev nD) → (b : Ref sig .tc) → Buf (Elt F) ((c : Thread nD τ).loc b) := fun c b => Wd4 m ρ c b
theorem hF2 (c : Dev nD) (w : Fin cfg2.W) : (dat2 (Vd3 m ρ) c).arrAt w cfg2.N = Vd4 m ρ c (Pipeline.arrRef spec2 w) :=
  (Wd4_arr m ρ c w).symm
theorem hrest2 (c : Dev nD) : ∀ b, b ∉ Finset.univ.image (Pipeline.arrRef spec2) → Vd4 m ρ c b = Vd3 m ρ c b :=
  fun b hb => Wd4_of_ne m ρ c b fun w e => hb (Finset.mem_image.mpr ⟨w, Finset.mem_univ _, e⟩)

/-- After the host stretch `hostOps3`. -/
abbrev Wd5 : Dev nD → Valuation τ sig (Elt F) := fun c => StableHlo.after hostOps3 (Wd4 m ρ c)
abbrev Vd5 : (c : Dev nD) → (b : Ref sig .tc) → Buf (Elt F) ((c : Thread nD τ).loc b) := fun c b => Wd5 m ρ c b
/-- A buffer the stretch does not write is left alone. -/
theorem Wd5_keep (c : Dev nD) (r : Ref sig .tc) (h : r ∉ hostOps3_W) :
    Wd5 m ρ c (Proc.devRef .tc r) = Wd4 m ρ c (Proc.devRef .tc r) :=
  StableHlo.after_of_writes_sub hostOps3 _ hostOps3_writes h

/-- At region 3's exit: its windows' arrays at what the write-backs leave, every other buffer as entered. -/
def Wd6 (c : Dev nD) : Valuation τ sig (Elt F) :=
  Pipeline.withArrays spec3 c (Wd5 m ρ c) fun w => (dat3 (Vd5 m ρ) c).arrAt w cfg3.N
theorem Wd6_arr (c : Dev nD) (w : Fin cfg3.W) :
    Wd6 m ρ c (Proc.devRef .tc (Pipeline.arrRef spec3 w)) = (dat3 (Vd5 m ρ) c).arrAt w cfg3.N := by
  unfold Wd6; exact Pipeline.withArrays_arr spec3 launch3.win.arr_inj c _ _ w
theorem Wd6_of_ne (c : Dev nD) (b : Ref sig .tc) (hb : ∀ w, Pipeline.arrRef spec3 w ≠ b) :
    Wd6 m ρ c (Proc.devRef .tc b) = Wd5 m ρ c (Proc.devRef .tc b) := by
  unfold Wd6; exact Pipeline.withArrays_of_ne spec3 c _ _ b hb
/-- An input window's array leaves the region as it entered it. -/
theorem Wd6_in (c : Dev nD) (w : Fin cfg3.W) (hw : (cfg3.win w).isOut = false) :
    Wd6 m ρ c (Proc.devRef .tc (Pipeline.arrRef spec3 w)) = Wd5 m ρ c (Proc.devRef .tc (Pipeline.arrRef spec3 w)) :=
  (Wd6_arr m ρ c w).trans (((dat3 (Vd5 m ρ) c).arrAt_in w hw _).trans (A_eq3 (Vd5 m ρ) c w))
abbrev Vd6 : (c : Dev nD) → (b : Ref sig .tc) → Buf (Elt F) ((c : Thread nD τ).loc b) := fun c b => Wd6 m ρ c b
theorem hF3 (c : Dev nD) (w : Fin cfg3.W) : (dat3 (Vd5 m ρ) c).arrAt w cfg3.N = Vd6 m ρ c (Pipeline.arrRef spec3 w) :=
  (Wd6_arr m ρ c w).symm
theorem hrest3 (c : Dev nD) : ∀ b, b ∉ Finset.univ.image (Pipeline.arrRef spec3) → Vd6 m ρ c b = Vd5 m ρ c b :=
  fun b hb => Wd6_of_ne m ρ c b fun w e => hb (Finset.mem_image.mpr ⟨w, Finset.mem_univ _, e⟩)

/-! ## The proof data family and the thread state -/

/-- No pipeline has a prefetched table. -/
abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (Vd0 m ρ) c
  | ⟨1, _⟩ => fun c => dat1 (Vd2 m ρ) c
  | ⟨2, _⟩ => fun c => dat2 (Vd3 m ρ) c
  | ⟨3, _⟩ => fun c => dat3 (Vd5 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev TnH (c : Dev nD) : sProp 𝕄 := iprop(StableHlo.held (c : Thread nD τ) (Pipeline.ucRefs τ sig) (Wd6 m ρ c) ∗ ∃ r, prngReg c r)

/-! ## The regions as segments -/

set_option backward.isDefEq.respectTransparency.types false in
/-- Region 0 over the thread state: entered from every unscoped buffer at boundary 0, left at boundary 1. Its
    arrays are split out of the unscoped buffers and put back at the exit contents; the generator register and the
    scoped buffers no window stages go into the region's invariant and come back. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vd0 m ρ) c).loose
  hwaits := Pipeline.hwaits_of_owed_zero _ _ _ _ LH lvH 0 fun c t => owed_eq0 (Vd0 m ρ) c t
  pre c := iprop(StableHlo.held (c : Thread nD τ) (Pipeline.ucRefs τ sig) (Wd0 m ρ c) ∗ RH c)
  post c := iprop(StableHlo.held (c : Thread nD τ) (Pipeline.ucRefs τ sig) (Wd1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vd0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun w => q_eq0 (Vd0 m ρ) c w) (Vd0 m ρ c) fun w => A_eq0 (Vd0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vd0 m ρ) c)
    unfold Pipeline.ΦA
    iintro ⟨Hp, -, Hr⟩
    isplitl [Hr]; · iexact Hr
    iexact Hp
  hout c := by
    rw [Pipeline.ownSems0_none]
    refine BIBase.Entails.trans (hout0 (Vd0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun w => q_eq0 (Vd0 m ρ) c w)
      (Vd0 m ρ c) (Vd1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 2, left at boundary 3. Its
    arrays are split out of the unscoped buffers and put back at the exit contents; the generator register and the
    scoped buffers no window stages go into the region's invariant and come back. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vd2 m ρ) c).loose
  hwaits := Pipeline.hwaits_of_owed_zero _ _ _ _ LH lvH 1 fun c t => owed_eq1 (Vd2 m ρ) c t
  pre c := iprop(StableHlo.held (c : Thread nD τ) (Pipeline.ucRefs τ sig) (Wd2 m ρ c) ∗ RH c)
  post c := iprop(StableHlo.held (c : Thread nD τ) (Pipeline.ucRefs τ sig) (Wd3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vd2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun w => q_eq1 (Vd2 m ρ) c w) (Vd2 m ρ c) fun w => A_eq1 (Vd2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vd2 m ρ) c)
    unfold Pipeline.ΦA
    iintro ⟨Hp, -, Hr⟩
    isplitl [Hr]; · iexact Hr
    iexact Hp
  hout c := by
    rw [Pipeline.ownSems0_none]
    refine BIBase.Entails.trans (hout1 (Vd2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun w => q_eq1 (Vd2 m ρ) c w)
      (Vd2 m ρ c) (Vd3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 3, left at boundary 4. Its
    arrays are split out of the unscoped buffers and put back at the exit contents; the generator register and the
    scoped buffers no window stages go into the region's invariant and come back. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vd3 m ρ) c).loose
  hwaits := Pipeline.hwaits_of_owed_zero _ _ _ _ LH lvH 2 fun c t => owed_eq2 (Vd3 m ρ) c t
  pre c := iprop(StableHlo.held (c : Thread nD τ) (Pipeline.ucRefs τ sig) (Wd3 m ρ c) ∗ RH c)
  post c := iprop(StableHlo.held (c : Thread nD τ) (Pipeline.ucRefs τ sig) (Wd4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vd3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun w => q_eq2 (Vd3 m ρ) c w) (Vd3 m ρ c) fun w => A_eq2 (Vd3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vd3 m ρ) c)
    unfold Pipeline.ΦA
    iintro ⟨Hp, -, Hr⟩
    isplitl [Hr]; · iexact Hr
    iexact Hp
  hout c := by
    rw [Pipeline.ownSems0_none]
    refine BIBase.Entails.trans (hout2 (Vd3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun w => q_eq2 (Vd3 m ρ) c w)
      (Vd3 m ρ c) (Vd4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 5, left at boundary 6. Its
    arrays are split out of the unscoped buffers and put back at the exit contents; the generator register and the
    scoped buffers no window stages go into the region's invariant and come back. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vd5 m ρ) c).loose
  hwaits := Pipeline.hwaits_of_owed_zero _ _ _ _ LH lvH 3 fun c t => owed_eq3 (Vd5 m ρ) c t
  pre c := iprop(StableHlo.held (c : Thread nD τ) (Pipeline.ucRefs τ sig) (Wd5 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vd5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun w => q_eq3 (Vd5 m ρ) c w) (Vd5 m ρ c) fun w => A_eq3 (Vd5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vd5 m ρ) c)
    unfold Pipeline.ΦA
    iintro ⟨Hp, -, Hr⟩
    isplitl [Hr]; · iexact Hr
    iexact Hp
  hout c := by
    rw [Pipeline.ownSems0_none]
    refine BIBase.Entails.trans (hout3 (Vd5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun w => q_eq3 (Vd5 m ρ) c w)
      (Vd5 m ρ c) (Vd6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsH : List (Pipeline.Seg (pcfgs (F := F)) admH (pdatsH m ρ) () defs₀ 𝒱H LH lvH) :=
  [ .region (regH0 m ρ),
    .host (hsegH hostOps1 hostOps1_sub hostOps1_fresh (Wd1 m ρ)),
    .region (regH1 m ρ),
    .region (regH2 m ρ),
    .host (hsegH hostOps3 hostOps3_sub hostOps3_fresh (Wd4 m ρ)),
    .region (regH3 m ρ) ]
/-- @main is the run of the segments. -/
theorem main_runH (c : Dev nD) : main (F := F) c = Pipeline.Seg.run (segsH m ρ) := (main_chain c).trans (by chain_rfl)

set_option backward.isDefEq.respectTransparency.types false in
/-- From any memory with zero counters, every weakly fair execution of @main on the TensorCores terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ RH c)) (Tₙ := TnH m ρ)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd6 m ρ c) s')
      isplitl [Hh] <;> iassumption)
    (hQ := fun s h => h)

end Cert.Kernel.Fr

end
-- ==== Proof.K.Args.lean ====
/-
  The argument arrays through the run: no host operation writes an argument and no region writes one back (a region
  reads an argument through an input window, or does not touch it), so at every segment boundary each argument's
  buffer holds its launch contents. With the run, this is the frame claim: every weakly fair execution terminates,
  nothing faults, and the arguments end unchanged.
-/
import proofs.«111958_j2972117368867_1_alg».proof.Proof.K.Run

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-! ### `main_arg0` at every boundary -/
theorem Wd0_arg0 (c : Dev nD) : Wd0 m ρ c (Proc.devRef .tc main_arg0) = m ((c : Thread nD τ).loc main_arg0) := rfl
theorem Wd1_arg0 (c : Dev nD) : Wd1 m ρ c (Proc.devRef .tc main_arg0) = m ((c : Thread nD τ).loc main_arg0) :=
  (Wd1_in m ρ c 0 rfl).trans (Wd0_arg0 m ρ c)
theorem Wd2_arg0 (c : Dev nD) : Wd2 m ρ c (Proc.devRef .tc main_arg0) = m ((c : Thread nD τ).loc main_arg0) :=
  (Wd2_keep m ρ c main_arg0 (by decide)).trans (Wd1_arg0 m ρ c)
theorem Wd3_arg0 (c : Dev nD) : Wd3 m ρ c (Proc.devRef .tc main_arg0) = m ((c : Thread nD τ).loc main_arg0) :=
  (Wd3_of_ne m ρ c main_arg0 (by decide)).trans (Wd2_arg0 m ρ c)
theorem Wd4_arg0 (c : Dev nD) : Wd4 m ρ c (Proc.devRef .tc main_arg0) = m ((c : Thread nD τ).loc main_arg0) :=
  (Wd4_of_ne m ρ c main_arg0 (by decide)).trans (Wd3_arg0 m ρ c)
theorem Wd5_arg0 (c : Dev nD) : Wd5 m ρ c (Proc.devRef .tc main_arg0) = m ((c : Thread nD τ).loc main_arg0) :=
  (Wd5_keep m ρ c main_arg0 (by decide)).trans (Wd4_arg0 m ρ c)
theorem Wd6_arg0 (c : Dev nD) : Wd6 m ρ c (Proc.devRef .tc main_arg0) = m ((c : Thread nD τ).loc main_arg0) :=
  (Wd6_of_ne m ρ c main_arg0 (by decide)).trans (Wd5_arg0 m ρ c)

/-! ### `main_arg1` at every boundary -/
theorem Wd0_arg1 (c : Dev nD) : Wd0 m ρ c (Proc.devRef .tc main_arg1) = m ((c : Thread nD τ).loc main_arg1) := rfl
theorem Wd1_arg1 (c : Dev nD) : Wd1 m ρ c (Proc.devRef .tc main_arg1) = m ((c : Thread nD τ).loc main_arg1) :=
  (Wd1_of_ne m ρ c main_arg1 (by decide)).trans (Wd0_arg1 m ρ c)
theorem Wd2_arg1 (c : Dev nD) : Wd2 m ρ c (Proc.devRef .tc main_arg1) = m ((c : Thread nD τ).loc main_arg1) :=
  (Wd2_keep m ρ c main_arg1 (by decide)).trans (Wd1_arg1 m ρ c)
theorem Wd3_arg1 (c : Dev nD) : Wd3 m ρ c (Proc.devRef .tc main_arg1) = m ((c : Thread nD τ).loc main_arg1) :=
  (Wd3_in m ρ c 0 rfl).trans (Wd2_arg1 m ρ c)
theorem Wd4_arg1 (c : Dev nD) : Wd4 m ρ c (Proc.devRef .tc main_arg1) = m ((c : Thread nD τ).loc main_arg1) :=
  (Wd4_of_ne m ρ c main_arg1 (by decide)).trans (Wd3_arg1 m ρ c)
theorem Wd5_arg1 (c : Dev nD) : Wd5 m ρ c (Proc.devRef .tc main_arg1) = m ((c : Thread nD τ).loc main_arg1) :=
  (Wd5_keep m ρ c main_arg1 (by decide)).trans (Wd4_arg1 m ρ c)
theorem Wd6_arg1 (c : Dev nD) : Wd6 m ρ c (Proc.devRef .tc main_arg1) = m ((c : Thread nD τ).loc main_arg1) :=
  (Wd6_of_ne m ρ c main_arg1 (by decide)).trans (Wd5_arg1 m ρ c)

/-! ### `main_arg2` at every boundary -/
theorem Wd0_arg2 (c : Dev nD) : Wd0 m ρ c (Proc.devRef .tc main_arg2) = m ((c : Thread nD τ).loc main_arg2) := rfl
theorem Wd1_arg2 (c : Dev nD) : Wd1 m ρ c (Proc.devRef .tc main_arg2) = m ((c : Thread nD τ).loc main_arg2) :=
  (Wd1_of_ne m ρ c main_arg2 (by decide)).trans (Wd0_arg2 m ρ c)
theorem Wd2_arg2 (c : Dev nD) : Wd2 m ρ c (Proc.devRef .tc main_arg2) = m ((c : Thread nD τ).loc main_arg2) :=
  (Wd2_keep m ρ c main_arg2 (by decide)).trans (Wd1_arg2 m ρ c)
theorem Wd3_arg2 (c : Dev nD) : Wd3 m ρ c (Proc.devRef .tc main_arg2) = m ((c : Thread nD τ).loc main_arg2) :=
  (Wd3_of_ne m ρ c main_arg2 (by decide)).trans (Wd2_arg2 m ρ c)
theorem Wd4_arg2 (c : Dev nD) : Wd4 m ρ c (Proc.devRef .tc main_arg2) = m ((c : Thread nD τ).loc main_arg2) :=
  (Wd4_of_ne m ρ c main_arg2 (by decide)).trans (Wd3_arg2 m ρ c)
theorem Wd5_arg2 (c : Dev nD) : Wd5 m ρ c (Proc.devRef .tc main_arg2) = m ((c : Thread nD τ).loc main_arg2) :=
  (Wd5_keep m ρ c main_arg2 (by decide)).trans (Wd4_arg2 m ρ c)
theorem Wd6_arg2 (c : Dev nD) : Wd6 m ρ c (Proc.devRef .tc main_arg2) = m ((c : Thread nD τ).loc main_arg2) :=
  (Wd6_in m ρ c 0 rfl).trans (Wd5_arg2 m ρ c)

/-! ### `main_arg3` at every boundary -/
theorem Wd0_arg3 (c : Dev nD) : Wd0 m ρ c (Proc.devRef .tc main_arg3) = m ((c : Thread nD τ).loc main_arg3) := rfl
theorem Wd1_arg3 (c : Dev nD) : Wd1 m ρ c (Proc.devRef .tc main_arg3) = m ((c : Thread nD τ).loc main_arg3) :=
  (Wd1_in m ρ c 1 rfl).trans (Wd0_arg3 m ρ c)
theorem Wd2_arg3 (c : Dev nD) : Wd2 m ρ c (Proc.devRef .tc main_arg3) = m ((c : Thread nD τ).loc main_arg3) :=
  (Wd2_keep m ρ c main_arg3 (by decide)).trans (Wd1_arg3 m ρ c)
theorem Wd3_arg3 (c : Dev nD) : Wd3 m ρ c (Proc.devRef .tc main_arg3) = m ((c : Thread nD τ).loc main_arg3) :=
  (Wd3_of_ne m ρ c main_arg3 (by decide)).trans (Wd2_arg3 m ρ c)
theorem Wd4_arg3 (c : Dev nD) : Wd4 m ρ c (Proc.devRef .tc main_arg3) = m ((c : Thread nD τ).loc main_arg3) :=
  (Wd4_of_ne m ρ c main_arg3 (by decide)).trans (Wd3_arg3 m ρ c)
theorem Wd5_arg3 (c : Dev nD) : Wd5 m ρ c (Proc.devRef .tc main_arg3) = m ((c : Thread nD τ).loc main_arg3) :=
  (Wd5_keep m ρ c main_arg3 (by decide)).trans (Wd4_arg3 m ρ c)
theorem Wd6_arg3 (c : Dev nD) : Wd6 m ρ c (Proc.devRef .tc main_arg3) = m ((c : Thread nD τ).loc main_arg3) :=
  (Wd6_of_ne m ρ c main_arg3 (by decide)).trans (Wd5_arg3 m ρ c)

/-! ### `main_arg4` at every boundary -/
theorem Wd0_arg4 (c : Dev nD) : Wd0 m ρ c (Proc.devRef .tc main_arg4) = m ((c : Thread nD τ).loc main_arg4) := rfl
theorem Wd1_arg4 (c : Dev nD) : Wd1 m ρ c (Proc.devRef .tc main_arg4) = m ((c : Thread nD τ).loc main_arg4) :=
  (Wd1_of_ne m ρ c main_arg4 (by decide)).trans (Wd0_arg4 m ρ c)
theorem Wd2_arg4 (c : Dev nD) : Wd2 m ρ c (Proc.devRef .tc main_arg4) = m ((c : Thread nD τ).loc main_arg4) :=
  (Wd2_keep m ρ c main_arg4 (by decide)).trans (Wd1_arg4 m ρ c)
theorem Wd3_arg4 (c : Dev nD) : Wd3 m ρ c (Proc.devRef .tc main_arg4) = m ((c : Thread nD τ).loc main_arg4) :=
  (Wd3_of_ne m ρ c main_arg4 (by decide)).trans (Wd2_arg4 m ρ c)
theorem Wd4_arg4 (c : Dev nD) : Wd4 m ρ c (Proc.devRef .tc main_arg4) = m ((c : Thread nD τ).loc main_arg4) :=
  (Wd4_of_ne m ρ c main_arg4 (by decide)).trans (Wd3_arg4 m ρ c)
theorem Wd5_arg4 (c : Dev nD) : Wd5 m ρ c (Proc.devRef .tc main_arg4) = m ((c : Thread nD τ).loc main_arg4) :=
  (Wd5_keep m ρ c main_arg4 (by decide)).trans (Wd4_arg4 m ρ c)
theorem Wd6_arg4 (c : Dev nD) : Wd6 m ρ c (Proc.devRef .tc main_arg4) = m ((c : Thread nD τ).loc main_arg4) :=
  (Wd6_of_ne m ρ c main_arg4 (by decide)).trans (Wd5_arg4 m ρ c)

/-! ### `main_arg5` at every boundary -/
theorem Wd0_arg5 (c : Dev nD) : Wd0 m ρ c (Proc.devRef .tc main_arg5) = m ((c : Thread nD τ).loc main_arg5) := rfl
theorem Wd1_arg5 (c : Dev nD) : Wd1 m ρ c (Proc.devRef .tc main_arg5) = m ((c : Thread nD τ).loc main_arg5) :=
  (Wd1_of_ne m ρ c main_arg5 (by decide)).trans (Wd0_arg5 m ρ c)
theorem Wd2_arg5 (c : Dev nD) : Wd2 m ρ c (Proc.devRef .tc main_arg5) = m ((c : Thread nD τ).loc main_arg5) :=
  (Wd2_keep m ρ c main_arg5 (by decide)).trans (Wd1_arg5 m ρ c)
theorem Wd3_arg5 (c : Dev nD) : Wd3 m ρ c (Proc.devRef .tc main_arg5) = m ((c : Thread nD τ).loc main_arg5) :=
  (Wd3_of_ne m ρ c main_arg5 (by decide)).trans (Wd2_arg5 m ρ c)
theorem Wd4_arg5 (c : Dev nD) : Wd4 m ρ c (Proc.devRef .tc main_arg5) = m ((c : Thread nD τ).loc main_arg5) :=
  (Wd4_in m ρ c 1 rfl).trans (Wd3_arg5 m ρ c)
theorem Wd5_arg5 (c : Dev nD) : Wd5 m ρ c (Proc.devRef .tc main_arg5) = m ((c : Thread nD τ).loc main_arg5) :=
  (Wd5_keep m ρ c main_arg5 (by decide)).trans (Wd4_arg5 m ρ c)
theorem Wd6_arg5 (c : Dev nD) : Wd6 m ρ c (Proc.devRef .tc main_arg5) = m ((c : Thread nD τ).loc main_arg5) :=
  (Wd6_of_ne m ρ c main_arg5 (by decide)).trans (Wd5_arg5 m ρ c)

/-! ### `main_arg6` at every boundary -/
theorem Wd0_arg6 (c : Dev nD) : Wd0 m ρ c (Proc.devRef .tc main_arg6) = m ((c : Thread nD τ).loc main_arg6) := rfl
theorem Wd1_arg6 (c : Dev nD) : Wd1 m ρ c (Proc.devRef .tc main_arg6) = m ((c : Thread nD τ).loc main_arg6) :=
  (Wd1_of_ne m ρ c main_arg6 (by decide)).trans (Wd0_arg6 m ρ c)
theorem Wd2_arg6 (c : Dev nD) : Wd2 m ρ c (Proc.devRef .tc main_arg6) = m ((c : Thread nD τ).loc main_arg6) :=
  (Wd2_keep m ρ c main_arg6 (by decide)).trans (Wd1_arg6 m ρ c)
theorem Wd3_arg6 (c : Dev nD) : Wd3 m ρ c (Proc.devRef .tc main_arg6) = m ((c : Thread nD τ).loc main_arg6) :=
  (Wd3_of_ne m ρ c main_arg6 (by decide)).trans (Wd2_arg6 m ρ c)
theorem Wd4_arg6 (c : Dev nD) : Wd4 m ρ c (Proc.devRef .tc main_arg6) = m ((c : Thread nD τ).loc main_arg6) :=
  (Wd4_of_ne m ρ c main_arg6 (by decide)).trans (Wd3_arg6 m ρ c)
theorem Wd5_arg6 (c : Dev nD) : Wd5 m ρ c (Proc.devRef .tc main_arg6) = m ((c : Thread nD τ).loc main_arg6) :=
  (Wd5_keep m ρ c main_arg6 (by decide)).trans (Wd4_arg6 m ρ c)
theorem Wd6_arg6 (c : Dev nD) : Wd6 m ρ c (Proc.devRef .tc main_arg6) = m ((c : Thread nD τ).loc main_arg6) :=
  (Wd6_of_ne m ρ c main_arg6 (by decide)).trans (Wd5_arg6 m ρ c)

/-! ### `main_arg7` at every boundary -/
theorem Wd0_arg7 (c : Dev nD) : Wd0 m ρ c (Proc.devRef .tc main_arg7) = m ((c : Thread nD τ).loc main_arg7) := rfl
theorem Wd1_arg7 (c : Dev nD) : Wd1 m ρ c (Proc.devRef .tc main_arg7) = m ((c : Thread nD τ).loc main_arg7) :=
  (Wd1_of_ne m ρ c main_arg7 (by decide)).trans (Wd0_arg7 m ρ c)
theorem Wd2_arg7 (c : Dev nD) : Wd2 m ρ c (Proc.devRef .tc main_arg7) = m ((c : Thread nD τ).loc main_arg7) :=
  (Wd2_keep m ρ c main_arg7 (by decide)).trans (Wd1_arg7 m ρ c)
theorem Wd3_arg7 (c : Dev nD) : Wd3 m ρ c (Proc.devRef .tc main_arg7) = m ((c : Thread nD τ).loc main_arg7) :=
  (Wd3_of_ne m ρ c main_arg7 (by decide)).trans (Wd2_arg7 m ρ c)
theorem Wd4_arg7 (c : Dev nD) : Wd4 m ρ c (Proc.devRef .tc main_arg7) = m ((c : Thread nD τ).loc main_arg7) :=
  (Wd4_of_ne m ρ c main_arg7 (by decide)).trans (Wd3_arg7 m ρ c)
theorem Wd5_arg7 (c : Dev nD) : Wd5 m ρ c (Proc.devRef .tc main_arg7) = m ((c : Thread nD τ).loc main_arg7) :=
  (Wd5_keep m ρ c main_arg7 (by decide)).trans (Wd4_arg7 m ρ c)
theorem Wd6_arg7 (c : Dev nD) : Wd6 m ρ c (Proc.devRef .tc main_arg7) = m ((c : Thread nD τ).loc main_arg7) :=
  (Wd6_of_ne m ρ c main_arg7 (by decide)).trans (Wd5_arg7 m ρ c)

/-! ### `main_arg8` at every boundary -/
theorem Wd0_arg8 (c : Dev nD) : Wd0 m ρ c (Proc.devRef .tc main_arg8) = m ((c : Thread nD τ).loc main_arg8) := rfl
theorem Wd1_arg8 (c : Dev nD) : Wd1 m ρ c (Proc.devRef .tc main_arg8) = m ((c : Thread nD τ).loc main_arg8) :=
  (Wd1_of_ne m ρ c main_arg8 (by decide)).trans (Wd0_arg8 m ρ c)
theorem Wd2_arg8 (c : Dev nD) : Wd2 m ρ c (Proc.devRef .tc main_arg8) = m ((c : Thread nD τ).loc main_arg8) :=
  (Wd2_keep m ρ c main_arg8 (by decide)).trans (Wd1_arg8 m ρ c)
theorem Wd3_arg8 (c : Dev nD) : Wd3 m ρ c (Proc.devRef .tc main_arg8) = m ((c : Thread nD τ).loc main_arg8) :=
  (Wd3_of_ne m ρ c main_arg8 (by decide)).trans (Wd2_arg8 m ρ c)
theorem Wd4_arg8 (c : Dev nD) : Wd4 m ρ c (Proc.devRef .tc main_arg8) = m ((c : Thread nD τ).loc main_arg8) :=
  (Wd4_of_ne m ρ c main_arg8 (by decide)).trans (Wd3_arg8 m ρ c)
theorem Wd5_arg8 (c : Dev nD) : Wd5 m ρ c (Proc.devRef .tc main_arg8) = m ((c : Thread nD τ).loc main_arg8) :=
  (Wd5_keep m ρ c main_arg8 (by decide)).trans (Wd4_arg8 m ρ c)
theorem Wd6_arg8 (c : Dev nD) : Wd6 m ρ c (Proc.devRef .tc main_arg8) = m ((c : Thread nD τ).loc main_arg8) :=
  (Wd6_of_ne m ρ c main_arg8 (by decide)).trans (Wd5_arg8 m ρ c)

/-! ### `main_arg9` at every boundary -/
theorem Wd0_arg9 (c : Dev nD) : Wd0 m ρ c (Proc.devRef .tc main_arg9) = m ((c : Thread nD τ).loc main_arg9) := rfl
theorem Wd1_arg9 (c : Dev nD) : Wd1 m ρ c (Proc.devRef .tc main_arg9) = m ((c : Thread nD τ).loc main_arg9) :=
  (Wd1_of_ne m ρ c main_arg9 (by decide)).trans (Wd0_arg9 m ρ c)
theorem Wd2_arg9 (c : Dev nD) : Wd2 m ρ c (Proc.devRef .tc main_arg9) = m ((c : Thread nD τ).loc main_arg9) :=
  (Wd2_keep m ρ c main_arg9 (by decide)).trans (Wd1_arg9 m ρ c)
theorem Wd3_arg9 (c : Dev nD) : Wd3 m ρ c (Proc.devRef .tc main_arg9) = m ((c : Thread nD τ).loc main_arg9) :=
  (Wd3_of_ne m ρ c main_arg9 (by decide)).trans (Wd2_arg9 m ρ c)
theorem Wd4_arg9 (c : Dev nD) : Wd4 m ρ c (Proc.devRef .tc main_arg9) = m ((c : Thread nD τ).loc main_arg9) :=
  (Wd4_of_ne m ρ c main_arg9 (by decide)).trans (Wd3_arg9 m ρ c)
theorem Wd5_arg9 (c : Dev nD) : Wd5 m ρ c (Proc.devRef .tc main_arg9) = m ((c : Thread nD τ).loc main_arg9) :=
  (Wd5_keep m ρ c main_arg9 (by decide)).trans (Wd4_arg9 m ρ c)
theorem Wd6_arg9 (c : Dev nD) : Wd6 m ρ c (Proc.devRef .tc main_arg9) = m ((c : Thread nD τ).loc main_arg9) :=
  (Wd6_of_ne m ρ c main_arg9 (by decide)).trans (Wd5_arg9 m ρ c)

/-! ### `main_arg10` at every boundary -/
theorem Wd0_arg10 (c : Dev nD) : Wd0 m ρ c (Proc.devRef .tc main_arg10) = m ((c : Thread nD τ).loc main_arg10) := rfl
theorem Wd1_arg10 (c : Dev nD) : Wd1 m ρ c (Proc.devRef .tc main_arg10) = m ((c : Thread nD τ).loc main_arg10) :=
  (Wd1_of_ne m ρ c main_arg10 (by decide)).trans (Wd0_arg10 m ρ c)
theorem Wd2_arg10 (c : Dev nD) : Wd2 m ρ c (Proc.devRef .tc main_arg10) = m ((c : Thread nD τ).loc main_arg10) :=
  (Wd2_keep m ρ c main_arg10 (by decide)).trans (Wd1_arg10 m ρ c)
theorem Wd3_arg10 (c : Dev nD) : Wd3 m ρ c (Proc.devRef .tc main_arg10) = m ((c : Thread nD τ).loc main_arg10) :=
  (Wd3_of_ne m ρ c main_arg10 (by decide)).trans (Wd2_arg10 m ρ c)
theorem Wd4_arg10 (c : Dev nD) : Wd4 m ρ c (Proc.devRef .tc main_arg10) = m ((c : Thread nD τ).loc main_arg10) :=
  (Wd4_of_ne m ρ c main_arg10 (by decide)).trans (Wd3_arg10 m ρ c)
theorem Wd5_arg10 (c : Dev nD) : Wd5 m ρ c (Proc.devRef .tc main_arg10) = m ((c : Thread nD τ).loc main_arg10) :=
  (Wd5_keep m ρ c main_arg10 (by decide)).trans (Wd4_arg10 m ρ c)
theorem Wd6_arg10 (c : Dev nD) : Wd6 m ρ c (Proc.devRef .tc main_arg10) = m ((c : Thread nD τ).loc main_arg10) :=
  (Wd6_of_ne m ρ c main_arg10 (by decide)).trans (Wd5_arg10 m ρ c)

/-- The frame: from any memory with zero counters every weakly fair execution of @main terminates, nothing faulting,
    and every final state holds the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (Wd6_arg0 m ρ c),
     (h c _ (mem_ucH main_arg1 (by decide))).trans (Wd6_arg1 m ρ c),
     (h c _ (mem_ucH main_arg2 (by decide))).trans (Wd6_arg2 m ρ c),
     (h c _ (mem_ucH main_arg3 (by decide))).trans (Wd6_arg3 m ρ c),
     (h c _ (mem_ucH main_arg4 (by decide))).trans (Wd6_arg4 m ρ c),
     (h c _ (mem_ucH main_arg5 (by decide))).trans (Wd6_arg5 m ρ c),
     (h c _ (mem_ucH main_arg6 (by decide))).trans (Wd6_arg6 m ρ c),
     (h c _ (mem_ucH main_arg7 (by decide))).trans (Wd6_arg7 m ρ c),
     (h c _ (mem_ucH main_arg8 (by decide))).trans (Wd6_arg8 m ρ c),
     (h c _ (mem_ucH main_arg9 (by decide))).trans (Wd6_arg9 m ρ c),
     (h c _ (mem_ucH main_arg10 (by decide))).trans (Wd6_arg10 m ρ c)⟩)
    (run_main m ρ)

end Cert.Kernel.Fr

end
-- ==== Proof.KI.Region0.lean ====
import proofs.«111958_j2972117368867_1_alg».proof.Proof.Gen.KernelIdeal.Launch
import proofs.«111958_j2972117368867_1_alg».proof.Proof.Gen.KernelIdeal.Skeleton
import proofs.«111958_j2972117368867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: one dense product per grid point

The array behind window 0 is cut into eight row blocks; the array behind window 1 is staged whole, once; the
array behind window 2 receives, at point `t`, the product of row block `t` of the first with the whole second.
Everything is stated at `V`, the TensorCore's buffer contents when the region is entered. -/

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds row block `t` at point `t`: the block index moves at every point, so the
    block is fetched at every point, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole right factor at every point: its block index is constant, so it
    is fetched at the first point only, and at a later point the buffer still holds what the point before left, which
    is the same block since the body leaves it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1024x512 := Rect.unit (s := S1024x512) ![0, 0] S1024x512.size inb_S1024x512_S1024x512_0_0

/-! ## What the body leaves in the output window's buffer -/

/-- The product's staging buffer after the body: one store over the whole buffer, of the product of the two
    factors' buffers (each rounded to sixteen bits first, accumulated from zero). -/
def out0_2 (x0 : Vec F S1024x1024 .f32) (x1 : Vec F S1024x512 .f32) : Vec F S1024x512 .f32 :=
  View.canon [⟨r0_2, k0_pay1 (View.ld x0 r0_0) (View.ld x1 r0_1)⟩]

/-- The one store's rectangle is the whole buffer, so it covers every index. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

/-! ## The body's triple -/

set_option maxHeartbeats 1000000 in
/-- The body on whole staging memrefs — the factors' at read contents `x0`, `x1`, the product's at anything — runs to
    the continuation with the factors' buffers as they were and the product's at `out0_2 x0 x1`. The body also reads
    the product's buffer before it stores there; what it reads is not used by the stored value. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1024x512 .f32) (harg3 : arg3.IsWhole)
    (x0 : Vec F S1024x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the region finds them; after the body at point `t` each factor's
    buffer at its block and the product's at `out0_2` of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each factor's buffer: its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point, so the region enters and leaves with it as it stands. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end

end Cert.KernelIdeal.Fr

end
-- ==== Proof.KI.Region1.lean ====
import proofs.«111958_j2972117368867_1_alg».proof.Proof.Gen.KernelIdeal.Launch
import proofs.«111958_j2972117368867_1_alg».proof.Proof.Gen.KernelIdeal.Skeleton
import proofs.«111958_j2972117368867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the hidden layer, accumulated over column blocks of the adjacency matrix -/

/-! ## The body's two conditions on the grid point -/

/-- The first conditional's test: the column-block coordinate is 0 (the accumulator is cleared there). -/
abbrev cond1_0 (i : grid1.Coords) : Prop :=
  (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the column-block coordinate is 7 (the output block is produced there). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last column block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block it is live. -/
theorem liveAt1_3 : ∀ t : Fin cfg1.N, cond1_1 (grid1.coords t) → cfg1.idle 3 (grid1.coords t) = false := by decide +kernel

/-! ## One whole-buffer store -/

/-- A buffer whose newest store went through the whole-shape rectangle at zero offsets reads as that store's payload. -/
theorem r1_read_store_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  exact View.read_writes_cons_unit_of_mem v f inb w L y y h (fun a => by show (y a).val = 0 + (y a).val; omega)

/-! ## The body's accesses -/

/-- The rows of the resident feature matrix the body reads at grid point `i`. -/
abbrev r1_rows (i : grid1.Coords) : Rect S8192x512 := Rect.unit (s := S8192x512) (k1_off1 i) S1024x512.size (k1_off1_inb i)

/-- The zero offsets of a rank-2 access, as the constant function. -/
theorem r1_zero2 : (![0, 0] : Fin 2 → Nat) = fun _ => 0 := by funext a; fin_cases a <;> rfl

/-- A load through the whole-shape rectangle at zero offsets reads the buffer's contents. -/
theorem r1_readAt_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-! ## The body on whole staging buffers, case by case -/

set_option maxHeartbeats 1000000 in
/-- The first column block: the accumulator is cleared, then gains this block's product. -/
theorem r1_run_A (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : cond1_0 i) (hc1 : ¬cond1_1 i)
    (x0 : Vec F S1024x1024 .f32) (x1 : Vec F S8192x512 .f32) (x2 : Vec F S1x512 .f32) (xi3 : Vec F S1024x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (r1_rows i)) k1_pay1)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [r1_read_store_whole arg6.view fs r1_zero2, View.readCov_unit_zero arg6.view r1_zero2, r1_readAt_whole arg2.view f0 r1_zero2]
  rfl

set_option maxHeartbeats 1000000 in
/-- A middle column block: the accumulator gains this block's product. -/
theorem r1_run_B (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1_0 i) (hc1 : ¬cond1_1 i)
    (x0 : Vec F S1024x1024 .f32) (x1 : Vec F S8192x512 .f32) (x2 : Vec F S1x512 .f32) (xi3 : Vec F S1024x512 .f32)
    (xs : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (r1_rows i)) xs)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [r1_read_store_whole arg6.view fs r1_zero2, r1_readAt_whole arg2.view f0 r1_zero2, r1_readAt_whole arg6.view fs r1_zero2]
  rfl

set_option maxHeartbeats 1000000 in
/-- The last column block: the accumulator gains this block's product, and the output block is the accumulator plus
    the bias along the rows, rectified. -/
theorem r1_run_C (c : Dev nD) (E : Set ℕ) (i : grid1.Coords)
    (arg2 : Memref sig .tc .vmem S1024x1024 .f32) (harg2 : arg2.IsWhole) (arg3 : Memref sig .tc .vmem S8192x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1_0 i) (hc1 : cond1_1 i)
    (x0 : Vec F S1024x1024 .f32) (x1 : Vec F S8192x512 .f32) (x2 : Vec F S1x512 .f32)
    (xs : Vec F S1024x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 (View.ld x1 (r1_rows i)) xs) x2)
            ∗ owns (c : Thread nD τ) arg6 fullShare (k1_pay2 x0 (View.ld x1 (r1_rows i)) xs)) -∗ K ⟨⟩))
      ⊢ wp frame (wpE (defs₀ (F := F)) Variants.none c none) E
          (cc1__big_mm_bias_relu_kernel i arg2 harg2 arg3 harg3 arg4 harg4 arg5 harg5 arg6 harg6) K := by
  simp only [cc1__big_mm_bias_relu_kernel_eq_skeleton]; unfold cc1__big_mm_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [r1_read_store_whole arg5.view f3 r1_zero2, View.readCov_unit_zero arg6.view r1_zero2, r1_readAt_whole arg2.view f0 r1_zero2,
      r1_readAt_whole arg6.view fs r1_zero2, r1_readAt_whole arg4.view f2 r1_zero2]
    rfl
  iexists _; isplitr
  swap; · iexact HS
  ipureintro
  sl_unfold_run_names
  rw [r1_read_store_whole arg6.view fs r1_zero2, r1_readAt_whole arg2.view f0 r1_zero2, r1_readAt_whole arg6.view fs r1_zero2]
  rfl

/-! ## The invariant: the accumulator beside the rest of the core's scoped buffers -/

/-- The accumulator as a memref: a whole scoped buffer of the kernel's own, passed beside the windows. -/
abbrev scM1 : Memref sig .tc .vmem S1024x512 .f32 := Memref.whole cc1_scratch0

/-- The core's scoped buffers that are neither staging buffers of this call nor its accumulator, each at some contents:
    what the body never touches. -/
def Rest1 (c : Dev nD) : sProp 𝕄 :=
  Pipeline.scopedRestBut (Ix := Unit) (Name := ℕ) (U := UR sig nD τ) (Lvl := ℕ) (Val := Elt F) spec1 c [cc1_scratch0]

/-- The region's entry invariant is the accumulator at some contents beside the rest and the generator register. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA Rest1
  rw [Pipeline.scopedRest_split_of_list spec1 c [cc1_scratch0] (by decide) (by decide)]
  simp only [scM1, owns_whole]; rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block's staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident feature matrix's staging buffer holds the whole matrix at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- One point's update: the accumulator `s` gains the product of the point's adjacency block with the rows of the
    feature matrix that the block's columns name. -/
def step1 (c : Dev nD) (t : Fin cfg1.N) (s : Vec F S1024x512 .f32) : Vec F S1024x512 .f32 :=
  k1_pay2 (iblk1 V c 0 t) (View.ld (iblk1 V c 1 t) (r1_rows (grid1.coords t))) s

/-- THE ACCUMULATION. The accumulator after the body at position `n`: at the first column block of a row block the
    update of the cleared accumulator, elsewhere the update of what the point before left. -/
def acc1 (c : Dev nD) : (n : ℕ) → n < cfg1.N → Vec F S1024x512 .f32
  | 0, hn => step1 V c ⟨0, hn⟩ k1_pay1
  | n + 1, hn =>
    if (n + 1) % 8 = 0 then step1 V c ⟨n + 1, hn⟩ k1_pay1
    else step1 V c ⟨n + 1, hn⟩ (acc1 c n (Nat.lt_of_succ_lt hn))

/-- At a first column block the accumulator restarts. -/
theorem acc1_first (c : Dev nD) (t : Fin cfg1.N) (h0 : t.val % 8 = 0) :
    acc1 V c t.val t.isLt = step1 V c t k1_pay1 := by
  obtain ⟨n, hn⟩ := t
  cases n with
  | zero => rfl
  | succ n => exact if_pos h0

/-- Elsewhere it continues from the point before. -/
theorem acc1_next (c : Dev nD) (t : Fin cfg1.N) (h0 : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: at the start the class's; afterwards the accumulator at what the point
    before left, beside the rest and the generator register. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ Rest1 (F := F) c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn) ∗ Rest1 (F := F) c) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega)) ∗ Rest1 (F := F) c) ∗ (∃ r, prngReg c r)) := by
  cases n with
  | zero => exact absurd rfl hz
  | succ n => rfl

/-! ## The pipeline's proof data -/

/-- The proof data of this call on core `c`: the arrays as the region finds them; after the body at point `t` each
    input's buffer at its block, and the output's at the rectified biased accumulator (consulted at the last column
    blocks only: elsewhere the window is idle); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- Each window's current staging memref at point `t`, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. By the column-block coordinate `k = t mod 8`:
    at `k = 0` the accumulator (at anything at the very first point, at what the row block before left otherwise) is
    cleared and gains the first product, the output window idle; at `0 < k < 7` the accumulator the point before left
    gains this block's product, the output window idle; at `k = 7` it gains the last product and the output block is
    produced from it. `k = 0` and `k = 7` exclude each other. The invariant takes the accumulator back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    unfold step1
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (r1_run_A c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_A c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      unfold step1
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_C c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [acc1_next V c t h0]
      unfold step1
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (r1_run_B c Set.univ (grid1.coords t) _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the accumulator's contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 64 := N_1; omega)

end Cert.KernelIdeal.Fr

end
-- ==== Proof.KI.Region2.lean ====
import proofs.«111958_j2972117368867_1_alg».proof.Proof.Gen.KernelIdeal.Launch
import proofs.«111958_j2972117368867_1_alg».proof.Proof.Gen.KernelIdeal.Skeleton
import proofs.«111958_j2972117368867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: one dense product per grid point

The array behind window 0 is cut into eight row blocks; the array behind window 1 is staged whole, once; the
array behind window 2 receives, at point `t`, the product of row block `t` of the first with the whole second.
Everything is stated at `V`, the TensorCore's buffer contents when the region is entered. -/

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds row block `t` at point `t`: the block index moves at every point, so the
    block is fetched at every point, and the body leaves it as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging buffer holds the whole right factor at every point: its block index is constant, so it
    is fetched at the first point only, and at a later point the buffer still holds what the point before left, which
    is the same block since the body leaves it as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x512 := Rect.unit (s := S1024x512) ![0, 0] S1024x512.size inb_S1024x512_S1024x512_0_0
abbrev r2_1 : Rect S512x256 := Rect.unit (s := S512x256) ![0, 0] S512x256.size inb_S512x256_S512x256_0_0
abbrev r2_2 : Rect S1024x256 := Rect.unit (s := S1024x256) ![0, 0] S1024x256.size inb_S1024x256_S1024x256_0_0

/-! ## What the body leaves in the output window's buffer -/

/-- The product's staging buffer after the body: one store over the whole buffer, of the product of the two
    factors' buffers (each rounded to sixteen bits first, accumulated from zero). -/
def out2_2 (x0 : Vec F S1024x512 .f32) (x1 : Vec F S512x256 .f32) : Vec F S1024x256 .f32 :=
  View.canon [⟨r2_2, k2_pay1 (View.ld x0 r2_0) (View.ld x1 r2_1)⟩]

/-- The one store's rectangle is the whole buffer, so it covers every index. -/
theorem cover2_2 (p0 : Vec F S1024x256 .f32) (y : S1024x256.Idx) :
    ∃ pc ∈ ([⟨r2_2, p0⟩] : List (View.Piece (Elt F) S1024x256 .f32)), y ∈ pc.1.set :=
  View.cover_of_tiled [⟨r2_2, p0⟩] S1024x256.size (by rfl) y

/-! ## The body's triple -/

set_option maxHeartbeats 1000000 in
/-- The body on whole staging memrefs — the factors' at read contents `x0`, `x1`, the product's at anything — runs to
    the continuation with the factors' buffers as they were and the product's at `out2_2 x0 x1`. The body also reads
    the product's buffer before it stores there; what it reads is not used by the stored value. -/
theorem sound_kernel2 (c : Dev nD) (E : Set ℕ) (i : grid2.Coords) (arg1 : Memref sig .tc .vmem S1024x512 .f32) (harg1 : arg1.IsWhole) (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data on core `c`: the arrays as the region finds them; after the body at point `t` each factor's
    buffer at its block and the product's at `out2_2` of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each factor's buffer: its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant is the same at every point, so the region enters and leaves with it as it stands. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

end

end Cert.KernelIdeal.Fr

end
-- ==== Proof.KI.Region3.lean ====
/-
  Region 3 of the program: the output layer `(A₂ · S₂ + b₂) · inv + shift` as a pipelined reduction.

  The grid is 8 × 8, point `t = 8 i + k`: row block `i` of the result, column block `k` of the adjacency matrix.
  Window 0 is the adjacency block `(i, k)`, window 1 the whole support matrix `S₂` (resident; the body reads its rows
  `[1024 k, 1024 k + 1024)`), windows 2, 3, 4 the bias, scale and shift rows, window 5 the result's row block `i`.
  An accumulator of the block's shape lives in a scratch buffer that the body carries from point to point: zeroed at
  `k = 0`, one block product added at every `k`, and at `k = 7` the result block is stored as the accumulator plus the
  bias, times the scale, plus the shift. The result block is idle (neither stored nor written back) at `k < 7`.

  This module is the region's frame half at the entry contents `V`, for any float interpretation: the body's triple in
  each of the three cases of `k`, what the accumulator holds after each point (`r3_acc`), the region invariant carrying
  it (`r3_Phi`), the proof data (`dat3`) and the body obligation.
-/
import proofs.«111958_j2972117368867_1_alg».proof.Proof.Gen.KernelIdeal.Launch
import proofs.«111958_j2972117368867_1_alg».proof.Proof.Gen.KernelIdeal.Skeleton
import proofs.«111958_j2972117368867_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The kernel's first conditional (zero the accumulator) is taken exactly when the reduction coordinate is 0. -/
abbrev r3_c0 (i : grid3.Coords) : Prop := (Scalar.cmpi .ne (Scalar.extui (Scalar.cmpi .eq (BitVec.ofNat 32 (i 1).val) 0#32)) 0#32) = 1#1
/-- The second conditional (the affine epilogue and the store of the output block) is taken exactly when it is 7. -/
abbrev r3_c1 (i : grid3.Coords) : Prop := k3_cond2 i = 1#1

/-- The zero offsets of a whole-buffer access, as a constant function. -/
theorem r3_hz : (![0, 0] : Fin 2 → ℕ) = fun _ => 0 := by funext a; fin_cases a <;> rfl

/-- A store through the whole-shape rectangle, made last, leaves its payload whatever was stored before. -/
theorem r3_rw_unit {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 1000000 in
/-- At a point with reduction coordinate 0 the body zeroes the accumulator and adds the first product:
    the accumulator ends at the product of the adjacency block with the matching rows of the support matrix,
    added to zero; every input buffer and the (idle) output buffer are handed back as found. -/
theorem r3_run_first (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : r3_c0 i) (hc1 : ¬ r3_c1 i)
    (x0 : Vec F S1024x1024 .f32) (x1 : Vec F S8192x256 .f32) (x2 x3 x4 : Vec F S1x256 .f32) (x5 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 x0 (View.ld x1 (Rect.unit (s := S8192x256) (k3_off1 i) S1024x256.size (k3_off1_inb i))) (k3_pay1 (F := F)))) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

set_option maxHeartbeats 1000000 in
/-- At a point with reduction coordinate strictly between 0 and 7 the body adds one more product to the accumulator. -/
theorem r3_run_mid (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬ r3_c0 i) (hc1 : ¬ r3_c1 i)
    (x0 : Vec F S1024x1024 .f32) (x1 : Vec F S8192x256 .f32) (x2 x3 x4 : Vec F S1x256 .f32) (x5 : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 x0 (View.ld x1 (Rect.unit (s := S8192x256) (k3_off1 i) S1024x256.size (k3_off1_inb i))) xs)) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

set_option maxHeartbeats 1000000 in
/-- At a point with reduction coordinate 7 the body adds the last product, then stores into the output block
    the accumulator plus the bias row, times the scale row, plus the shift row (each row broadcast down the block). -/
theorem r3_run_last (c : Dev nD) (i : grid3.Coords) (arg2 : Memref sig .tc .vmem S1024x1024 .f32) (harg2 : arg2.IsWhole) (arg3 : Memref sig .tc .vmem S8192x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (hc0 : ¬ r3_c0 i) (hc1 : r3_c1 i)
    (x0 : Vec F S1024x1024 .f32) (x1 : Vec F S8192x256 .f32) (x2 x3 x4 : Vec F S1x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay3 (k3_pay2 x0 (View.ld x1 (Rect.unit (s := S8192x256) (k3_off1 i) S1024x256.size (k3_off1_inb i))) xs) x2 x3 x4)
            ∗ owns (c : Thread nD τ) arg8 fullShare (k3_pay2 x0 (View.ld x1 (Rect.unit (s := S8192x256) (k3_off1 i) S1024x256.size (k3_off1_inb i))) xs)) -∗ K ⟨⟩))
      ⊢ wp frame (wpE (defs₀ (F := F)) Variants.none c none) E (cc3__big_mm_bias_affine_kernel i arg2 harg2 arg3 harg3 arg4 harg4 arg5 harg5 arg6 harg6 arg7 harg7 arg8 harg8) K := by
  simp only [cc3__big_mm_bias_affine_kernel_eq_skeleton]; unfold cc3__big_mm_bias_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [r3_rw_unit _ _ r3_hz]
    simp only [View.readAt_eq_ld, View.ld_unit_zero (S := S1024x1024) r3_hz, View.ld_unit_zero (S := S1024x256) r3_hz, View.ld_unit_zero (S := S1x256) r3_hz, View.readCov_unit_zero (S := S1024x256) _ r3_hz]
  iexists _; isplitr
  swap; · iexact HS
  ipureintro
  sl_unfold_run_names
  rw [r3_rw_unit _ _ r3_hz]
  simp only [View.readAt_eq_ld, View.ld_unit_zero (S := S1024x1024) r3_hz, View.ld_unit_zero (S := S1024x256) r3_hz, View.ld_unit_zero (S := S1x256) r3_hz, View.readCov_unit_zero (S := S1024x256) _ r3_hz]

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: a point that
    does not fetch it has the block index of the point before, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: a point that
    does not fetch it has the block index of the point before, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: a point that
    does not fetch it has the block index of the point before, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: a point that
    does not fetch it has the block index of the point before, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: a point that
    does not fetch it has the block index of the point before, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The conditions and the idle points, in closed form over the 64 points (point `t = 8 i + k`) -/

theorem hcond3_0 : ∀ t : Fin cfg3.N, r3_c0 (grid3.coords t) ↔ t.val % 8 = 0 :=
  (by decide +kernel : ∀ t : Fin grid3.N, r3_c0 (grid3.coords t) ↔ t.val % 8 = 0)
theorem hcond3_1 : ∀ t : Fin cfg3.N, r3_c1 (grid3.coords t) ↔ t.val % 8 = 7 :=
  (by decide +kernel : ∀ t : Fin grid3.N, r3_c1 (grid3.coords t) ↔ t.val % 8 = 7)

/-- The inputs are never idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl
theorem liveAt3_4 (t : Fin cfg3.N) : cfg3.idle 4 (grid3.coords t) = false := rfl
/-- The output block is idle, and not written back, except at the last reduction step `k = 7`. -/
theorem idleAt3_5 : ∀ t : Fin cfg3.N, ¬ t.val % 8 = 7 → cfg3.idle 5 (grid3.coords t) = true := by decide +kernel
theorem noFlush3_5 : ∀ t : Fin cfg3.N, ¬ t.val % 8 = 7 → (cfg3.win 5).flush t = false := by decide +kernel
theorem liveAt3_5 : ∀ t : Fin cfg3.N, t.val % 8 = 7 → cfg3.idle 5 (grid3.coords t) = false := by decide +kernel

/-! ## The accumulator point by point -/

/-- The scratch accumulator as a memref. -/
abbrev scM3 : Memref sig .tc .vmem S1024x256 .f32 := Memref.whole cc3_scratch0

/-- The rows of the support matrix that point `t` multiplies: rows `[1024 k, 1024 k + 1024)` of the resident window 1. -/
abbrev r3_slice (c : Dev nD) (t : Fin cfg3.N) : Vec F S1024x256 .f32 :=
  View.ld (iblk3 V c 1 t) (Rect.unit (s := S8192x256) (k3_off1 (grid3.coords t)) S1024x256.size (k3_off1_inb (grid3.coords t)))

/-- What the accumulator holds after the body at point `n`: at a point with `k = 0` the product of the point's
    adjacency block with its rows of the support matrix added to zero, elsewhere that product added to what the point
    before left. -/
def r3_acc (c : Dev nD) : (n : ℕ) → n < cfg3.N → Vec F S1024x256 .f32
  | 0, hn => k3_pay2 (iblk3 V c 0 ⟨0, hn⟩) (r3_slice V c ⟨0, hn⟩) (k3_pay1 (F := F))
  | n + 1, hn =>
    if (n + 1) % 8 = 0 then k3_pay2 (iblk3 V c 0 ⟨n + 1, hn⟩) (r3_slice V c ⟨n + 1, hn⟩) (k3_pay1 (F := F))
    else k3_pay2 (iblk3 V c 0 ⟨n + 1, hn⟩) (r3_slice V c ⟨n + 1, hn⟩) (r3_acc c n (Nat.lt_of_succ_lt hn))

theorem r3_acc_first (c : Dev nD) (t : Fin cfg3.N) (h0 : t.val % 8 = 0) :
    r3_acc V c t.val t.isLt = k3_pay2 (iblk3 V c 0 t) (r3_slice V c t) (k3_pay1 (F := F)) := by
  obtain ⟨n, hn⟩ := t
  cases n with
  | zero => rfl
  | succ n => exact if_pos h0

theorem r3_acc_next (c : Dev nD) (t : Fin cfg3.N) (h0 : ¬ t.val % 8 = 0) :
    r3_acc V c t.val t.isLt = k3_pay2 (iblk3 V c 0 t) (r3_slice V c t)
      (r3_acc V c (t.val - 1) (Nat.lt_of_le_of_lt (Nat.sub_le _ _) t.isLt)) := by
  obtain ⟨n, hn⟩ := t
  cases n with
  | zero => exact absurd (Nat.zero_mod _) h0
  | succ n => exact if_neg h0

/-- What the body stores into the output block at a point with `k = 7`: the accumulator plus the bias row, times the
    scale row, plus the shift row. (At the other points the block is idle and this is not consulted.) -/
def r3_out (c : Dev nD) (t : Fin cfg3.N) : Vec F S1024x256 .f32 :=
  k3_pay3 (r3_acc V c t.val t.isLt) (iblk3 V c 2 t) (iblk3 V c 3 t) (iblk3 V c 4 t)

/-! ## The invariant: the accumulator carried from point to point -/

/-- The class's invariant with the accumulator split off the other scoped buffers. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole]; rfl

/-- The region invariant before position `n`: before the first point the class's; afterwards the accumulator at what
    the point before left in it, the other scoped buffers at anything, the generator register at some state. -/
def r3_Phi (c : Dev nD) : (n : ℕ) → n ≤ cfg3.N → sProp 𝕄
  | 0, _ => Pipeline.ΦA spec3 c
  | n + 1, hn => iprop(iprop(owns (c : Thread nD τ) scM3 fullShare (r3_acc V c n hn) ∗ Pipeline.scopedRestBut (Ix := Unit) (Name := ℕ) (U := UR sig nD τ) (Lvl := ℕ) (Val := Elt F) spec3 c [cc3_scratch0]) ∗ (∃ r, prngReg c r))

theorem r3_Phi_zero (c : Dev nD) (n : ℕ) (h : n ≤ cfg3.N) (hz : n = 0) : r3_Phi V c n h = Pipeline.ΦA spec3 c := by
  subst hz; rfl

theorem r3_Phi_succ (c : Dev nD) (n : ℕ) (hn : n < cfg3.N) :
    r3_Phi V c (n + 1) hn = iprop(iprop(owns (c : Thread nD τ) scM3 fullShare (r3_acc V c n hn) ∗ Pipeline.scopedRestBut (Ix := Unit) (Name := ℕ) (U := UR sig nD τ) (Lvl := ℕ) (Val := Elt F) spec3 c [cc3_scratch0]) ∗ (∃ r, prngReg c r)) := rfl

theorem r3_Phi_pos (c : Dev nD) (n : ℕ) (h : n ≤ cfg3.N) (hz : n ≠ 0) :
    r3_Phi V c n h = iprop(iprop(owns (c : Thread nD τ) scM3 fullShare (r3_acc V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `r3_out`; the invariant carrying the accumulator; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => r3_out V c t
  Φ t := r3_Phi V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl

theorem r3_Phi_castSucc (c : Dev nD) (t : Fin cfg3.N) :
    (dat3 V c).Φ t.castSucc = r3_Phi V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = r3_out V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point `t = 8 i + k`. The inputs' buffers hold their blocks. By cases on `k`: at `k = 0` the
    accumulator is taken at anything (the class's invariant at the very first point, what the row before left
    elsewhere) and handed back at the first product; at `0 < k < 7` it is taken at what the point before left and
    handed back with one more product added; at `k = 7` moreover the output block is stored. Except at `k = 7` the
    output block is idle and goes back as it came. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = r3_Phi V c (t.val + 1) t.isLt from rfl, r3_Phi_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  have hN : t.val < 64 := lt_of_lt_of_eq t.isLt (show cfg3.N = 64 from N_3)
  by_cases h0 : t.val % 8 = 0
  · have h1 : ¬ t.val % 8 = 7 := by omega
    rw [Dat.leavesExact_idle (dat3 V c) 5 t (idleAt3_5 t h1) (noFlush3_5 t h1)]
    rw [r3_acc_first V c t h0]
    by_cases hz : t.val = 0
    · rw [r3_Phi_castSucc V c t, r3_Phi_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_first c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_first c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat3 V c).leavesExact 5 t = owns (c : Thread nD τ) (st3_5 t) fullShare ((dat3 V c).after 5 t) from by
        unfold Dat.leavesExact; rw [liveAt3_5 t h1], after3_5]
      unfold r3_out
      rw [r3_acc_next V c t h0]
      rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_last c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 5 t (idleAt3_5 t h1) (noFlush3_5 t h1)]
      rw [r3_acc_next V c t h0]
      rw [r3_Phi_castSucc V c t, r3_Phi_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (r3_run_mid c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = r3_Phi V c 0 (Nat.zero_le _) from rfl, r3_Phi_zero V c 0 _ rfl]
  try exact Idealize.SL.BI.Entails.refl _

/-- After any point but the first the invariant gives the class's back: the accumulator's named contents are forgotten. -/
theorem r3_Phi_out (c : Dev nD) (t : Fin (cfg3.N + 1)) (ht : t.val ≠ 0) : (dat3 V c).Φ t ⊢ (Pipeline.ΦA spec3 c : sProp 𝕄) := by
  rw [show (dat3 V c).Φ t = r3_Phi V c t.val (Nat.le_of_lt_succ t.isLt) from rfl, r3_Phi_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ (Pipeline.ΦA spec3 c : sProp 𝕄) :=
  r3_Phi_out V c _ (by rw [Fin.val_last]; have : cfg3.N = 64 := N_3; omega)

end Region3

end Cert.KernelIdeal.Fr

end
-- ==== Proof.KI.Run.lean ====
/-
  The run of the whole program, generic in the float instance: @main is four kernel regions among two stretches of
  host operations. The contents of every unscoped buffer are followed from the launch memory through the six
  segments: a host stretch leaves them at the stretch's composed operations; a region leaves each of its windows'
  arrays at what its write-backs leave and every other buffer as it was entered. Each region is entered from all
  unscoped buffers held at the boundary's contents, the generator register at some state and nothing owed, and is
  left in the same form at the next boundary; the regions' proof data are stated at their entry contents. The run
  ends with every unscoped buffer at the last boundary's contents, from which the argument arrays (read back through
  the fold to the launch memory) and the result are taken.
-/
import proofs.«111958_j2972117368867_1_alg».proof.Proof.KI.Region0
import proofs.«111958_j2972117368867_1_alg».proof.Proof.KI.Region1
import proofs.«111958_j2972117368867_1_alg».proof.Proof.KI.Region2
import proofs.«111958_j2972117368867_1_alg».proof.Proof.KI.Region3
import proofs.«111958_j2972117368867_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev Wd0 : Dev nD → Valuation τ sig (Elt F) := fun c b => (s₀ m ρ).mem ((c : Dev nD), b)
abbrev Vd0 : (c : Dev nD) → (b : Ref sig .tc) → Buf (Elt F) ((c : Thread nD τ).loc b) := fun c b => Wd0 m ρ c b

/-- At region 0's exit: its windows' arrays at what the write-backs leave, every other buffer as entered. -/
def Wd1 (c : Dev nD) : Valuation τ sig (Elt F) :=
  Pipeline.withArrays spec0 c (Wd0 m ρ c) fun w => (dat0 (Vd0 m ρ) c).arrAt w cfg0.N
theorem Wd1_arr (c : Dev nD) (w : Fin cfg0.W) :
    Wd1 m ρ c (Proc.devRef .tc (Pipeline.arrRef spec0 w)) = (dat0 (Vd0 m ρ) c).arrAt w cfg0.N := by
  unfold Wd1; exact Pipeline.withArrays_arr spec0 launch0.win.arr_inj c _ _ w
theorem Wd1_of_ne (c : Dev nD) (b : Ref sig .tc) (hb : ∀ w, Pipeline.arrRef spec0 w ≠ b) :
    Wd1 m ρ c (Proc.devRef .tc b) = Wd0 m ρ c (Proc.devRef .tc b) := by
  unfold Wd1; exact Pipeline.withArrays_of_ne spec0 c _ _ b hb
/-- An input window's array leaves the region as it entered it. -/
theorem Wd1_in (c : Dev nD) (w : Fin cfg0.W) (hw : (cfg0.win w).isOut = false) :
    Wd1 m ρ c (Proc.devRef .tc (Pipeline.arrRef spec0 w)) = Wd0 m ρ c (Proc.devRef .tc (Pipeline.arrRef spec0 w)) :=
  (Wd1_arr m ρ c w).trans (((dat0 (Vd0 m ρ) c).arrAt_in w hw _).trans (A_eq0 (Vd0 m ρ) c w))
abbrev Vd1 : (c : Dev nD) → (b : Ref sig .tc) → Buf (Elt F) ((c : Thread nD τ).loc b) := fun c b => Wd1 m ρ c b
theorem hF0 (c : Dev nD) (w : Fin cfg0.W) : (dat0 (Vd0 m ρ) c).arrAt w cfg0.N = Vd1 m ρ c (Pipeline.arrRef spec0 w) :=
  (Wd1_arr m ρ c w).symm
theorem hrest0 (c : Dev nD) : ∀ b, b ∉ Finset.univ.image (Pipeline.arrRef spec0) → Vd1 m ρ c b = Vd0 m ρ c b :=
  fun b hb => Wd1_of_ne m ρ c b fun w e => hb (Finset.mem_image.mpr ⟨w, Finset.mem_univ _, e⟩)

/-- After the host stretch `hostOps1`. -/
abbrev Wd2 : Dev nD → Valuation τ sig (Elt F) := fun c => StableHlo.after hostOps1 (Wd1 m ρ c)
abbrev Vd2 : (c : Dev nD) → (b : Ref sig .tc) → Buf (Elt F) ((c : Thread nD τ).loc b) := fun c b => Wd2 m ρ c b
/-- A buffer the stretch does not write is left alone. -/
theorem Wd2_keep (c : Dev nD) (r : Ref sig .tc) (h : r ∉ hostOps1_W) :
    Wd2 m ρ c (Proc.devRef .tc r) = Wd1 m ρ c (Proc.devRef .tc r) :=
  StableHlo.after_of_writes_sub hostOps1 _ hostOps1_writes h

/-- At region 1's exit: its windows' arrays at what the write-backs leave, every other buffer as entered. -/
def Wd3 (c : Dev nD) : Valuation τ sig (Elt F) :=
  Pipeline.withArrays spec1 c (Wd2 m ρ c) fun w => (dat1 (Vd2 m ρ) c).arrAt w cfg1.N
theorem Wd3_arr (c : Dev nD) (w : Fin cfg1.W) :
    Wd3 m ρ c (Proc.devRef .tc (Pipeline.arrRef spec1 w)) = (dat1 (Vd2 m ρ) c).arrAt w cfg1.N := by
  unfold Wd3; exact Pipeline.withArrays_arr spec1 launch1.win.arr_inj c _ _ w
theorem Wd3_of_ne (c : Dev nD) (b : Ref sig .tc) (hb : ∀ w, Pipeline.arrRef spec1 w ≠ b) :
    Wd3 m ρ c (Proc.devRef .tc b) = Wd2 m ρ c (Proc.devRef .tc b) := by
  unfold Wd3; exact Pipeline.withArrays_of_ne spec1 c _ _ b hb
/-- An input window's array leaves the region as it entered it. -/
theorem Wd3_in (c : Dev nD) (w : Fin cfg1.W) (hw : (cfg1.win w).isOut = false) :
    Wd3 m ρ c (Proc.devRef .tc (Pipeline.arrRef spec1 w)) = Wd2 m ρ c (Proc.devRef .tc (Pipeline.arrRef spec1 w)) :=
  (Wd3_arr m ρ c w).trans (((dat1 (Vd2 m ρ) c).arrAt_in w hw _).trans (A_eq1 (Vd2 m ρ) c w))
abbrev Vd3 : (c : Dev nD) → (b : Ref sig .tc) → Buf (Elt F) ((c : Thread nD τ).loc b) := fun c b => Wd3 m ρ c b
theorem hF1 (c : Dev nD) (w : Fin cfg1.W) : (dat1 (Vd2 m ρ) c).arrAt w cfg1.N = Vd3 m ρ c (Pipeline.arrRef spec1 w) :=
  (Wd3_arr m ρ c w).symm
theorem hrest1 (c : Dev nD) : ∀ b, b ∉ Finset.univ.image (Pipeline.arrRef spec1) → Vd3 m ρ c b = Vd2 m ρ c b :=
  fun b hb => Wd3_of_ne m ρ c b fun w e => hb (Finset.mem_image.mpr ⟨w, Finset.mem_univ _, e⟩)

/-- At region 2's exit: its windows' arrays at what the write-backs leave, every other buffer as entered. -/
def Wd4 (c : Dev nD) : Valuation τ sig (Elt F) :=
  Pipeline.withArrays spec2 c (Wd3 m ρ c) fun w => (dat2 (Vd3 m ρ) c).arrAt w cfg2.N
theorem Wd4_arr (c : Dev nD) (w : Fin cfg2.W) :
    Wd4 m ρ c (Proc.devRef .tc (Pipeline.arrRef spec2 w)) = (dat2 (Vd3 m ρ) c).arrAt w cfg2.N := by
  unfold Wd4; exact Pipeline.withArrays_arr spec2 launch2.win.arr_inj c _ _ w
theorem Wd4_of_ne (c : Dev nD) (b : Ref sig .tc) (hb : ∀ w, Pipeline.arrRef spec2 w ≠ b) :
    Wd4 m ρ c (Proc.devRef .tc b) = Wd3 m ρ c (Proc.devRef .tc b) := by
  unfold Wd4; exact Pipeline.withArrays_of_ne spec2 c _ _ b hb
/-- An input window's array leaves the region as it entered it. -/
theorem Wd4_in (c : Dev nD) (w : Fin cfg2.W) (hw : (cfg2.win w).isOut = false) :
    Wd4 m ρ c (Proc.devRef .tc (Pipeline.arrRef spec2 w)) = Wd3 m ρ c (Proc.devRef .tc (Pipeline.arrRef spec2 w)) :=
  (Wd4_arr m ρ c w).trans (((dat2 (Vd3 m ρ) c).arrAt_in w hw _).trans (A_eq2 (Vd3 m ρ) c w))
abbrev Vd4 : (c : Dev nD) → (b : Ref sig .tc) → Buf (Elt F) ((c : Thread nD τ).loc b) := fun c b => Wd4 m ρ c b
theorem hF2 (c : Dev nD) (w : Fin cfg2.W) : (dat2 (Vd3 m ρ) c).arrAt w cfg2.N = Vd4 m ρ c (Pipeline.arrRef spec2 w) :=
  (Wd4_arr m ρ c w).symm
theorem hrest2 (c : Dev nD) : ∀ b, b ∉ Finset.univ.image (Pipeline.arrRef spec2) → Vd4 m ρ c b = Vd3 m ρ c b :=
  fun b hb => Wd4_of_ne m ρ c b fun w e => hb (Finset.mem_image.mpr ⟨w, Finset.mem_univ _, e⟩)

/-- After the host stretch `hostOps3`. -/
abbrev Wd5 : Dev nD → Valuation τ sig (Elt F) := fun c => StableHlo.after hostOps3 (Wd4 m ρ c)
abbrev Vd5 : (c : Dev nD) → (b : Ref sig .tc) → Buf (Elt F) ((c : Thread nD τ).loc b) := fun c b => Wd5 m ρ c b
/-- A buffer the stretch does not write is left alone. -/
theorem Wd5_keep (c : Dev nD) (r : Ref sig .tc) (h : r ∉ hostOps3_W) :
    Wd5 m ρ c (Proc.devRef .tc r) = Wd4 m ρ c (Proc.devRef .tc r) :=
  StableHlo.after_of_writes_sub hostOps3 _ hostOps3_writes h

/-- At region 3's exit: its windows' arrays at what the write-backs leave, every other buffer as entered. -/
def Wd6 (c : Dev nD) : Valuation τ sig (Elt F) :=
  Pipeline.withArrays spec3 c (Wd5 m ρ c) fun w => (dat3 (Vd5 m ρ) c).arrAt w cfg3.N
theorem Wd6_arr (c : Dev nD) (w : Fin cfg3.W) :
    Wd6 m ρ c (Proc.devRef .tc (Pipeline.arrRef spec3 w)) = (dat3 (Vd5 m ρ) c).arrAt w cfg3.N := by
  unfold Wd6; exact Pipeline.withArrays_arr spec3 launch3.win.arr_inj c _ _ w
theorem Wd6_of_ne (c : Dev nD) (b : Ref sig .tc) (hb : ∀ w, Pipeline.arrRef spec3 w ≠ b) :
    Wd6 m ρ c (Proc.devRef .tc b) = Wd5 m ρ c (Proc.devRef .tc b) := by
  unfold Wd6; exact Pipeline.withArrays_of_ne spec3 c _ _ b hb
/-- An input window's array leaves the region as it entered it. -/
theorem Wd6_in (c : Dev nD) (w : Fin cfg3.W) (hw : (cfg3.win w).isOut = false) :
    Wd6 m ρ c (Proc.devRef .tc (Pipeline.arrRef spec3 w)) = Wd5 m ρ c (Proc.devRef .tc (Pipeline.arrRef spec3 w)) :=
  (Wd6_arr m ρ c w).trans (((dat3 (Vd5 m ρ) c).arrAt_in w hw _).trans (A_eq3 (Vd5 m ρ) c w))
abbrev Vd6 : (c : Dev nD) → (b : Ref sig .tc) → Buf (Elt F) ((c : Thread nD τ).loc b) := fun c b => Wd6 m ρ c b
theorem hF3 (c : Dev nD) (w : Fin cfg3.W) : (dat3 (Vd5 m ρ) c).arrAt w cfg3.N = Vd6 m ρ c (Pipeline.arrRef spec3 w) :=
  (Wd6_arr m ρ c w).symm
theorem hrest3 (c : Dev nD) : ∀ b, b ∉ Finset.univ.image (Pipeline.arrRef spec3) → Vd6 m ρ c b = Vd5 m ρ c b :=
  fun b hb => Wd6_of_ne m ρ c b fun w e => hb (Finset.mem_image.mpr ⟨w, Finset.mem_univ _, e⟩)

/-! ## The proof data family and the thread state -/

/-- No pipeline has a prefetched table. -/
abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (Vd0 m ρ) c
  | ⟨1, _⟩ => fun c => dat1 (Vd2 m ρ) c
  | ⟨2, _⟩ => fun c => dat2 (Vd3 m ρ) c
  | ⟨3, _⟩ => fun c => dat3 (Vd5 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev TnH (c : Dev nD) : sProp 𝕄 := iprop(StableHlo.held (c : Thread nD τ) (Pipeline.ucRefs τ sig) (Wd6 m ρ c) ∗ ∃ r, prngReg c r)

/-! ## The regions as segments -/

set_option backward.isDefEq.respectTransparency.types false in
/-- Region 0 over the thread state: entered from every unscoped buffer at boundary 0, left at boundary 1. Its
    arrays are split out of the unscoped buffers and put back at the exit contents; the generator register and the
    scoped buffers no window stages go into the region's invariant and come back. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vd0 m ρ) c).loose
  hwaits := Pipeline.hwaits_of_owed_zero _ _ _ _ LH lvH 0 fun c t => owed_eq0 (Vd0 m ρ) c t
  pre c := iprop(StableHlo.held (c : Thread nD τ) (Pipeline.ucRefs τ sig) (Wd0 m ρ c) ∗ RH c)
  post c := iprop(StableHlo.held (c : Thread nD τ) (Pipeline.ucRefs τ sig) (Wd1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vd0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun w => q_eq0 (Vd0 m ρ) c w) (Vd0 m ρ c) fun w => A_eq0 (Vd0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vd0 m ρ) c)
    unfold Pipeline.ΦA
    iintro ⟨Hp, -, Hr⟩
    isplitl [Hr]; · iexact Hr
    iexact Hp
  hout c := by
    rw [Pipeline.ownSems0_none]
    refine BIBase.Entails.trans (hout0 (Vd0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun w => q_eq0 (Vd0 m ρ) c w)
      (Vd0 m ρ c) (Vd1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 2, left at boundary 3. Its
    arrays are split out of the unscoped buffers and put back at the exit contents; the generator register and the
    scoped buffers no window stages go into the region's invariant and come back. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vd2 m ρ) c).loose
  hwaits := Pipeline.hwaits_of_owed_zero _ _ _ _ LH lvH 1 fun c t => owed_eq1 (Vd2 m ρ) c t
  pre c := iprop(StableHlo.held (c : Thread nD τ) (Pipeline.ucRefs τ sig) (Wd2 m ρ c) ∗ RH c)
  post c := iprop(StableHlo.held (c : Thread nD τ) (Pipeline.ucRefs τ sig) (Wd3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vd2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun w => q_eq1 (Vd2 m ρ) c w) (Vd2 m ρ c) fun w => A_eq1 (Vd2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vd2 m ρ) c)
    unfold Pipeline.ΦA
    iintro ⟨Hp, -, Hr⟩
    isplitl [Hr]; · iexact Hr
    iexact Hp
  hout c := by
    rw [Pipeline.ownSems0_none]
    refine BIBase.Entails.trans (hout1 (Vd2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun w => q_eq1 (Vd2 m ρ) c w)
      (Vd2 m ρ c) (Vd3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 3, left at boundary 4. Its
    arrays are split out of the unscoped buffers and put back at the exit contents; the generator register and the
    scoped buffers no window stages go into the region's invariant and come back. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vd3 m ρ) c).loose
  hwaits := Pipeline.hwaits_of_owed_zero _ _ _ _ LH lvH 2 fun c t => owed_eq2 (Vd3 m ρ) c t
  pre c := iprop(StableHlo.held (c : Thread nD τ) (Pipeline.ucRefs τ sig) (Wd3 m ρ c) ∗ RH c)
  post c := iprop(StableHlo.held (c : Thread nD τ) (Pipeline.ucRefs τ sig) (Wd4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vd3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun w => q_eq2 (Vd3 m ρ) c w) (Vd3 m ρ c) fun w => A_eq2 (Vd3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vd3 m ρ) c)
    unfold Pipeline.ΦA
    iintro ⟨Hp, -, Hr⟩
    isplitl [Hr]; · iexact Hr
    iexact Hp
  hout c := by
    rw [Pipeline.ownSems0_none]
    refine BIBase.Entails.trans (hout2 (Vd3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun w => q_eq2 (Vd3 m ρ) c w)
      (Vd3 m ρ c) (Vd4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 5, left at boundary 6. Its
    arrays are split out of the unscoped buffers and put back at the exit contents; the generator register and the
    scoped buffers no window stages go into the region's invariant and come back. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vd5 m ρ) c).loose
  hwaits := Pipeline.hwaits_of_owed_zero _ _ _ _ LH lvH 3 fun c t => owed_eq3 (Vd5 m ρ) c t
  pre c := iprop(StableHlo.held (c : Thread nD τ) (Pipeline.ucRefs τ sig) (Wd5 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vd5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun w => q_eq3 (Vd5 m ρ) c w) (Vd5 m ρ c) fun w => A_eq3 (Vd5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vd5 m ρ) c)
    unfold Pipeline.ΦA
    iintro ⟨Hp, -, Hr⟩
    isplitl [Hr]; · iexact Hr
    iexact Hp
  hout c := by
    rw [Pipeline.ownSems0_none]
    refine BIBase.Entails.trans (hout3 (Vd5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun w => q_eq3 (Vd5 m ρ) c w)
      (Vd5 m ρ c) (Vd6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsH : List (Pipeline.Seg (pcfgs (F := F)) admH (pdatsH m ρ) () defs₀ 𝒱H LH lvH) :=
  [ .region (regH0 m ρ),
    .host (hsegH hostOps1 hostOps1_sub hostOps1_fresh (Wd1 m ρ)),
    .region (regH1 m ρ),
    .region (regH2 m ρ),
    .host (hsegH hostOps3 hostOps3_sub hostOps3_fresh (Wd4 m ρ)),
    .region (regH3 m ρ) ]
/-- @main is the run of the segments. -/
theorem main_runH (c : Dev nD) : main (F := F) c = Pipeline.Seg.run (segsH m ρ) := (main_chain c).trans (by chain_rfl)

set_option backward.isDefEq.respectTransparency.types false in
/-- From any memory with zero counters, every weakly fair execution of @main on the TensorCores terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ RH c)) (Tₙ := TnH m ρ)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd6 m ρ c) s')
      isplitl [Hh] <;> iassumption)
    (hQ := fun s h => h)

end Cert.KernelIdeal.Fr

end
-- ==== Proof.KI.Args.lean ====
/-
  The argument arrays through the run: no host operation writes an argument and no region writes one back (a region
  reads an argument through an input window, or does not touch it), so at every segment boundary each argument's
  buffer holds its launch contents. With the run, this is the frame claim: every weakly fair execution terminates,
  nothing faults, and the arguments end unchanged.
-/
import proofs.«111958_j2972117368867_1_alg».proof.Proof.KI.Run

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ### `main_arg0` at every boundary -/
theorem Wd0_arg0 (c : Dev nD) : Wd0 m ρ c (Proc.devRef .tc main_arg0) = m ((c : Thread nD τ).loc main_arg0) := rfl
theorem Wd1_arg0 (c : Dev nD) : Wd1 m ρ c (Proc.devRef .tc main_arg0) = m ((c : Thread nD τ).loc main_arg0) :=
  (Wd1_in m ρ c 0 rfl).trans (Wd0_arg0 m ρ c)
theorem Wd2_arg0 (c : Dev nD) : Wd2 m ρ c (Proc.devRef .tc main_arg0) = m ((c : Thread nD τ).loc main_arg0) :=
  (Wd2_keep m ρ c main_arg0 (by decide)).trans (Wd1_arg0 m ρ c)
theorem Wd3_arg0 (c : Dev nD) : Wd3 m ρ c (Proc.devRef .tc main_arg0) = m ((c : Thread nD τ).loc main_arg0) :=
  (Wd3_of_ne m ρ c main_arg0 (by decide)).trans (Wd2_arg0 m ρ c)
theorem Wd4_arg0 (c : Dev nD) : Wd4 m ρ c (Proc.devRef .tc main_arg0) = m ((c : Thread nD τ).loc main_arg0) :=
  (Wd4_of_ne m ρ c main_arg0 (by decide)).trans (Wd3_arg0 m ρ c)
theorem Wd5_arg0 (c : Dev nD) : Wd5 m ρ c (Proc.devRef .tc main_arg0) = m ((c : Thread nD τ).loc main_arg0) :=
  (Wd5_keep m ρ c main_arg0 (by decide)).trans (Wd4_arg0 m ρ c)
theorem Wd6_arg0 (c : Dev nD) : Wd6 m ρ c (Proc.devRef .tc main_arg0) = m ((c : Thread nD τ).loc main_arg0) :=
  (Wd6_of_ne m ρ c main_arg0 (by decide)).trans (Wd5_arg0 m ρ c)

/-! ### `main_arg1` at every boundary -/
theorem Wd0_arg1 (c : Dev nD) : Wd0 m ρ c (Proc.devRef .tc main_arg1) = m ((c : Thread nD τ).loc main_arg1) := rfl
theorem Wd1_arg1 (c : Dev nD) : Wd1 m ρ c (Proc.devRef .tc main_arg1) = m ((c : Thread nD τ).loc main_arg1) :=
  (Wd1_of_ne m ρ c main_arg1 (by decide)).trans (Wd0_arg1 m ρ c)
theorem Wd2_arg1 (c : Dev nD) : Wd2 m ρ c (Proc.devRef .tc main_arg1) = m ((c : Thread nD τ).loc main_arg1) :=
  (Wd2_keep m ρ c main_arg1 (by decide)).trans (Wd1_arg1 m ρ c)
theorem Wd3_arg1 (c : Dev nD) : Wd3 m ρ c (Proc.devRef .tc main_arg1) = m ((c : Thread nD τ).loc main_arg1) :=
  (Wd3_in m ρ c 0 rfl).trans (Wd2_arg1 m ρ c)
theorem Wd4_arg1 (c : Dev nD) : Wd4 m ρ c (Proc.devRef .tc main_arg1) = m ((c : Thread nD τ).loc main_arg1) :=
  (Wd4_of_ne m ρ c main_arg1 (by decide)).trans (Wd3_arg1 m ρ c)
theorem Wd5_arg1 (c : Dev nD) : Wd5 m ρ c (Proc.devRef .tc main_arg1) = m ((c : Thread nD τ).loc main_arg1) :=
  (Wd5_keep m ρ c main_arg1 (by decide)).trans (Wd4_arg1 m ρ c)
theorem Wd6_arg1 (c : Dev nD) : Wd6 m ρ c (Proc.devRef .tc main_arg1) = m ((c : Thread nD τ).loc main_arg1) :=
  (Wd6_of_ne m ρ c main_arg1 (by decide)).trans (Wd5_arg1 m ρ c)

/-! ### `main_arg2` at every boundary -/
theorem Wd0_arg2 (c : Dev nD) : Wd0 m ρ c (Proc.devRef .tc main_arg2) = m ((c : Thread nD τ).loc main_arg2) := rfl
theorem Wd1_arg2 (c : Dev nD) : Wd1 m ρ c (Proc.devRef .tc main_arg2) = m ((c : Thread nD τ).loc main_arg2) :=
  (Wd1_of_ne m ρ c main_arg2 (by decide)).trans (Wd0_arg2 m ρ c)
theorem Wd2_arg2 (c : Dev nD) : Wd2 m ρ c (Proc.devRef .tc main_arg2) = m ((c : Thread nD τ).loc main_arg2) :=
  (Wd2_keep m ρ c main_arg2 (by decide)).trans (Wd1_arg2 m ρ c)
theorem Wd3_arg2 (c : Dev nD) : Wd3 m ρ c (Proc.devRef .tc main_arg2) = m ((c : Thread nD τ).loc main_arg2) :=
  (Wd3_of_ne m ρ c main_arg2 (by decide)).trans (Wd2_arg2 m ρ c)
theorem Wd4_arg2 (c : Dev nD) : Wd4 m ρ c (Proc.devRef .tc main_arg2) = m ((c : Thread nD τ).loc main_arg2) :=
  (Wd4_of_ne m ρ c main_arg2 (by decide)).trans (Wd3_arg2 m ρ c)
theorem Wd5_arg2 (c : Dev nD) : Wd5 m ρ c (Proc.devRef .tc main_arg2) = m ((c : Thread nD τ).loc main_arg2) :=
  (Wd5_keep m ρ c main_arg2 (by decide)).trans (Wd4_arg2 m ρ c)
theorem Wd6_arg2 (c : Dev nD) : Wd6 m ρ c (Proc.devRef .tc main_arg2) = m ((c : Thread nD τ).loc main_arg2) :=
  (Wd6_in m ρ c 0 rfl).trans (Wd5_arg2 m ρ c)

/-! ### `main_arg3` at every boundary -/
theorem Wd0_arg3 (c : Dev nD) : Wd0 m ρ c (Proc.devRef .tc main_arg3) = m ((c : Thread nD τ).loc main_arg3) := rfl
theorem Wd1_arg3 (c : Dev nD) : Wd1 m ρ c (Proc.devRef .tc main_arg3) = m ((c : Thread nD τ).loc main_arg3) :=
  (Wd1_in m ρ c 1 rfl).trans (Wd0_arg3 m ρ c)
theorem Wd2_arg3 (c : Dev nD) : Wd2 m ρ c (Proc.devRef .tc main_arg3) = m ((c : Thread nD τ).loc main_arg3) :=
  (Wd2_keep m ρ c main_arg3 (by decide)).trans (Wd1_arg3 m ρ c)
theorem Wd3_arg3 (c : Dev nD) : Wd3 m ρ c (Proc.devRef .tc main_arg3) = m ((c : Thread nD τ).loc main_arg3) :=
  (Wd3_of_ne m ρ c main_arg3 (by decide)).trans (Wd2_arg3 m ρ c)
theorem Wd4_arg3 (c : Dev nD) : Wd4 m ρ c (Proc.devRef .tc main_arg3) = m ((c : Thread nD τ).loc main_arg3) :=
  (Wd4_of_ne m ρ c main_arg3 (by decide)).trans (Wd3_arg3 m ρ c)
theorem Wd5_arg3 (c : Dev nD) : Wd5 m ρ c (Proc.devRef .tc main_arg3) = m ((c : Thread nD τ).loc main_arg3) :=
  (Wd5_keep m ρ c main_arg3 (by decide)).trans (Wd4_arg3 m ρ c)
theorem Wd6_arg3 (c : Dev nD) : Wd6 m ρ c (Proc.devRef .tc main_arg3) = m ((c : Thread nD τ).loc main_arg3) :=
  (Wd6_of_ne m ρ c main_arg3 (by decide)).trans (Wd5_arg3 m ρ c)

/-! ### `main_arg4` at every boundary -/
theorem Wd0_arg4 (c : Dev nD) : Wd0 m ρ c (Proc.devRef .tc main_arg4) = m ((c : Thread nD τ).loc main_arg4) := rfl
theorem Wd1_arg4 (c : Dev nD) : Wd1 m ρ c (Proc.devRef .tc main_arg4) = m ((c : Thread nD τ).loc main_arg4) :=
  (Wd1_of_ne m ρ c main_arg4 (by decide)).trans (Wd0_arg4 m ρ c)
theorem Wd2_arg4 (c : Dev nD) : Wd2 m ρ c (Proc.devRef .tc main_arg4) = m ((c : Thread nD τ).loc main_arg4) :=
  (Wd2_keep m ρ c main_arg4 (by decide)).trans (Wd1_arg4 m ρ c)
theorem Wd3_arg4 (c : Dev nD) : Wd3 m ρ c (Proc.devRef .tc main_arg4) = m ((c : Thread nD τ).loc main_arg4) :=
  (Wd3_of_ne m ρ c main_arg4 (by decide)).trans (Wd2_arg4 m ρ c)
theorem Wd4_arg4 (c : Dev nD) : Wd4 m ρ c (Proc.devRef .tc main_arg4) = m ((c : Thread nD τ).loc main_arg4) :=
  (Wd4_of_ne m ρ c main_arg4 (by decide)).trans (Wd3_arg4 m ρ c)
theorem Wd5_arg4 (c : Dev nD) : Wd5 m ρ c (Proc.devRef .tc main_arg4) = m ((c : Thread nD τ).loc main_arg4) :=
  (Wd5_keep m ρ c main_arg4 (by decide)).trans (Wd4_arg4 m ρ c)
theorem Wd6_arg4 (c : Dev nD) : Wd6 m ρ c (Proc.devRef .tc main_arg4) = m ((c : Thread nD τ).loc main_arg4) :=
  (Wd6_of_ne m ρ c main_arg4 (by decide)).trans (Wd5_arg4 m ρ c)

/-! ### `main_arg5` at every boundary -/
theorem Wd0_arg5 (c : Dev nD) : Wd0 m ρ c (Proc.devRef .tc main_arg5) = m ((c : Thread nD τ).loc main_arg5) := rfl
theorem Wd1_arg5 (c : Dev nD) : Wd1 m ρ c (Proc.devRef .tc main_arg5) = m ((c : Thread nD τ).loc main_arg5) :=
  (Wd1_of_ne m ρ c main_arg5 (by decide)).trans (Wd0_arg5 m ρ c)
theorem Wd2_arg5 (c : Dev nD) : Wd2 m ρ c (Proc.devRef .tc main_arg5) = m ((c : Thread nD τ).loc main_arg5) :=
  (Wd2_keep m ρ c main_arg5 (by decide)).trans (Wd1_arg5 m ρ c)
theorem Wd3_arg5 (c : Dev nD) : Wd3 m ρ c (Proc.devRef .tc main_arg5) = m ((c : Thread nD τ).loc main_arg5) :=
  (Wd3_of_ne m ρ c main_arg5 (by decide)).trans (Wd2_arg5 m ρ c)
theorem Wd4_arg5 (c : Dev nD) : Wd4 m ρ c (Proc.devRef .tc main_arg5) = m ((c : Thread nD τ).loc main_arg5) :=
  (Wd4_in m ρ c 1 rfl).trans (Wd3_arg5 m ρ c)
theorem Wd5_arg5 (c : Dev nD) : Wd5 m ρ c (Proc.devRef .tc main_arg5) = m ((c : Thread nD τ).loc main_arg5) :=
  (Wd5_keep m ρ c main_arg5 (by decide)).trans (Wd4_arg5 m ρ c)
theorem Wd6_arg5 (c : Dev nD) : Wd6 m ρ c (Proc.devRef .tc main_arg5) = m ((c : Thread nD τ).loc main_arg5) :=
  (Wd6_of_ne m ρ c main_arg5 (by decide)).trans (Wd5_arg5 m ρ c)

/-! ### `main_arg6` at every boundary -/
theorem Wd0_arg6 (c : Dev nD) : Wd0 m ρ c (Proc.devRef .tc main_arg6) = m ((c : Thread nD τ).loc main_arg6) := rfl
theorem Wd1_arg6 (c : Dev nD) : Wd1 m ρ c (Proc.devRef .tc main_arg6) = m ((c : Thread nD τ).loc main_arg6) :=
  (Wd1_of_ne m ρ c main_arg6 (by decide)).trans (Wd0_arg6 m ρ c)
theorem Wd2_arg6 (c : Dev nD) : Wd2 m ρ c (Proc.devRef .tc main_arg6) = m ((c : Thread nD τ).loc main_arg6) :=
  (Wd2_keep m ρ c main_arg6 (by decide)).trans (Wd1_arg6 m ρ c)
theorem Wd3_arg6 (c : Dev nD) : Wd3 m ρ c (Proc.devRef .tc main_arg6) = m ((c : Thread nD τ).loc main_arg6) :=
  (Wd3_of_ne m ρ c main_arg6 (by decide)).trans (Wd2_arg6 m ρ c)
theorem Wd4_arg6 (c : Dev nD) : Wd4 m ρ c (Proc.devRef .tc main_arg6) = m ((c : Thread nD τ).loc main_arg6) :=
  (Wd4_of_ne m ρ c main_arg6 (by decide)).trans (Wd3_arg6 m ρ c)
theorem Wd5_arg6 (c : Dev nD) : Wd5 m ρ c (Proc.devRef .tc main_arg6) = m ((c : Thread nD τ).loc main_arg6) :=
  (Wd5_keep m ρ c main_arg6 (by decide)).trans (Wd4_arg6 m ρ c)
theorem Wd6_arg6 (c : Dev nD) : Wd6 m ρ c (Proc.devRef .tc main_arg6) = m ((c : Thread nD τ).loc main_arg6) :=
  (Wd6_of_ne m ρ c main_arg6 (by decide)).trans (Wd5_arg6 m ρ c)

/-! ### `main_arg7` at every boundary -/
theorem Wd0_arg7 (c : Dev nD) : Wd0 m ρ c (Proc.devRef .tc main_arg7) = m ((c : Thread nD τ).loc main_arg7) := rfl
theorem Wd1_arg7 (c : Dev nD) : Wd1 m ρ c (Proc.devRef .tc main_arg7) = m ((c : Thread nD τ).loc main_arg7) :=
  (Wd1_of_ne m ρ c main_arg7 (by decide)).trans (Wd0_arg7 m ρ c)
theorem Wd2_arg7 (c : Dev nD) : Wd2 m ρ c (Proc.devRef .tc main_arg7) = m ((c : Thread nD τ).loc main_arg7) :=
  (Wd2_keep m ρ c main_arg7 (by decide)).trans (Wd1_arg7 m ρ c)
theorem Wd3_arg7 (c : Dev nD) : Wd3 m ρ c (Proc.devRef .tc main_arg7) = m ((c : Thread nD τ).loc main_arg7) :=
  (Wd3_of_ne m ρ c main_arg7 (by decide)).trans (Wd2_arg7 m ρ c)
theorem Wd4_arg7 (c : Dev nD) : Wd4 m ρ c (Proc.devRef .tc main_arg7) = m ((c : Thread nD τ).loc main_arg7) :=
  (Wd4_of_ne m ρ c main_arg7 (by decide)).trans (Wd3_arg7 m ρ c)
theorem Wd5_arg7 (c : Dev nD) : Wd5 m ρ c (Proc.devRef .tc main_arg7) = m ((c : Thread nD τ).loc main_arg7) :=
  (Wd5_keep m ρ c main_arg7 (by decide)).trans (Wd4_arg7 m ρ c)
theorem Wd6_arg7 (c : Dev nD) : Wd6 m ρ c (Proc.devRef .tc main_arg7) = m ((c : Thread nD τ).loc main_arg7) :=
  (Wd6_of_ne m ρ c main_arg7 (by decide)).trans (Wd5_arg7 m ρ c)

/-! ### `main_arg8` at every boundary -/
theorem Wd0_arg8 (c : Dev nD) : Wd0 m ρ c (Proc.devRef .tc main_arg8) = m ((c : Thread nD τ).loc main_arg8) := rfl
theorem Wd1_arg8 (c : Dev nD) : Wd1 m ρ c (Proc.devRef .tc main_arg8) = m ((c : Thread nD τ).loc main_arg8) :=
  (Wd1_of_ne m ρ c main_arg8 (by decide)).trans (Wd0_arg8 m ρ c)
theorem Wd2_arg8 (c : Dev nD) : Wd2 m ρ c (Proc.devRef .tc main_arg8) = m ((c : Thread nD τ).loc main_arg8) :=
  (Wd2_keep m ρ c main_arg8 (by decide)).trans (Wd1_arg8 m ρ c)
theorem Wd3_arg8 (c : Dev nD) : Wd3 m ρ c (Proc.devRef .tc main_arg8) = m ((c : Thread nD τ).loc main_arg8) :=
  (Wd3_of_ne m ρ c main_arg8 (by decide)).trans (Wd2_arg8 m ρ c)
theorem Wd4_arg8 (c : Dev nD) : Wd4 m ρ c (Proc.devRef .tc main_arg8) = m ((c : Thread nD τ).loc main_arg8) :=
  (Wd4_of_ne m ρ c main_arg8 (by decide)).trans (Wd3_arg8 m ρ c)
theorem Wd5_arg8 (c : Dev nD) : Wd5 m ρ c (Proc.devRef .tc main_arg8) = m ((c : Thread nD τ).loc main_arg8) :=
  (Wd5_keep m ρ c main_arg8 (by decide)).trans (Wd4_arg8 m ρ c)
theorem Wd6_arg8 (c : Dev nD) : Wd6 m ρ c (Proc.devRef .tc main_arg8) = m ((c : Thread nD τ).loc main_arg8) :=
  (Wd6_of_ne m ρ c main_arg8 (by decide)).trans (Wd5_arg8 m ρ c)

/-! ### `main_arg9` at every boundary -/
theorem Wd0_arg9 (c : Dev nD) : Wd0 m ρ c (Proc.devRef .tc main_arg9) = m ((c : Thread nD τ).loc main_arg9) := rfl
theorem Wd1_arg9 (c : Dev nD) : Wd1 m ρ c (Proc.devRef .tc main_arg9) = m ((c : Thread nD τ).loc main_arg9) :=
  (Wd1_of_ne m ρ c main_arg9 (by decide)).trans (Wd0_arg9 m ρ c)
theorem Wd2_arg9 (c : Dev nD) : Wd2 m ρ c (Proc.devRef .tc main_arg9) = m ((c : Thread nD τ).loc main_arg9) :=
  (Wd2_keep m ρ c main_arg9 (by decide)).trans (Wd1_arg9 m ρ c)
theorem Wd3_arg9 (c : Dev nD) : Wd3 m ρ c (Proc.devRef .tc main_arg9) = m ((c : Thread nD τ).loc main_arg9) :=
  (Wd3_of_ne m ρ c main_arg9 (by decide)).trans (Wd2_arg9 m ρ c)
theorem Wd4_arg9 (c : Dev nD) : Wd4 m ρ c (Proc.devRef .tc main_arg9) = m ((c : Thread nD τ).loc main_arg9) :=
  (Wd4_of_ne m ρ c main_arg9 (by decide)).trans (Wd3_arg9 m ρ c)
theorem Wd5_arg9 (c : Dev nD) : Wd5 m ρ c (Proc.devRef .tc main_arg9) = m ((c : Thread nD τ).loc main_arg9) :=
  (Wd5_keep m ρ c main_arg9 (by decide)).trans (Wd4_arg9 m ρ c)
theorem Wd6_arg9 (c : Dev nD) : Wd6 m ρ c (Proc.devRef .tc main_arg9) = m ((c : Thread nD τ).loc main_arg9) :=
  (Wd6_of_ne m ρ c main_arg9 (by decide)).trans (Wd5_arg9 m ρ c)

/-! ### `main_arg10` at every boundary -/
theorem Wd0_arg10 (c : Dev nD) : Wd0 m ρ c (Proc.devRef .tc main_arg10) = m ((c : Thread nD τ).loc main_arg10) := rfl
theorem Wd1_arg10 (c : Dev nD) : Wd1 m ρ c (Proc.devRef .tc main_arg10) = m ((c : Thread nD τ).loc main_arg10) :=
  (Wd1_of_ne m ρ c main_arg10 (by decide)).trans (Wd0_arg10 m ρ c)
theorem Wd2_arg10 (c : Dev nD) : Wd2 m ρ c (Proc.devRef .tc main_arg10) = m ((c : Thread nD τ).loc main_arg10) :=
  (Wd2_keep m ρ c main_arg10 (by decide)).trans (Wd1_arg10 m ρ c)
theorem Wd3_arg10 (c : Dev nD) : Wd3 m ρ c (Proc.devRef .tc main_arg10) = m ((c : Thread nD τ).loc main_arg10) :=
  (Wd3_of_ne m ρ c main_arg10 (by decide)).trans (Wd2_arg10 m ρ c)
theorem Wd4_arg10 (c : Dev nD) : Wd4 m ρ c (Proc.devRef .tc main_arg10) = m ((c : Thread nD τ).loc main_arg10) :=
  (Wd4_of_ne m ρ c main_arg10 (by decide)).trans (Wd3_arg10 m ρ c)
theorem Wd5_arg10 (c : Dev nD) : Wd5 m ρ c (Proc.devRef .tc main_arg10) = m ((c : Thread nD τ).loc main_arg10) :=
  (Wd5_keep m ρ c main_arg10 (by decide)).trans (Wd4_arg10 m ρ c)
theorem Wd6_arg10 (c : Dev nD) : Wd6 m ρ c (Proc.devRef .tc main_arg10) = m ((c : Thread nD τ).loc main_arg10) :=
  (Wd6_of_ne m ρ c main_arg10 (by decide)).trans (Wd5_arg10 m ρ c)

/-- The frame: from any memory with zero counters every weakly fair execution of @main terminates, nothing faulting,
    and every final state holds the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (Wd6_arg0 m ρ c),
     (h c _ (mem_ucH main_arg1 (by decide))).trans (Wd6_arg1 m ρ c),
     (h c _ (mem_ucH main_arg2 (by decide))).trans (Wd6_arg2 m ρ c),
     (h c _ (mem_ucH main_arg3 (by decide))).trans (Wd6_arg3 m ρ c),
     (h c _ (mem_ucH main_arg4 (by decide))).trans (Wd6_arg4 m ρ c),
     (h c _ (mem_ucH main_arg5 (by decide))).trans (Wd6_arg5 m ρ c),
     (h c _ (mem_ucH main_arg6 (by decide))).trans (Wd6_arg6 m ρ c),
     (h c _ (mem_ucH main_arg7 (by decide))).trans (Wd6_arg7 m ρ c),
     (h c _ (mem_ucH main_arg8 (by decide))).trans (Wd6_arg8 m ρ c),
     (h c _ (mem_ucH main_arg9 (by decide))).trans (Wd6_arg9 m ρ c),
     (h c _ (mem_ucH main_arg10 (by decide))).trans (Wd6_arg10 m ρ c)⟩)
    (run_main m ρ)

end Cert.KernelIdeal.Fr

end
-- ==== Proof.Spec.lean ====
/-
  A two-layer graph convolution followed by an evaluation-mode batch normalization, as ONE function of the argument
  arrays on the extended reals.

  With X the node features, A₁ and A₂ the two adjacency matrices, W₁, b₁, W₂, b₂ the layers' weights and biases and
  γ, β, μ, σ² the normalization's scale, offset, running mean and running variance:
      S₁ = X · W₁                     H = max (A₁ · S₁ + b₁, 0)
      S₂ = H · W₂                     inv = γ · rsqrt (σ² + ε)        shift = β − μ · inv
      result = (A₂ · S₂ + b₂) · inv + shift
  Every matrix product is the plain sum over the contracted axis; a bias is added along the rows. The two float
  literals (the zero of the rectifier and ε) are kept as their words: both programs spell the same words, so their values
  are never needed.
-/
import Idealize.ShloMosaic.PureOps.Ideal
import Idealize.ShloMosaic.Lib.ValueIdx

noncomputable section

namespace Cert.Spec

open Idealize.ShloMosaic Idealize.ShloMosaic.ValueIdx

/-- An `M × N` array of extended reals. -/
abbrev Mat (M N : Nat) : Type := (⟨2, ![M, N]⟩ : Shape).Idx → EReal
/-- A length-`N` array of extended reals. -/
abbrev Vec1 (N : Nat) : Type := (⟨1, ![N]⟩ : Shape).Idx → EReal

/-- The matrix product: entry `(r, c)` is the sum over `k` of `l (r, k) * w (k, c)`. -/
def mm {M K N : Nat} (l : Mat M K) (w : Mat K N) : Mat M N :=
  fun j => ∑ k : Fin K, l (ix2 (j 0) k) * w (ix2 k (j 1))

/-- The rectifier's zero, as the word both programs spell. -/
def zero32 : EReal := Ideal.ofBits .f32 0x00000000#32
/-- The normalization's ε, as the word both programs spell. -/
def eps32 : EReal := Ideal.ofBits .f32 0x3727C5AC#32

/-- The hidden layer: `max (A · S + b, 0)`, the bias added along the rows. -/
def hidden (A : Mat 8192 8192) (S : Mat 8192 512) (b : Vec1 512) : Mat 8192 512 :=
  fun j => max (mm A S j + b (ix1 (j 1))) zero32

/-- The normalization's scale `γ · rsqrt (σ² + ε)`. -/
def invStd (g v : Vec1 256) : Vec1 256 := fun i => g i * Ideal.rsqrt (v i + eps32)
/-- The normalization's offset `β − μ · inv`. -/
def shift (be mu inv : Vec1 256) : Vec1 256 := fun i => be i - mu i * inv i

/-- The output layer: `(A · S + b) · sc + sh`, the three vectors applied along the rows. -/
def affine (A : Mat 8192 8192) (S : Mat 8192 256) (b sc sh : Vec1 256) : Mat 8192 256 :=
  fun j => (mm A S j + b (ix1 (j 1))) * sc (ix1 (j 1)) + sh (ix1 (j 1))

/-- The whole network. -/
def G (X : Mat 8192 1024) (A1 A2 : Mat 8192 8192) (W1 : Mat 1024 512) (b1 : Vec1 512) (W2 : Mat 512 256)
    (b2 g be mu va : Vec1 256) : Mat 8192 256 :=
  affine A2 (mm (hidden A1 (mm X W1) b1) W2) b2 (invStd g va) (shift be mu (invStd g va))

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KI.Value0.lean ====
import proofs.«111958_j2972117368867_1_alg».proof.Proof.KI.Region0
import proofs.«111958_j2972117368867_1_alg».proof.Proof.Spec
import proofs.«111958_j2972117368867_1_alg».proof.Proof.LibPlainDot
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! # Region 0 on the extended reals: the output array is the matrix product of the two input arrays

Point `t` of the eight multiplies rows `1024 t … 1024 t + 1023` of the left array by the whole right array and
writes the result over the same rows of the output; the eight row blocks tile the output. -/

variable (V : (c : Dev nD) → (b : Ref sig .tc) → Buf (Elt Ideal) ((c : Thread nD τ).loc b))

theorem r0_hz : (![0, 0] : Fin 2 → Nat) = fun _ => 0 := funext fun a => by fin_cases a <;> rfl

/-- The body's stored value at an index: the plain sum over the contracted axis. Rounding to sixteen bits is the
    identity on the extended reals, and the accumulator starts from zero. -/
theorem r0_pay_apply (x0 : Vec Ideal S1024x1024 .f32) (x1 : Vec Ideal S1024x512 .f32) (j : S1024x512.Idx) :
    (k0_pay1 x0 x1 : S1024x512.Idx → EReal) j
      = ∑ k : Fin 1024, (x0 : S1024x1024.Idx → EReal) (ix2 (j 0) k) * (x1 : S1024x512.Idx → EReal) (ix2 k (j 1)) := by
  unfold k0_pay1
  exact Cert.PlainDot.matmul_zero_apply 1024 1024 512 none _ _ j

/-- Where the three windows' blocks sit at point `t`: the left array's and the output's at row block `t`, the right
    array's at the origin (decided over the eight points). -/
theorem r0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `1024 t …` of the left array. -/
theorem r0_iblk0_apply (c : Dev nD) (t : Fin cfg0.N) (x : S1024x1024.Idx) (k : S8192x1024.Idx)
    (hk0 : (k 0).val = 1024 * t.val + (x 0).val) (hk1 : (k 1).val = (x 1).val) :
    (Fr.iblk0 V c 0 t : Vec Ideal S1024x1024 .f32) x = (V c main_arg0 : S8192x1024.Idx → EReal) k := by
  obtain ⟨e0, e1, -⟩ := r0_idx t
  unfold Fr.iblk0
  rw [View.read_apply]
  show V c main_arg0 _ = V c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The right window's block at every point is the whole right array. -/
theorem r0_iblk1_apply (c : Dev nD) (t : Fin cfg0.N) (x : S1024x512.Idx) :
    (Fr.iblk0 V c 1 t : Vec Ideal S1024x512 .f32) x = (V c main_arg3 : S1024x512.Idx → EReal) x := by
  obtain ⟨-, -, e0, e1, -⟩ := r0_idx t
  unfold Fr.iblk0
  rw [View.read_apply]
  show V c main_arg3 _ = V c main_arg3 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 512 + 1 * (x 1).val = (x 1).val; rw [e1]; omega

/-- One point, over arrays of literal types: if the left block reads rows `1024 tv …` of `A` and the right block reads
    `W`, the stored value at block index `j` is the product `A · W` at row `1024 tv + j 0`, column `j 1`. -/
theorem r0_point (A : Cert.Spec.Mat 8192 1024) (W : Cert.Spec.Mat 1024 512) (tv : Nat)
    (x0 : Vec Ideal S1024x1024 .f32) (x1 : Vec Ideal S1024x512 .f32)
    (h0 : ∀ (x : S1024x1024.Idx) (k : S8192x1024.Idx), (k 0).val = 1024 * tv + (x 0).val → (k 1).val = (x 1).val →
      (x0 : S1024x1024.Idx → EReal) x = A k)
    (h1 : ∀ x : S1024x512.Idx, (x1 : S1024x512.Idx → EReal) x = W x)
    (j : S1024x512.Idx) (i : S8192x512.Idx) (hi0 : (i 0).val = 1024 * tv + (j 0).val) (hi1 : (i 1).val = (j 1).val) :
    (k0_pay1 x0 x1 : S1024x512.Idx → EReal) j = Cert.Spec.mm A W i := by
  rw [r0_pay_apply]
  unfold Cert.Spec.mm
  refine Finset.sum_congr rfl fun k _ => ?_
  have hj : (j 1 : Fin 512) = (i 1 : Fin 512) := Fin.ext hi1.symm
  rw [h0 (ix2 (j 0) k) (ix2 (i 0) k) hi0 rfl, h1, hj]

/-- What point `t` writes back: row block `t` of the product of the two arrays as the region finds them. -/
theorem r0_flushed (c : Dev nD) (t : Fin cfg0.N) :
    (Fr.dat0 V c).flushed 2 t
      = ((cfg0.win 2).blk t).view.read (Elt Ideal) (Cert.Spec.mm (V c main_arg0) (V c main_arg3)) := by
  obtain ⟨-, -, -, -, e0, e1⟩ := r0_idx t
  show (cfg0.win 2).cut (grid0.coords t) ((Fr.dat0 V c).after 2 t) = _
  rw [Fr.after0_2]
  unfold Fr.out0_2
  rw [View.canon_unit_zero r0_hz]
  simp only [View.ld_unit_zero (S := S1024x1024) r0_hz, View.ld_unit_zero (S := S1024x512) r0_hz]
  funext j
  rw [View.read_apply]
  show (k0_pay1 (Fr.iblk0 V c 0 t) (Fr.iblk0 V c 1 t) : S1024x512.Idx → EReal) j = Cert.Spec.mm (V c main_arg0) (V c main_arg3) _
  refine r0_point (V c main_arg0) (V c main_arg3) t.val _ _ (fun x k h0 h1 => r0_iblk0_apply V c t x k h0 h1)
    (fun x => r0_iblk1_apply V c t x) j _ ?_ ?_
  · show win0_2.index t (0 : Fin 2) * 1024 + 1 * (j 0).val = 1024 * t.val + (j 0).val
    rw [e0]; omega
  · show win0_2.index t (1 : Fin 2) * 512 + 1 * (j 1).val = (j 1).val
    rw [e1]; omega

/-- Row `r` of the output lies in the block of point `r / 1024`, and every point writes its block back: the eight
    blocks cover the output. -/
theorem r0_cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : grid0.N = 8 := N_0
  have ht : (i 0).val / 1024 < grid0.N := by rw [hN]; omega
  obtain ⟨-, -, -, -, e0, e1⟩ := r0_idx ⟨(i 0).val / 1024, ht⟩
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_2.index ⟨(i 0).val / 1024, ht⟩ (1 : Fin 2) * 512 ≤ (i 1).val
      ∧ (i 1).val < win0_2.index ⟨(i 0).val / 1024, ht⟩ (1 : Fin 2) * 512 + 512
    rw [e1]; omega

/-- The output array after the region's eight points is the matrix product of the two input arrays as the region
    finds them. -/
theorem arr0 (c : Dev nD) :
    (Fr.dat0 (F := Ideal) V c).arrAt 2 cfg0.N = Cert.Spec.mm (V c main_arg0) (V c main_arg3) :=
  (Fr.dat0 V c).arrAt_eq_of_cover 2 _ (fun t _ => r0_flushed V c t) (r0_cover)

end Cert.KernelIdeal.Val

end
-- ==== Proof.Alg.lean ====
/-
  Summing an array of 8192 extended reals block by block.

  The index set `Fin 8192` is cut into 8 consecutive blocks of 1024 entries: position `k` is entry `r` of block `q`
  exactly when `k = 1024 * q + r`. Addition on the extended reals is commutative and associative, so the sum over all
  positions is the sum over the blocks of each block's sum. The statement is proved for any block count and block
  length and any commutative additive monoid, then read at 8 blocks of 1024.
-/
import Mathlib.Data.EReal.Basic
import Mathlib.Algebra.BigOperators.Fin
import Mathlib.Logic.Equiv.Fin.Basic

namespace Cert.Alg

/-- Entry `r` of block `q`, among `a` blocks of length `b`, sits at a position below `a * b`. -/
theorem block_pos_lt {a b : Nat} (q : Fin a) (r : Fin b) : b * q.val + r.val < a * b := by
  calc b * q.val + r.val < b * q.val + b := Nat.add_lt_add_left r.isLt _
    _ = b * (q.val + 1) := (Nat.mul_succ b q.val).symm
    _ ≤ b * a := Nat.mul_le_mul_left b q.isLt
    _ = a * b := Nat.mul_comm b a

/-- The sum over `a * b` positions is the sum over `a` blocks of the sums over each block's `b` entries. -/
theorem sum_blocks_gen {M : Type*} [AddCommMonoid M] (a b : Nat) (f : Fin (a * b) → M) :
    (∑ q : Fin a, ∑ r : Fin b, f ⟨b * q.val + r.val, block_pos_lt q r⟩) = ∑ k : Fin (a * b), f k := by
  rw [← Fintype.sum_prod_type', ← Equiv.sum_comp (finProdFinEquiv (m := a) (n := b)) f]
  refine Finset.sum_congr rfl fun x _ => ?_
  congr 1
  apply Fin.ext
  show b * x.1.val + x.2.val = x.2.val + b * x.1.val
  exact Nat.add_comm _ _

/-- The sum over 8192 positions is the sum over 8 blocks of the sums over each block's 1024 entries. -/
theorem sum_blocks (f : Fin 8192 → EReal) :
    (∑ q : Fin 8, ∑ r : Fin 1024, f ⟨1024 * q.val + r.val, by omega⟩) = ∑ k : Fin 8192, f k :=
  sum_blocks_gen 8 1024 f

end Cert.Alg
-- ==== Proof.KI.Pay1.lean ====
import proofs.«111958_j2972117368867_1_alg».proof.Proof.Gen.KernelIdeal.Launch
import proofs.«111958_j2972117368867_1_alg».proof.Proof.Gen.KernelIdeal.Skeleton
import proofs.«111958_j2972117368867_1_alg».proof.Proof.Gen.KernelIdeal.Points
import proofs.«111958_j2972117368867_1_alg».proof.Proof.Spec
import proofs.«111958_j2972117368867_1_alg».proof.Proof.LibPlainDot
import proofs.«111958_j2972117368867_1_alg».proof.Proof.Alg
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! # Region 1 on the extended reals, the part that needs no proof data

The body's three stored values at an index, and the accumulation over the eight column blocks as a sum. -/

/-- The value the first point of a row of the grid stores into the accumulator: zero everywhere. -/
theorem r1_pay1_apply (j : S1024x512.Idx) : (k1_pay1 (F := Ideal) : S1024x512.Idx → EReal) j = 0 := by
  unfold k1_pay1
  simp only [shapeCast_self]
  exact Ideal.ofBits_zero_f32

/-- One accumulation step at an index: what the accumulator held plus the plain sum over the block's contracted axis
    (the casts to the same shape and the rounding to sixteen bits are the identity on the extended reals; the
    product starts from zero). -/
theorem r1_pay2_apply (x : Vec Ideal S1024x1024 .f32) (s acc : Vec Ideal S1024x512 .f32) (j : S1024x512.Idx) :
    (k1_pay2 x s acc : S1024x512.Idx → EReal) j
      = (acc : S1024x512.Idx → EReal) j
        + ∑ r : Fin 1024, (x : S1024x1024.Idx → EReal) (ix2 (j 0) r) * (s : S1024x512.Idx → EReal) (ix2 r (j 1)) := by
  unfold k1_pay2
  simp only [shapeCast_self]
  show (acc : S1024x512.Idx → EReal) j + _ = _
  congr 1
  exact Cert.PlainDot.matmul_zero_apply 1024 1024 512 none _ _ j

/-- The value the last point of a row of the grid stores into the output at an index: the accumulator plus the bias of
    the column, rectified. -/
theorem r1_pay3_apply (acc : Vec Ideal S1024x512 .f32) (bias : Vec Ideal S1x512 .f32) (j : S1024x512.Idx) :
    (k1_pay3 acc bias : S1024x512.Idx → EReal) j
      = max ((acc : S1024x512.Idx → EReal) j + (bias : S1x512.Idx → EReal) (ix2 0 (j 1))) Cert.Spec.zero32 := by
  unfold k1_pay3
  simp only [shapeCast_self]
  show max ((acc : S1024x512.Idx → EReal) j + broadcastTo S1024x512 bias broadcasts_S1x512_S1024x512 j) _ = _
  rw [broadcastTo_apply bias broadcasts_S1x512_S1024x512 j (ix2 0 (j 1)) (fun a => by
    match a with
    | ⟨0, _⟩ => rfl
    | ⟨1, _⟩ => rfl)]
  rfl

/-! ## The accumulation over a row of the grid, as a sum -/

/-- A sequence of accumulator contents that starts from one step over zeros and goes on by one step each: after
    step `n` the accumulator holds, at every index, the sum over the first `n + 1` column blocks of the blocks'
    contraction sums. -/
theorem r1_acc_sum (x : ℕ → Vec Ideal S1024x1024 .f32) (s : ℕ → Vec Ideal S1024x512 .f32)
    (a : ℕ → Vec Ideal S1024x512 .f32)
    (h0 : a 0 = k1_pay2 (x 0) (s 0) (k1_pay1 (F := Ideal)))
    (hs : ∀ n, n < 7 → a (n + 1) = k1_pay2 (x (n + 1)) (s (n + 1)) (a n)) :
    ∀ n, n < 8 → ∀ j : S1024x512.Idx, (a n : S1024x512.Idx → EReal) j
      = ∑ q ∈ Finset.range (n + 1), ∑ r : Fin 1024,
          (x q : S1024x1024.Idx → EReal) (ix2 (j 0) r) * (s q : S1024x512.Idx → EReal) (ix2 r (j 1)) := by
  intro n
  induction n with
  | zero =>
    intro _ j
    rw [h0, r1_pay2_apply, r1_pay1_apply, zero_add, Finset.sum_range_one]
  | succ n ih =>
    intro hn j
    rw [hs n (by omega), r1_pay2_apply, ih (by omega) j, Finset.sum_range_succ _ (n + 1)]

/-- The eight column blocks' contraction sums add up to the whole contraction: if block `q` of the left factor
    reads rows `1024 iv …`, columns `1024 q …` of `A` and block `q` of the right factor reads rows `1024 q …` of
    `S`, the sum over the eight blocks at block index `j` is the product `A · S` at row `1024 iv + j 0`, column `j 1`. -/
theorem r1_rowsum (A : Cert.Spec.Mat 8192 8192) (S : Cert.Spec.Mat 8192 512)
    (x : ℕ → Vec Ideal S1024x1024 .f32) (s : ℕ → Vec Ideal S1024x512 .f32) (iv : ℕ)
    (hx : ∀ q, q < 8 → ∀ (p : S1024x1024.Idx) (k : S8192x8192.Idx), (k 0).val = 1024 * iv + (p 0).val →
      (k 1).val = 1024 * q + (p 1).val → (x q : S1024x1024.Idx → EReal) p = A k)
    (hs : ∀ q, q < 8 → ∀ (p : S1024x512.Idx) (k : S8192x512.Idx), (k 0).val = 1024 * q + (p 0).val →
      (k 1).val = (p 1).val → (s q : S1024x512.Idx → EReal) p = S k)
    (j : S1024x512.Idx) (i : S8192x512.Idx) (hi0 : (i 0).val = 1024 * iv + (j 0).val) (hi1 : (i 1).val = (j 1).val) :
    (∑ q ∈ Finset.range 8, ∑ r : Fin 1024,
        (x q : S1024x1024.Idx → EReal) (ix2 (j 0) r) * (s q : S1024x512.Idx → EReal) (ix2 r (j 1)))
      = Cert.Spec.mm A S i := by
  rw [Finset.sum_range (fun q => ∑ r : Fin 1024,
    (x q : S1024x1024.Idx → EReal) (ix2 (j 0) r) * (s q : S1024x512.Idx → EReal) (ix2 r (j 1)))]
  unfold Cert.Spec.mm
  rw [← Cert.Alg.sum_blocks (fun k => A (ix2 (i 0) k) * S (ix2 k (i 1)))]
  refine Finset.sum_congr rfl fun q _ => Finset.sum_congr rfl fun r _ => ?_
  rw [hx q.val q.isLt (ix2 (j 0) r) (ix2 (i 0) ⟨1024 * q.val + r.val, by omega⟩) hi0 rfl,
    hs q.val q.isLt (ix2 r (j 1)) (ix2 ⟨1024 * q.val + r.val, by omega⟩ (i 1)) rfl hi1]

/-! ## Where the windows' blocks sit, and which rows the body loads of the resident array -/

/-- At point `t = 8 i + k`: the left factor's block is block `(i, k)`, the output's is row block `i`, the resident
    right factor's and the bias's are at the origin (decided over the 64 points). -/
theorem r1_idx : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The body loads rows `1024 k …` of the resident right factor at point `8 i + k` (decided over the 64 points). -/
theorem r1_off : ∀ t : Fin cfg1.N, k1_off1 (grid1.coords t) (0 : Fin 2) = 1024 * (t.val % 8)
    ∧ k1_off1 (grid1.coords t) (1 : Fin 2) = 0 :=
  (by decide +kernel : ∀ t : Fin grid1.N, _)

end Cert.KernelIdeal.Val

end
-- ==== Proof.KI.Value1.lean ====
import proofs.«111958_j2972117368867_1_alg».proof.Proof.KI.Region1
import proofs.«111958_j2972117368867_1_alg».proof.Proof.KI.Pay1

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! # Region 1 on the extended reals: the output array is the hidden layer

The grid is eight row blocks by eight column blocks, point `t = 8 i + k`. Along a row of the grid the accumulator
gathers the products of the adjacency blocks `(i, 0) … (i, 7)` with the matching rows of the feature matrix; the last
point of the row adds the bias, rectifies, and writes row block `i` of the output back. -/

variable (V : (c : Dev nD) → (b : Ref sig .tc) → Buf (Elt Ideal) ((c : Thread nD τ).loc b))

/-! ## The windows' blocks as entries of the arrays -/

/-- The adjacency window's block at point `t` is rows `1024 (t / 8) …`, columns `1024 (t % 8) …` of the adjacency. -/
theorem r1_iblk0_apply (c : Dev nD) (t : Fin cfg1.N) (x : S1024x1024.Idx) (k : S8192x8192.Idx)
    (hk0 : (k 0).val = 1024 * (t.val / 8) + (x 0).val) (hk1 : (k 1).val = 1024 * (t.val % 8) + (x 1).val) :
    (Fr.iblk1 V c 0 t : Vec Ideal S1024x1024 .f32) x = (V c main_arg1 : S8192x8192.Idx → EReal) k := by
  obtain ⟨e0, e1, -⟩ := r1_idx t
  unfold Fr.iblk1
  rw [View.read_apply]
  show V c main_arg1 _ = V c main_arg1 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 1024 + 1 * (x 1).val = (k 1).val; rw [e1, hk1]; omega

/-- The feature window's block at every point is the whole feature matrix. -/
theorem r1_iblk1_apply (c : Dev nD) (t : Fin cfg1.N) (x : S8192x512.Idx) :
    (Fr.iblk1 V c 1 t : Vec Ideal S8192x512 .f32) x = (V c main_v0 : S8192x512.Idx → EReal) x := by
  obtain ⟨-, -, e0, e1, -⟩ := r1_idx t
  unfold Fr.iblk1
  rw [View.read_apply]
  show V c main_v0 _ = V c main_v0 _
  congr 1
  funext a
  apply Fin.ext
  match a with
  | ⟨0, _⟩ => show win1_1.index t (0 : Fin 2) * 8192 + 1 * (x 0).val = (x 0).val; rw [e0]; omega
  | ⟨1, _⟩ => show win1_1.index t (1 : Fin 2) * 512 + 1 * (x 1).val = (x 1).val; rw [e1]; omega

/-- The bias window's block at every point is the whole bias row. -/
theorem r1_iblk2_apply (c : Dev nD) (t : Fin cfg1.N) (x : S1x512.Idx) :
    (Fr.iblk1 V c 2 t : Vec Ideal S1x512 .f32) x = (V c main_v1 : S1x512.Idx → EReal) x := by
  obtain ⟨-, -, -, -, e0, e1, -⟩ := r1_idx t
  unfold Fr.iblk1
  rw [View.read_apply]
  show V c main_v1 _ = V c main_v1 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 512 + 1 * (x 1).val = (x 1).val; rw [e1]; omega

/-- The rows of the feature matrix the body loads at point `t`: rows `1024 (t % 8) …`. -/
theorem r1_slice_apply (c : Dev nD) (t : Fin cfg1.N) (p : S1024x512.Idx) (k : S8192x512.Idx)
    (hk0 : (k 0).val = 1024 * (t.val % 8) + (p 0).val) (hk1 : (k 1).val = (p 1).val) :
    (View.ld (Fr.iblk1 V c 1 t) (Fr.r1_rows (grid1.coords t)) : Vec Ideal S1024x512 .f32) p
      = (V c main_v0 : S8192x512.Idx → EReal) k := by
  obtain ⟨o0, o1⟩ := r1_off t
  show (Fr.iblk1 V c 1 t : Vec Ideal S8192x512 .f32) ((Fr.r1_rows (grid1.coords t)).emb p) = _
  rw [r1_iblk1_apply]
  congr 1
  funext a
  apply Fin.ext
  match a with
  | ⟨0, _⟩ => show k1_off1 (grid1.coords t) (0 : Fin 2) + 1 * (p 0).val = (k 0).val; rw [o0, hk0]; omega
  | ⟨1, _⟩ => show k1_off1 (grid1.coords t) (1 : Fin 2) + 1 * (p 1).val = (k 1).val; rw [o1, hk1]; omega

/-! ## A row of the grid -/

/-- Point `8 iv + n` of the grid, read modulo 64 so that it names a point for every `iv` and `n`. -/
def r1_pt (iv n : ℕ) : Fin cfg1.N := ⟨(8 * iv + n) % 64, by rw [show cfg1.N = 64 from N_1]; omega⟩

/-- The accumulator's contents depend on the position only. -/
theorem r1_acc_congr (c : Dev nD) (n m : ℕ) (hn : n < cfg1.N) (hm : m < cfg1.N) (e : n = m) :
    Fr.acc1 V c n hn = Fr.acc1 V c m hm := by subst e; rfl

/-- The adjacency block of point `8 iv + q`, as an array of extended reals. -/
def r1_x (c : Dev nD) (iv q : ℕ) : Vec Ideal S1024x1024 .f32 := Fr.iblk1 V c 0 (r1_pt iv q)
/-- The rows of the feature matrix loaded at point `8 iv + q`, as an array of extended reals. -/
def r1_s (c : Dev nD) (iv q : ℕ) : Vec Ideal S1024x512 .f32 :=
  View.ld (Fr.iblk1 V c 1 (r1_pt iv q)) (Fr.r1_rows (grid1.coords (r1_pt iv q)))

/-- Along row block `iv`, after column block `n` the accumulator holds the sum over the column blocks `0 … n` of
    the products of the adjacency blocks with the rows of the feature matrix they name. -/
theorem r1_row_acc (c : Dev nD) (iv : ℕ) (hiv : iv < 8) (n : ℕ) (hn : n < 8) (j : S1024x512.Idx) :
    (Fr.acc1 V c (r1_pt iv n).val (r1_pt iv n).isLt : S1024x512.Idx → EReal) j
      = ∑ q ∈ Finset.range (n + 1), ∑ r : Fin 1024,
          (r1_x V c iv q : S1024x1024.Idx → EReal) (ix2 (j 0) r) * (r1_s V c iv q : S1024x512.Idx → EReal) (ix2 r (j 1)) :=
  r1_acc_sum (r1_x V c iv) (r1_s V c iv)
    (fun n => Fr.acc1 V c (r1_pt iv n).val (r1_pt iv n).isLt)
    (by
      have e := Fr.acc1_first V c (r1_pt iv 0) (by show (8 * iv + 0) % 64 % 8 = 0; omega)
      unfold Fr.step1 at e
      unfold r1_x r1_s
      exact e)
    (fun n hn7 => by
      have e := Fr.acc1_next V c (r1_pt iv (n + 1)) (by show ¬(8 * iv + (n + 1)) % 64 % 8 = 0; omega)
      unfold Fr.step1 at e
      unfold r1_x r1_s
      show Fr.acc1 V c (r1_pt iv (n + 1)).val _ = _
      rw [e]
      congr 1
      exact r1_acc_congr V c _ _ _ _ (by show (8 * iv + (n + 1)) % 64 - 1 = (8 * iv + n) % 64; omega))
    n hn j

/-- After the last column block the accumulator of row block `iv` holds the product of the adjacency with the
    feature matrix on the rows `1024 iv …`. -/
theorem r1_row_total (c : Dev nD) (iv : ℕ) (hiv : iv < 8) (j : S1024x512.Idx) (i : S8192x512.Idx)
    (hi0 : (i 0).val = 1024 * iv + (j 0).val) (hi1 : (i 1).val = (j 1).val) :
    (Fr.acc1 V c (r1_pt iv 7).val (r1_pt iv 7).isLt : S1024x512.Idx → EReal) j
      = Cert.Spec.mm (V c main_arg1) (V c main_v0) i := by
  rw [r1_row_acc V c iv hiv 7 (by decide) j]
  exact r1_rowsum (V c main_arg1) (V c main_v0) (r1_x V c iv) (r1_s V c iv) iv
    (fun q hq p k h0 h1 => show (Fr.iblk1 V c 0 (r1_pt iv q) : Vec Ideal S1024x1024 .f32) p = _ from r1_iblk0_apply V c (r1_pt iv q) p k
      (by rw [h0]; show _ = 1024 * ((8 * iv + q) % 64 / 8) + _; omega)
      (by rw [h1]; show _ = 1024 * ((8 * iv + q) % 64 % 8) + _; omega))
    (fun q hq p k h0 h1 => show (View.ld (Fr.iblk1 V c 1 (r1_pt iv q)) (Fr.r1_rows (grid1.coords (r1_pt iv q))) : Vec Ideal S1024x512 .f32) p = _ from r1_slice_apply V c (r1_pt iv q) p k
      (by rw [h0]; show _ = 1024 * ((8 * iv + q) % 64 % 8) + _; omega) h1)
    j i hi0 hi1

/-! ## The write-backs and the array -/

/-- The last point's stored value, over arrays of literal types: the accumulator's entry and the bias's entry give the
    hidden layer's entry. -/
theorem r1_out_point (A : Cert.Spec.Mat 8192 8192) (S : Cert.Spec.Mat 8192 512) (b : Cert.Spec.Vec1 512)
    (acc : Vec Ideal S1024x512 .f32) (bias : Vec Ideal S1x512 .f32) (j : S1024x512.Idx) (i : S8192x512.Idx)
    (hacc : (acc : S1024x512.Idx → EReal) j = Cert.Spec.mm A S i)
    (hbias : (bias : S1x512.Idx → EReal) (ix2 0 (j 1)) = b (ix1 (i 1))) :
    (k1_pay3 acc bias : S1024x512.Idx → EReal) j = Cert.Spec.hidden A S b i := by
  rw [r1_pay3_apply, hacc, hbias]
  rfl

/-- What a point that writes back writes: row block `t / 8` of the hidden layer. -/
theorem r1_flushed (c : Dev nD) (b : Cert.Spec.Vec1 512)
    (hb : ∀ i : Fin 512, (V c main_v1 : S1x512.Idx → EReal) (ix2 0 i) = b (ix1 i))
    (t : Fin cfg1.N) (hf : (cfg1.win 3).flush t = true) :
    (Fr.dat1 V c).flushed 3 t
      = ((cfg1.win 3).blk t).view.read (Elt Ideal) (Cert.Spec.hidden (V c main_arg1) (V c main_v0) b) := by
  have h7 : t.val % 8 = 7 := (flush1_3 t).mp hf
  have ht : t.val < 64 := Nat.lt_of_lt_of_eq t.isLt N_1
  obtain ⟨-, -, -, -, -, -, e0, e1⟩ := r1_idx t
  show (cfg1.win 3).cut (grid1.coords t) ((Fr.dat1 V c).after 3 t) = _
  rw [Fr.after1_3]
  funext j
  rw [View.read_apply]
  show (k1_pay3 (Fr.acc1 V c t.val t.isLt) (Fr.iblk1 V c 2 t) : S1024x512.Idx → EReal) j
    = Cert.Spec.hidden (V c main_arg1) (V c main_v0) b _
  refine r1_out_point _ _ b _ _ j _ ?_ ?_
  · rw [r1_acc_congr V c t.val (r1_pt (t.val / 8) 7).val t.isLt (r1_pt (t.val / 8) 7).isLt
      (by show t.val = (8 * (t.val / 8) + 7) % 64; omega)]
    refine r1_row_total V c (t.val / 8) (by omega) j _ ?_ ?_
    · show win1_3.index t (0 : Fin 2) * 1024 + 1 * (j 0).val = 1024 * (t.val / 8) + (j 0).val
      rw [e0]; omega
    · show win1_3.index t (1 : Fin 2) * 512 + 1 * (j 1).val = (j 1).val
      rw [e1]; omega
  · rw [r1_iblk2_apply]
    have e : (((cfg1.win 3).blk t).view.emb j 1 : Fin 512) = (j 1 : Fin 512) :=
      Fin.ext (by show win1_3.index t (1 : Fin 2) * 512 + 1 * (j 1).val = (j 1).val; rw [e1]; omega)
    exact (hb (j 1)).trans (congrArg (fun z : Fin 512 => b (ix1 z)) e.symm)

/-- Row `r` of the output lies in the block of the last point of row block `r / 1024` of the grid, and that point
    writes back: the eight blocks cover the output. -/
theorem r1_cover (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  have hN : grid1.N = 64 := N_1
  have ht : 8 * ((i 0).val / 1024) + 7 < grid1.N := by rw [hN]; omega
  obtain ⟨-, -, -, -, -, -, e0, e1⟩ := r1_idx ⟨8 * ((i 0).val / 1024) + 7, ht⟩
  refine ⟨⟨8 * ((i 0).val / 1024) + 7, ht⟩,
    (flush1_3 _).mpr (by show (8 * ((i 0).val / 1024) + 7) % 8 = 7; omega), ?_⟩
  show i ∈ ((View.whole main_v2).slice (win1_3.rect ⟨8 * ((i 0).val / 1024) + 7, ht⟩)).set
  rw [View.set_slice_whole, Rect.mem_set_unit]
  intro a
  match a with
  | ⟨0, _⟩ =>
    show win1_3.index ⟨8 * ((i 0).val / 1024) + 7, ht⟩ (0 : Fin 2) * 1024 ≤ (i 0).val
      ∧ (i 0).val < win1_3.index ⟨8 * ((i 0).val / 1024) + 7, ht⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_3.index ⟨8 * ((i 0).val / 1024) + 7, ht⟩ (1 : Fin 2) * 512 ≤ (i 1).val
      ∧ (i 1).val < win1_3.index ⟨8 * ((i 0).val / 1024) + 7, ht⟩ (1 : Fin 2) * 512 + 512
    rw [e1]; omega

/-- The output array after the region's 64 points is the hidden layer of the adjacency, the feature matrix and the
    bias as the region finds them. -/
theorem arr1 (c : Dev nD) (b : Cert.Spec.Vec1 512)
    (hb : ∀ i : Fin 512, (V c main_v1 : S1x512.Idx → EReal) (ix2 0 i) = b (ix1 i)) :
    (Fr.dat1 (F := Ideal) V c).arrAt 3 cfg1.N = Cert.Spec.hidden (V c main_arg1) (V c main_v0) b :=
  (Fr.dat1 V c).arrAt_eq_of_cover 3 _ (fun t hf => r1_flushed V c b hb t hf) r1_cover

end Cert.KernelIdeal.Val

end
-- ==== Proof.KI.Value2.lean ====
import proofs.«111958_j2972117368867_1_alg».proof.Proof.KI.Region2
import proofs.«111958_j2972117368867_1_alg».proof.Proof.Spec
import proofs.«111958_j2972117368867_1_alg».proof.Proof.LibPlainDot
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! # Region 2 on the extended reals: the output array is the matrix product of the two input arrays

Point `t` of the eight multiplies rows `1024 t … 1024 t + 1023` of the left array by the whole right array and
writes the result over the same rows of the output; the eight row blocks tile the output. -/

variable (V : (c : Dev nD) → (b : Ref sig .tc) → Buf (Elt Ideal) ((c : Thread nD τ).loc b))

theorem r2_hz : (![0, 0] : Fin 2 → Nat) = fun _ => 0 := funext fun a => by fin_cases a <;> rfl

/-- The body's stored value at an index: the plain sum over the contracted axis. The cast of the left block to its own
    shape is the identity, rounding to sixteen bits is the identity on the extended reals, and the accumulator starts
    from zero. -/
theorem r2_pay_apply (x0 : Vec Ideal S1024x512 .f32) (x1 : Vec Ideal S512x256 .f32) (j : S1024x256.Idx) :
    (k2_pay1 x0 x1 : S1024x256.Idx → EReal) j
      = ∑ k : Fin 512, (x0 : S1024x512.Idx → EReal) (ix2 (j 0) k) * (x1 : S512x256.Idx → EReal) (ix2 k (j 1)) := by
  unfold k2_pay1
  simp only [shapeCast_self]
  exact Cert.PlainDot.matmul_zero_apply 1024 512 256 none _ _ j

/-- Where the three windows' blocks sit at point `t`: the left array's and the output's at row block `t`, the right
    array's at the origin (decided over the eight points). -/
theorem r2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `1024 t …` of the left array. -/
theorem r2_iblk0_apply (c : Dev nD) (t : Fin cfg2.N) (x : S1024x512.Idx) (k : S8192x512.Idx)
    (hk0 : (k 0).val = 1024 * t.val + (x 0).val) (hk1 : (k 1).val = (x 1).val) :
    (Fr.iblk2 V c 0 t : Vec Ideal S1024x512 .f32) x = (V c main_v2 : S8192x512.Idx → EReal) k := by
  obtain ⟨e0, e1, -⟩ := r2_idx t
  unfold Fr.iblk2
  rw [View.read_apply]
  show V c main_v2 _ = V c main_v2 _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 512 + 1 * (x 1).val = (k 1).val; rw [e1, hk1]; omega

/-- The right window's block at every point is the whole right array. -/
theorem r2_iblk1_apply (c : Dev nD) (t : Fin cfg2.N) (x : S512x256.Idx) :
    (Fr.iblk2 V c 1 t : Vec Ideal S512x256 .f32) x = (V c main_arg5 : S512x256.Idx → EReal) x := by
  obtain ⟨-, -, e0, e1, -⟩ := r2_idx t
  unfold Fr.iblk2
  rw [View.read_apply]
  show V c main_arg5 _ = V c main_arg5 _
  congr 1
  funext a
  apply Fin.ext
  match a with
  | ⟨0, _⟩ => show win2_1.index t (0 : Fin 2) * 512 + 1 * (x 0).val = (x 0).val; rw [e0]; omega
  | ⟨1, _⟩ => show win2_1.index t (1 : Fin 2) * 256 + 1 * (x 1).val = (x 1).val; rw [e1]; omega

/-- One point, over arrays of literal types: if the left block reads rows `1024 tv …` of `A` and the right block reads
    `W`, the stored value at block index `j` is the product `A · W` at row `1024 tv + j 0`, column `j 1`. -/
theorem r2_point (A : Cert.Spec.Mat 8192 512) (W : Cert.Spec.Mat 512 256) (tv : Nat)
    (x0 : Vec Ideal S1024x512 .f32) (x1 : Vec Ideal S512x256 .f32)
    (h0 : ∀ (x : S1024x512.Idx) (k : S8192x512.Idx), (k 0).val = 1024 * tv + (x 0).val → (k 1).val = (x 1).val →
      (x0 : S1024x512.Idx → EReal) x = A k)
    (h1 : ∀ x : S512x256.Idx, (x1 : S512x256.Idx → EReal) x = W x)
    (j : S1024x256.Idx) (i : S8192x256.Idx) (hi0 : (i 0).val = 1024 * tv + (j 0).val) (hi1 : (i 1).val = (j 1).val) :
    (k2_pay1 x0 x1 : S1024x256.Idx → EReal) j = Cert.Spec.mm A W i := by
  rw [r2_pay_apply]
  unfold Cert.Spec.mm
  refine Finset.sum_congr rfl fun k _ => ?_
  have hj : (j 1 : Fin 256) = (i 1 : Fin 256) := Fin.ext hi1.symm
  rw [h0 (ix2 (j 0) k) (ix2 (i 0) k) hi0 rfl, h1, hj]

/-- What point `t` writes back: row block `t` of the product of the two arrays as the region finds them. -/
theorem r2_flushed (c : Dev nD) (t : Fin cfg2.N) :
    (Fr.dat2 V c).flushed 2 t
      = ((cfg2.win 2).blk t).view.read (Elt Ideal) (Cert.Spec.mm (V c main_v2) (V c main_arg5)) := by
  obtain ⟨-, -, -, -, e0, e1⟩ := r2_idx t
  show (cfg2.win 2).cut (grid2.coords t) ((Fr.dat2 V c).after 2 t) = _
  rw [Fr.after2_2]
  unfold Fr.out2_2
  rw [View.canon_unit_zero r2_hz]
  simp only [View.ld_unit_zero (S := S1024x512) r2_hz, View.ld_unit_zero (S := S512x256) r2_hz]
  funext j
  rw [View.read_apply]
  show (k2_pay1 (Fr.iblk2 V c 0 t) (Fr.iblk2 V c 1 t) : S1024x256.Idx → EReal) j = Cert.Spec.mm (V c main_v2) (V c main_arg5) _
  refine r2_point (V c main_v2) (V c main_arg5) t.val _ _ (fun x k h0 h1 => r2_iblk0_apply V c t x k h0 h1)
    (fun x => r2_iblk1_apply V c t x) j _ ?_ ?_
  · show win2_2.index t (0 : Fin 2) * 1024 + 1 * (j 0).val = 1024 * t.val + (j 0).val
    rw [e0]; omega
  · show win2_2.index t (1 : Fin 2) * 256 + 1 * (j 1).val = (j 1).val
    rw [e1]; omega

/-- Row `r` of the output lies in the block of point `r / 1024`, and every point writes its block back: the eight
    blocks cover the output. -/
theorem r2_cover (i : S8192x256.Idx) :
    ∃ t : Fin cfg2.N, (cfg2.win 2).flush t = true ∧ i ∈ ((cfg2.win 2).blk t).view.set := by
  have hi0 : (i 0).val < 8192 := (i 0).isLt
  have hi1 : (i 1).val < 256 := (i 1).isLt
  have hN : grid2.N = 8 := N_2
  have ht : (i 0).val / 1024 < grid2.N := by rw [hN]; omega
  obtain ⟨-, -, -, -, e0, e1⟩ := r2_idx ⟨(i 0).val / 1024, ht⟩
  refine ⟨⟨(i 0).val / 1024, ht⟩, flush2_2 _, ?_⟩
  show i ∈ ((View.whole main_v3).slice (win2_2.rect ⟨(i 0).val / 1024, ht⟩)).set
  rw [View.set_slice_whole, Rect.mem_set_unit]
  intro a
  match a with
  | ⟨0, _⟩ =>
    show win2_2.index ⟨(i 0).val / 1024, ht⟩ (0 : Fin 2) * 1024 ≤ (i 0).val
      ∧ (i 0).val < win2_2.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_2.index ⟨(i 0).val / 1024, ht⟩ (1 : Fin 2) * 256 ≤ (i 1).val
      ∧ (i 1).val < win2_2.index ⟨(i 0).val / 1024, ht⟩ (1 : Fin 2) * 256 + 256
    rw [e1]; omega

/-- The output array after the region's eight points is the matrix product of the two input arrays as the region
    finds them. -/
theorem arr2 (c : Dev nD) :
    (Fr.dat2 (F := Ideal) V c).arrAt 2 cfg2.N = Cert.Spec.mm (V c main_v2) (V c main_arg5) :=
  (Fr.dat2 V c).arrAt_eq_of_cover 2 _ (fun t _ => r2_flushed V c t) (r2_cover)

end Cert.KernelIdeal.Val

end
-- ==== Proof.KI.Value3.lean ====
/-
  Region 3 on the extended reals: the result array is `(A · S + b) · sc + sh`.

  Point `t = 8 i + k` adds to the accumulator the product of block `(i, k)` of the adjacency matrix `A` with rows
  `[1024 k, 1024 k + 1024)` of the support matrix `S`; the accumulator starts from zero at `k = 0`, so that after
  `k = 7` it holds, at block index `j`, the whole sum over the 8192 contracted positions, i.e. `(A · S)` at row
  `1024 i + j 0`, column `j 1`. The value stored at `k = 7` adds the bias, multiplies by the scale and adds the shift
  of the column. The eight row blocks written back at the points `8 i + 7` tile the result.
-/
import proofs.«111958_j2972117368867_1_alg».proof.Proof.KI.Region3
import proofs.«111958_j2972117368867_1_alg».proof.Proof.Spec
import proofs.«111958_j2972117368867_1_alg».proof.Proof.LibPlainDot
import proofs.«111958_j2972117368867_1_alg».proof.Proof.Alg
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## Sums over the contracted axis, typed over arrays of extended reals -/

/-- The contraction of one block product at block index `j`. -/
def v3_dot (x : Cert.Spec.Mat 1024 1024) (s : Cert.Spec.Mat 1024 256) (j : S1024x256.Idx) : EReal :=
  ∑ r : Fin 1024, x (ix2 (j 0) r) * s (ix2 r (j 1))

/-- One term of the whole contraction: row `a` of `A` against column `col` of `S` at contracted position `k`. -/
def v3_term (A : Cert.Spec.Mat 8192 8192) (S : Cert.Spec.Mat 8192 256) (a : Fin 8192) (col : Fin 256) (k : Fin 8192) : EReal :=
  A (ix2 a k) * S (ix2 k col)

/-- The terms of column block `q` added. -/
def v3_gdot (A : Cert.Spec.Mat 8192 8192) (S : Cert.Spec.Mat 8192 256) (a : Fin 8192) (col : Fin 256) (q : ℕ) (hq : q < 8) : EReal :=
  ∑ r : Fin 1024, v3_term A S a col ⟨1024 * q + r.val, by omega⟩

/-! ## The three stored values at an index -/

/-- The value stored into the accumulator at `k = 0` before the first product: zero everywhere. -/
theorem v3_pay1_apply (j : S1024x256.Idx) : (k3_pay1 (F := Ideal) : S1024x256.Idx → EReal) j = 0 := by
  unfold k3_pay1
  simp only [shapeCast_self]
  exact Ideal.ofBits_zero_f32

/-- One accumulation step at an index: what the accumulator held plus the plain sum over the block's contracted axis
    (casts to the same shape and the rounding to sixteen bits are the identity on the extended reals; the product
    starts from zero). -/
theorem v3_pay2_apply (x : Vec Ideal S1024x1024 .f32) (s acc : Vec Ideal S1024x256 .f32) (j : S1024x256.Idx) :
    (k3_pay2 x s acc : S1024x256.Idx → EReal) j
      = (acc : S1024x256.Idx → EReal) j
        + v3_dot x s j := by
  unfold k3_pay2 v3_dot
  simp only [shapeCast_self]
  show (acc : S1024x256.Idx → EReal) j + _ = _
  congr 1
  exact Cert.PlainDot.matmul_zero_apply 1024 1024 256 none _ _ j

/-- The value stored into the result block at `k = 7`, at an index: the accumulator plus the column's bias, times the
    column's scale, plus the column's shift. -/
theorem v3_pay3_apply (acc : Vec Ideal S1024x256 .f32) (bias scale shift : Vec Ideal S1x256 .f32) (j : S1024x256.Idx) :
    (k3_pay3 acc bias scale shift : S1024x256.Idx → EReal) j
      = ((acc : S1024x256.Idx → EReal) j + (bias : S1x256.Idx → EReal) (ix2 0 (j 1))) * (scale : S1x256.Idx → EReal) (ix2 0 (j 1))
        + (shift : S1x256.Idx → EReal) (ix2 0 (j 1)) := by
  unfold k3_pay3
  simp only [shapeCast_self]
  show ((acc : S1024x256.Idx → EReal) j + broadcastTo S1024x256 bias broadcasts_S1x256_S1024x256 j)
      * broadcastTo S1024x256 scale broadcasts_S1x256_S1024x256 j + broadcastTo S1024x256 shift broadcasts_S1x256_S1024x256 j = _
  rw [broadcastTo_apply bias broadcasts_S1x256_S1024x256 j (ix2 0 (j 1)) (fun a => by
    match a with
    | ⟨0, _⟩ => rfl
    | ⟨1, _⟩ => rfl),
    broadcastTo_apply scale broadcasts_S1x256_S1024x256 j (ix2 0 (j 1)) (fun a => by
    match a with
    | ⟨0, _⟩ => rfl
    | ⟨1, _⟩ => rfl),
    broadcastTo_apply shift broadcasts_S1x256_S1024x256 j (ix2 0 (j 1)) (fun a => by
    match a with
    | ⟨0, _⟩ => rfl
    | ⟨1, _⟩ => rfl)]

/-! ## Where the windows' blocks sit, and which rows the body loads of the resident support matrix -/

/-- At point `t = 8 i + k`: the adjacency block is block `(i, k)`, the result's is row block `i`, every other window's
    is at the origin (decided over the 64 points). -/
theorem v3_idx : ∀ t : Fin cfg3.N, win3_0.index t (0 : Fin 2) = t.val / 8 ∧ win3_0.index t (1 : Fin 2) = t.val % 8
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 8 ∧ win3_5.index t (1 : Fin 2) = 0 :=
  (by decide +kernel : ∀ t : Fin grid3.N, _)

/-- The body loads rows `1024 k …` of the resident support matrix at point `8 i + k` (decided over the 64 points). -/
theorem v3_off : ∀ t : Fin cfg3.N, k3_off1 (grid3.coords t) (0 : Fin 2) = 1024 * (t.val % 8)
    ∧ k3_off1 (grid3.coords t) (1 : Fin 2) = 0 :=
  (by decide +kernel : ∀ t : Fin grid3.N, _)

variable (V : (c : Dev nD) → (b : Ref sig .tc) → Buf (Elt Ideal) ((c : Thread nD τ).loc b))

/-- The adjacency window's block at point `t` is rows `1024 (t / 8) …`, columns `1024 (t % 8) …` of the adjacency matrix. -/
theorem v3_iblk0_apply (c : Dev nD) (t : Fin cfg3.N) (x : S1024x1024.Idx) (k : S8192x8192.Idx)
    (hk0 : (k 0).val = 1024 * (t.val / 8) + (x 0).val) (hk1 : (k 1).val = 1024 * (t.val % 8) + (x 1).val) :
    (Fr.iblk3 V c 0 t : Vec Ideal S1024x1024 .f32) x = (V c main_arg2 : S8192x8192.Idx → EReal) k := by
  obtain ⟨e0, e1, -⟩ := v3_idx t
  unfold Fr.iblk3
  rw [View.read_apply]
  show V c main_arg2 _ = V c main_arg2 _
  congr 1
  funext a
  apply Fin.ext
  match a with
  | ⟨0, _⟩ => show win3_0.index t (0 : Fin 2) * 1024 + 1 * (x 0).val = (k 0).val; rw [e0, hk0]; omega
  | ⟨1, _⟩ => show win3_0.index t (1 : Fin 2) * 1024 + 1 * (x 1).val = (k 1).val; rw [e1, hk1]; omega

/-- The support window's block at every point is the whole support matrix. -/
theorem v3_iblk1_apply (c : Dev nD) (t : Fin cfg3.N) (x : S8192x256.Idx) :
    (Fr.iblk3 V c 1 t : Vec Ideal S8192x256 .f32) x = (V c main_v3 : S8192x256.Idx → EReal) x := by
  obtain ⟨-, -, e0, e1, -⟩ := v3_idx t
  unfold Fr.iblk3
  rw [View.read_apply]
  show V c main_v3 _ = V c main_v3 _
  congr 1
  funext a
  apply Fin.ext
  match a with
  | ⟨0, _⟩ => show win3_1.index t (0 : Fin 2) * 8192 + 1 * (x 0).val = (x 0).val; rw [e0]; omega
  | ⟨1, _⟩ => show win3_1.index t (1 : Fin 2) * 256 + 1 * (x 1).val = (x 1).val; rw [e1]; omega

/-- The bias, scale and shift windows' blocks at every point are the whole rows. -/
theorem v3_iblk2_apply (c : Dev nD) (t : Fin cfg3.N) (x : S1x256.Idx) :
    (Fr.iblk3 V c 2 t : Vec Ideal S1x256 .f32) x = (V c main_v10 : S1x256.Idx → EReal) x := by
  obtain ⟨-, -, -, -, e0, e1, -⟩ := v3_idx t
  unfold Fr.iblk3
  rw [View.read_apply]
  show V c main_v10 _ = V c main_v10 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega
theorem v3_iblk3_apply (c : Dev nD) (t : Fin cfg3.N) (x : S1x256.Idx) :
    (Fr.iblk3 V c 3 t : Vec Ideal S1x256 .f32) x = (V c main_v11 : S1x256.Idx → EReal) x := by
  obtain ⟨-, -, -, -, -, -, e0, e1, -⟩ := v3_idx t
  unfold Fr.iblk3
  rw [View.read_apply]
  show V c main_v11 _ = V c main_v11 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega
theorem v3_iblk4_apply (c : Dev nD) (t : Fin cfg3.N) (x : S1x256.Idx) :
    (Fr.iblk3 V c 4 t : Vec Ideal S1x256 .f32) x = (V c main_v12 : S1x256.Idx → EReal) x := by
  obtain ⟨-, -, -, -, -, -, -, -, e0, e1, -⟩ := v3_idx t
  unfold Fr.iblk3
  rw [View.read_apply]
  show V c main_v12 _ = V c main_v12 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-- The rows the body loads at point `t` are rows `1024 (t % 8) …` of the support matrix. -/
theorem v3_slice_apply (c : Dev nD) (t : Fin cfg3.N) (p : S1024x256.Idx) (k : S8192x256.Idx)
    (hk0 : (k 0).val = 1024 * (t.val % 8) + (p 0).val) (hk1 : (k 1).val = (p 1).val) :
    (Fr.r3_slice V c t : Vec Ideal S1024x256 .f32) p = (V c main_v3 : S8192x256.Idx → EReal) k := by
  obtain ⟨o0, o1⟩ := v3_off t
  show (Fr.iblk3 V c 1 t : Vec Ideal S8192x256 .f32) _ = _
  rw [v3_iblk1_apply]
  congr 1
  funext a
  apply Fin.ext
  match a with
  | ⟨0, _⟩ => show k3_off1 (grid3.coords t) (0 : Fin 2) + 1 * (p 0).val = (k 0).val; rw [o0, hk0]; omega
  | ⟨1, _⟩ => show k3_off1 (grid3.coords t) (1 : Fin 2) + 1 * (p 1).val = (k 1).val; rw [o1, hk1]; omega

/-! ## The accumulation over a row of the grid -/

/-- The accumulator's contents depend on the point's number only. -/
theorem v3_acc_congr (c : Dev nD) {n n' : ℕ} (e : n = n') (h : n < cfg3.N) (h' : n' < cfg3.N) :
    Fr.r3_acc V c n h = Fr.r3_acc V c n' h' := by
  subst e; rfl

/-- The product added at point `8 i + k`, at block index `j`: column block `k` of row `1024 i + j 0` of the adjacency
    matrix against column `j 1` of the support matrix. -/
theorem v3_block_sum (c : Dev nD) (t : Fin cfg3.N) (i k : ℕ) (ht : t.val = 8 * i + k) (hi : i < 8) (hk : k < 8)
    (j : S1024x256.Idx) :
    v3_dot (Fr.iblk3 V c 0 t) (Fr.r3_slice V c t) j
      = v3_gdot (V c main_arg2) (V c main_v3) ⟨1024 * i + (j 0).val, (by have h0 : (j 0).val < 1024 := (j 0).isLt; omega)⟩ (j 1) k hk := by
  unfold v3_dot v3_gdot v3_term
  refine Finset.sum_congr rfl fun r _ => ?_
  rw [v3_iblk0_apply V c t (ix2 (j 0) r) (ix2 ⟨1024 * i + (j 0).val, (by have h0 : (j 0).val < 1024 := (j 0).isLt; omega)⟩ ⟨1024 * k + r.val, by omega⟩)
      (by show 1024 * i + (j 0).val = 1024 * (t.val / 8) + (j 0).val; rw [ht]; omega)
      (by show 1024 * k + r.val = 1024 * (t.val % 8) + r.val; rw [ht]; omega),
    v3_slice_apply V c t (ix2 r (j 1)) (ix2 ⟨1024 * k + r.val, by omega⟩ (j 1))
      (by show 1024 * k + r.val = 1024 * (t.val % 8) + r.val; rw [ht]; omega) rfl]

/-- After point `8 i + k` the accumulator holds, at block index `j`, the sum over the first `k + 1` column blocks. -/
theorem v3_acc_apply (c : Dev nD) (i : ℕ) (hi : i < 8) :
    ∀ (k : ℕ) (hk : k < 8) (h : 8 * i + k < cfg3.N) (j : S1024x256.Idx),
      (Fr.r3_acc V c (8 * i + k) h : S1024x256.Idx → EReal) j
        = ∑ q : Fin (k + 1), v3_gdot (V c main_arg2) (V c main_v3) ⟨1024 * i + (j 0).val, (by have h0 : (j 0).val < 1024 := (j 0).isLt; omega)⟩ (j 1) q.val (by have := q.isLt; omega) := by
  intro k
  induction k with
  | zero =>
    intro hk h j
    have h0 : (⟨8 * i + 0, h⟩ : Fin cfg3.N).val % 8 = 0 := by show (8 * i + 0) % 8 = 0; omega
    rw [show Fr.r3_acc V c (8 * i + 0) h = _ from Fr.r3_acc_first V c ⟨8 * i + 0, h⟩ h0,
      v3_pay2_apply, v3_pay1_apply, zero_add, v3_block_sum V c ⟨8 * i + 0, h⟩ i 0 rfl hi hk j,
      Fin.sum_univ_castSucc (n := 0), Fin.sum_univ_zero, zero_add]
    rfl
  | succ k ih =>
    intro hk h j
    have h0 : ¬ (⟨8 * i + (k + 1), h⟩ : Fin cfg3.N).val % 8 = 0 := by show ¬ (8 * i + (k + 1)) % 8 = 0; omega
    have hp : 8 * i + k < cfg3.N := by omega
    rw [show Fr.r3_acc V c (8 * i + (k + 1)) h = _ from Fr.r3_acc_next V c ⟨8 * i + (k + 1), h⟩ h0,
      v3_pay2_apply,
      v3_acc_congr V c (show (⟨8 * i + (k + 1), h⟩ : Fin cfg3.N).val - 1 = 8 * i + k from by show 8 * i + (k + 1) - 1 = 8 * i + k; omega) _ hp,
      ih (by omega) hp j, v3_block_sum V c ⟨8 * i + (k + 1), h⟩ i (k + 1) rfl hi hk j, Fin.sum_univ_castSucc (n := k + 1)]
    rfl

/-- After the last point `8 i + 7` of a row of the grid the accumulator holds the product `A · S` at the block's rows:
    the eight column blocks' sums regroup to the sum over all 8192 contracted positions. -/
theorem v3_acc_last (c : Dev nD) (t : Fin cfg3.N) (h7 : t.val % 8 = 7) (j : S1024x256.Idx) (x : S8192x256.Idx)
    (hx0 : (x 0).val = 1024 * (t.val / 8) + (j 0).val) (hx1 : (x 1).val = (j 1).val) :
    (Fr.r3_acc V c t.val t.isLt : S1024x256.Idx → EReal) j = Cert.Spec.mm (V c main_arg2) (V c main_v3) x := by
  have hN : cfg3.N = 64 := N_3
  have ht : t.val < 64 := lt_of_lt_of_eq t.isLt hN
  have e : t.val = 8 * (t.val / 8) + 7 := by omega
  rw [v3_acc_congr V c e t.isLt (by omega), v3_acc_apply V c (t.val / 8) (by omega) 7 (by omega) (by omega) j]
  refine Eq.trans ?_ (Cert.Alg.sum_blocks (fun k => v3_term (V c main_arg2) (V c main_v3) (x 0) (x 1) k))
  refine Finset.sum_congr rfl fun q _ => ?_
  unfold v3_gdot
  refine Finset.sum_congr rfl fun r _ => ?_
  have hj : (j 1 : Fin 256) = (x 1 : Fin 256) := Fin.ext hx1.symm
  have hr : (⟨1024 * (t.val / 8) + (j 0).val, by have h0 : (j 0).val < 1024 := (j 0).isLt; omega⟩ : Fin 8192) = (x 0 : Fin 8192) := Fin.ext hx0.symm
  exact congrArg₂ (fun a col => v3_term (V c main_arg2) (V c main_v3) a col ⟨1024 * q.val + r.val, by have := q.isLt; omega⟩) hr hj

/-! ## The value stored at `k = 7`, the write-backs and the result array -/

/-- One write-back over arrays of literal types: an accumulator that reads `A · S` at the block's rows, and bias,
    scale and shift rows that read `b`, `sc`, `sh`, store the output layer's value. -/
theorem v3_point (A : Cert.Spec.Mat 8192 8192) (S : Cert.Spec.Mat 8192 256) (b sc sh : Cert.Spec.Vec1 256) (iv : ℕ)
    (acc : Vec Ideal S1024x256 .f32) (x2 x3 x4 : Vec Ideal S1x256 .f32)
    (hacc : ∀ (j : S1024x256.Idx) (x : S8192x256.Idx), (x 0).val = 1024 * iv + (j 0).val → (x 1).val = (j 1).val →
      (acc : S1024x256.Idx → EReal) j = Cert.Spec.mm A S x)
    (h2 : ∀ n : Fin 256, (x2 : S1x256.Idx → EReal) (ix2 0 n) = b (ix1 n))
    (h3 : ∀ n : Fin 256, (x3 : S1x256.Idx → EReal) (ix2 0 n) = sc (ix1 n))
    (h4 : ∀ n : Fin 256, (x4 : S1x256.Idx → EReal) (ix2 0 n) = sh (ix1 n))
    (j : S1024x256.Idx) (x : S8192x256.Idx) (hx0 : (x 0).val = 1024 * iv + (j 0).val) (hx1 : (x 1).val = (j 1).val) :
    (k3_pay3 acc x2 x3 x4 : S1024x256.Idx → EReal) j = Cert.Spec.affine A S b sc sh x := by
  have hj : (j 1 : Fin 256) = (x 1 : Fin 256) := Fin.ext hx1.symm
  have e2 := h2 (j 1)
  have e3 := h3 (j 1)
  have e4 := h4 (j 1)
  rw [v3_pay3_apply, hacc j x hx0 hx1, e2, e3, e4, hj]
  rfl

/-- What the point `8 i + 7` writes back: row block `i` of the output layer of the arrays as the region finds them. -/
theorem v3_flushed (c : Dev nD) (b sc sh : Cert.Spec.Vec1 256)
    (hb : ∀ i : Fin 256, (V c main_v10 : S1x256.Idx → EReal) (ix2 0 i) = b (ix1 i))
    (hsc : ∀ i : Fin 256, (V c main_v11 : S1x256.Idx → EReal) (ix2 0 i) = sc (ix1 i))
    (hsh : ∀ i : Fin 256, (V c main_v12 : S1x256.Idx → EReal) (ix2 0 i) = sh (ix1 i))
    (t : Fin cfg3.N) (hf : (cfg3.win 5).flush t = true) :
    (Fr.dat3 V c).flushed 5 t
      = ((cfg3.win 5).blk t).view.read (Elt Ideal) (Cert.Spec.affine (V c main_arg2) (V c main_v3) b sc sh) := by
  have h7 : t.val % 8 = 7 := (flush3_5 t).mp hf
  obtain ⟨-, -, -, -, -, -, -, -, -, -, e0, e1⟩ := v3_idx t
  show (cfg3.win 5).cut (grid3.coords t) ((Fr.dat3 V c).after 5 t) = _
  rw [Fr.after3_5]
  unfold Fr.r3_out
  funext j
  rw [View.read_apply]
  show (k3_pay3 (Fr.r3_acc V c t.val t.isLt) (Fr.iblk3 V c 2 t) (Fr.iblk3 V c 3 t) (Fr.iblk3 V c 4 t) : S1024x256.Idx → EReal) j
    = Cert.Spec.affine (V c main_arg2) (V c main_v3) b sc sh _
  refine v3_point (V c main_arg2) (V c main_v3) b sc sh (t.val / 8) _ _ _ _
    (fun j x hx0 hx1 => v3_acc_last V c t h7 j x hx0 hx1)
    (fun n => (v3_iblk2_apply V c t _).trans (hb n)) (fun n => (v3_iblk3_apply V c t _).trans (hsc n))
    (fun n => (v3_iblk4_apply V c t _).trans (hsh n)) j _ ?_ ?_
  · show win3_5.index t (0 : Fin 2) * 1024 + 1 * (j 0).val = 1024 * (t.val / 8) + (j 0).val
    rw [e0]; omega
  · show win3_5.index t (1 : Fin 2) * 256 + 1 * (j 1).val = (j 1).val
    rw [e1]; omega

/-- Row `r` of the result lies in the block written back at point `8 (r / 1024) + 7`: the eight blocks cover it. -/
theorem v3_cover (i : S8192x256.Idx) :
    ∃ t : Fin cfg3.N, (cfg3.win 5).flush t = true ∧ i ∈ ((cfg3.win 5).blk t).view.set := by
  have hi0 : (i 0).val < 8192 := (i 0).isLt
  have hi1 : (i 1).val < 256 := (i 1).isLt
  have hN : grid3.N = 64 := N_3
  have ht : 8 * ((i 0).val / 1024) + 7 < grid3.N := by rw [hN]; omega
  obtain ⟨-, -, -, -, -, -, -, -, -, -, e0, e1⟩ := v3_idx ⟨8 * ((i 0).val / 1024) + 7, ht⟩
  refine ⟨⟨8 * ((i 0).val / 1024) + 7, ht⟩, (flush3_5 _).mpr (by show (8 * ((i 0).val / 1024) + 7) % 8 = 7; omega), ?_⟩
  show i ∈ ((View.whole main_v13).slice (win3_5.rect ⟨8 * ((i 0).val / 1024) + 7, ht⟩)).set
  rw [View.set_slice_whole, Rect.mem_set_unit]
  intro a
  match a with
  | ⟨0, _⟩ =>
    show win3_5.index ⟨8 * ((i 0).val / 1024) + 7, ht⟩ (0 : Fin 2) * 1024 ≤ (i 0).val
      ∧ (i 0).val < win3_5.index ⟨8 * ((i 0).val / 1024) + 7, ht⟩ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win3_5.index ⟨8 * ((i 0).val / 1024) + 7, ht⟩ (1 : Fin 2) * 256 ≤ (i 1).val
      ∧ (i 1).val < win3_5.index ⟨8 * ((i 0).val / 1024) + 7, ht⟩ (1 : Fin 2) * 256 + 256
    rw [e1]; omega

/-- The result array after the region's 64 points is the output layer `(A · S + b) · sc + sh` of the arrays as the
    region finds them. -/
theorem arr3 (c : Dev nD) (b sc sh : Cert.Spec.Vec1 256)
    (hb : ∀ i : Fin 256, (V c main_v10 : S1x256.Idx → EReal) (ix2 0 i) = b (ix1 i))
    (hsc : ∀ i : Fin 256, (V c main_v11 : S1x256.Idx → EReal) (ix2 0 i) = sc (ix1 i))
    (hsh : ∀ i : Fin 256, (V c main_v12 : S1x256.Idx → EReal) (ix2 0 i) = sh (ix1 i)) :
    (Fr.dat3 (F := Ideal) V c).arrAt 5 cfg3.N = Cert.Spec.affine (V c main_arg2) (V c main_v3) b sc sh :=
  (Fr.dat3 V c).arrAt_eq_of_cover 5 _ (fun t hf => v3_flushed V c b sc sh hb hsc hsh t hf) (v3_cover)

end Cert.KernelIdeal.Val

end
-- ==== Proof.KI.HostVal.lean ====
/-
  The two host stretches between the kernel's regions, read at an index on the extended reals.

  The first stretch reshapes the first layer's bias from `[512]` to `[1, 512]`. The second computes, on length-256
  vectors, the normalization's scale γ · rsqrt (σ² + ε) and offset β − μ · scale, and reshapes the second layer's bias, the
  scale and the offset from `[256]` to `[1, 256]`. A reshape that adds a leading unit axis reads, at `(0, i)`, its
  operand at `i`; the pointwise operations are the extended reals' own; the broadcast scalar ε is the same word at
  every position.
-/
import proofs.«111958_j2972117368867_1_alg».proof.Proof.Gen.KernelIdeal.Launch
import proofs.«111958_j2972117368867_1_alg».proof.Proof.Spec
import Idealize.ShloMosaic.Lib.StableHlo.Run
import Idealize.ShloMosaic.Lib.ValueLayout

noncomputable section

namespace Cert.KernelIdeal.Val

open Idealize.ShloMosaic Idealize.ShloMosaic.TcCoe Idealize.SL.Sem
open Idealize.ShloMosaic.StableHlo Idealize.ShloMosaic.ValueIdx
open Cert.KernelIdeal Cert.KernelIdeal.Gen

/-! ## The second stretch's vectors -/

/-- The scalar ε broadcast to length 256 is ε at every position. -/
theorem host3_eps (j : S256.Idx) :
    (broadcastInDim S256 ![] bcast_S_S256 (constant S_ .f32 0x3727C5AC#32 : FVec Ideal S_ .f32)) j
      = Cert.Spec.eps32 :=
  (broadcastInDim_apply _ bcast_S_S256 _ j (fun a => a.elim0) (fun a => a.elim0)).trans rfl

/-- The scale, as an array: γ · rsqrt (σ² + ε). -/
theorem host3_inv (g v : FVec Ideal S256 .f32) :
    mulf g (Host.rsqrt (addf v (broadcastInDim S256 ![] bcast_S_S256 (constant S_ .f32 0x3727C5AC#32 : FVec Ideal S_ .f32))))
      = (Cert.Spec.invStd g v : FVec Ideal S256 .f32) := by
  funext j
  show g j * Ideal.rsqrt (v j + (broadcastInDim S256 ![] bcast_S_S256
    (constant S_ .f32 0x3727C5AC#32 : FVec Ideal S_ .f32)) j) = _
  rw [host3_eps]
  rfl

/-- The offset, as an array: β − μ · scale. -/
theorem host3_shift (g be mu v : FVec Ideal S256 .f32) :
    subf be (mulf mu (mulf g (Host.rsqrt (addf v (broadcastInDim S256 ![] bcast_S_S256 (constant S_ .f32 0x3727C5AC#32 : FVec Ideal S_ .f32))))))
      = (Cert.Spec.shift be mu (Cert.Spec.invStd g v) : FVec Ideal S256 .f32) := by
  rw [host3_inv]
  rfl

/-! ## The reshaped vectors at `(0, i)` -/

/-- After the first stretch the `[1, 512]` bias reads, at `(0, i)`, the first layer's bias at `i`. -/
theorem host1_v1 (W : Valuation τ sig (Elt Ideal)) (i : Fin 512) :
    (StableHlo.after hostOps1 W (Proc.devRef .tc main_v1) : S1x512.Idx → EReal) (ix2 0 i)
      = (W (Proc.devRef .tc main_arg4) : S512.Idx → EReal) (ix1 i) := by
  after_results
  exact shapeCast_a_1a_apply (a := 512) (W (Proc.devRef .tc main_arg4)) shapeCasts_S512_S1x512 0 i

/-- After the second stretch the `[1, 256]` bias reads, at `(0, i)`, the second layer's bias at `i`. -/
theorem host3_v10 (W : Valuation τ sig (Elt Ideal)) (i : Fin 256) :
    (StableHlo.after hostOps3 W (Proc.devRef .tc main_v10) : S1x256.Idx → EReal) (ix2 0 i)
      = (W (Proc.devRef .tc main_arg6) : S256.Idx → EReal) (ix1 i) := by
  after_results
  exact shapeCast_a_1a_apply (a := 256) (W (Proc.devRef .tc main_arg6)) shapeCasts_S256_S1x256 0 i

/-- After the second stretch the `[1, 256]` scale reads, at `(0, i)`, γ · rsqrt (σ² + ε) at `i`. -/
theorem host3_v11 (W : Valuation τ sig (Elt Ideal)) (i : Fin 256) :
    (StableHlo.after hostOps3 W (Proc.devRef .tc main_v11) : S1x256.Idx → EReal) (ix2 0 i)
      = Cert.Spec.invStd (W (Proc.devRef .tc main_arg7)) (W (Proc.devRef .tc main_arg10)) (ix1 i) := by
  after_results
  rw [host3_inv]
  exact shapeCast_a_1a_apply (a := 256)
    (Cert.Spec.invStd (W (Proc.devRef .tc main_arg7)) (W (Proc.devRef .tc main_arg10))) shapeCasts_S256_S1x256 0 i

/-- After the second stretch the `[1, 256]` offset reads, at `(0, i)`, β − μ · scale at `i`. -/
theorem host3_v12 (W : Valuation τ sig (Elt Ideal)) (i : Fin 256) :
    (StableHlo.after hostOps3 W (Proc.devRef .tc main_v12) : S1x256.Idx → EReal) (ix2 0 i)
      = Cert.Spec.shift (W (Proc.devRef .tc main_arg8)) (W (Proc.devRef .tc main_arg9))
          (Cert.Spec.invStd (W (Proc.devRef .tc main_arg7)) (W (Proc.devRef .tc main_arg10))) (ix1 i) := by
  after_results
  rw [host3_shift]
  exact shapeCast_a_1a_apply (a := 256)
    (Cert.Spec.shift (W (Proc.devRef .tc main_arg8)) (W (Proc.devRef .tc main_arg9))
      (Cert.Spec.invStd (W (Proc.devRef .tc main_arg7)) (W (Proc.devRef .tc main_arg10)))) shapeCasts_S256_S1x256 0 i

end Cert.KernelIdeal.Val

end
-- ==== Proof.KI.Result.lean ====
/-
  The kernel's result array, at the extended reals, is the network `Cert.Spec.G` of the eleven argument arrays' launch
  contents.

  The buffer contents are followed through the six segments. Region 0 leaves S₁ = X · W₁; the first host stretch
  reshapes the bias b₁ and leaves S₁ alone; region 1 leaves H = max (A₁ · S₁ + b₁, 0); region 2 leaves S₂ = H · W₂; the
  second host stretch computes the scale γ · rsqrt (σ² + ε) and the offset β − μ · scale, reshapes them and the bias b₂,
  and leaves S₂ alone; region 3 leaves (A₂ · S₂ + b₂) · scale + offset. Every argument array holds its launch contents
  at every boundary. Composed, these are `G`.
-/
import proofs.«111958_j2972117368867_1_alg».proof.Proof.KI.Args
import proofs.«111958_j2972117368867_1_alg».proof.Proof.KI.Value0
import proofs.«111958_j2972117368867_1_alg».proof.Proof.KI.Value1
import proofs.«111958_j2972117368867_1_alg».proof.Proof.KI.Value2
import proofs.«111958_j2972117368867_1_alg».proof.Proof.KI.Value3
import proofs.«111958_j2972117368867_1_alg».proof.Proof.KI.HostVal

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The arrays at the boundaries -/

/-- After region 0: S₁ = X · W₁. -/
theorem res_v0 (c : Dev nD) :
    Fr.Wd1 (F := Ideal) m ρ c (Proc.devRef .tc main_v0) = Cert.Spec.mm (m ((c : Thread nD τ).loc main_arg0)) (m ((c : Thread nD τ).loc main_arg3)) :=
  (Fr.Wd1_arr m ρ c 2).trans (arr0 (Fr.Vd0 m ρ) c)

/-- After the first host stretch the reshaped bias reads, at `(0, i)`, b₁ at `i`. -/
theorem res_b1 (c : Dev nD) (i : Fin 512) :
    (Fr.Vd2 (F := Ideal) m ρ c main_v1 : S1x512.Idx → EReal) (ix2 0 i) = (m ((c : Thread nD τ).loc main_arg4)) (ix1 i) :=
  (host1_v1 (Fr.Wd1 m ρ c) i).trans (by rw [Fr.Wd1_arg4])

/-- After region 1: H = max (A₁ · S₁ + b₁, 0). -/
theorem res_v2 (c : Dev nD) :
    Fr.Wd3 (F := Ideal) m ρ c (Proc.devRef .tc main_v2) = Cert.Spec.hidden (m ((c : Thread nD τ).loc main_arg1)) (Cert.Spec.mm (m ((c : Thread nD τ).loc main_arg0)) (m ((c : Thread nD τ).loc main_arg3))) (m ((c : Thread nD τ).loc main_arg4)) := by
  have hA : Fr.Vd2 (F := Ideal) m ρ c main_arg1 = (m ((c : Thread nD τ).loc main_arg1)) := Fr.Wd2_arg1 m ρ c
  have hS : Fr.Vd2 (F := Ideal) m ρ c main_v0 = Cert.Spec.mm (m ((c : Thread nD τ).loc main_arg0)) (m ((c : Thread nD τ).loc main_arg3)) :=
    (Fr.Wd2_keep m ρ c main_v0 (by decide)).trans (res_v0 m ρ c)
  exact (Fr.Wd3_arr m ρ c 3).trans
    ((arr1 (Fr.Vd2 m ρ) c (m ((c : Thread nD τ).loc main_arg4)) (res_b1 m ρ c)).trans (by rw [hA, hS]))

/-- After region 2: S₂ = H · W₂. -/
theorem res_v3 (c : Dev nD) :
    Fr.Wd4 (F := Ideal) m ρ c (Proc.devRef .tc main_v3) = Cert.Spec.mm (Cert.Spec.hidden (m ((c : Thread nD τ).loc main_arg1)) (Cert.Spec.mm (m ((c : Thread nD τ).loc main_arg0)) (m ((c : Thread nD τ).loc main_arg3))) (m ((c : Thread nD τ).loc main_arg4))) (m ((c : Thread nD τ).loc main_arg5)) := by
  have hH : Fr.Vd3 (F := Ideal) m ρ c main_v2 = Cert.Spec.hidden (m ((c : Thread nD τ).loc main_arg1)) (Cert.Spec.mm (m ((c : Thread nD τ).loc main_arg0)) (m ((c : Thread nD τ).loc main_arg3))) (m ((c : Thread nD τ).loc main_arg4)) := res_v2 m ρ c
  have hW : Fr.Vd3 (F := Ideal) m ρ c main_arg5 = (m ((c : Thread nD τ).loc main_arg5)) := Fr.Wd3_arg5 m ρ c
  exact (Fr.Wd4_arr m ρ c 2).trans ((arr2 (Fr.Vd3 m ρ) c).trans (by rw [hH, hW]))

/-- After the second host stretch the reshaped bias reads, at `(0, i)`, b₂ at `i`. -/
theorem res_b2 (c : Dev nD) (i : Fin 256) :
    (Fr.Vd5 (F := Ideal) m ρ c main_v10 : S1x256.Idx → EReal) (ix2 0 i) = (m ((c : Thread nD τ).loc main_arg6)) (ix1 i) :=
  (host3_v10 (Fr.Wd4 m ρ c) i).trans (by rw [Fr.Wd4_arg6])

/-- After the second host stretch the reshaped scale reads, at `(0, i)`, γ · rsqrt (σ² + ε) at `i`. -/
theorem res_sc (c : Dev nD) (i : Fin 256) :
    (Fr.Vd5 (F := Ideal) m ρ c main_v11 : S1x256.Idx → EReal) (ix2 0 i) = (Cert.Spec.invStd (m ((c : Thread nD τ).loc main_arg7)) (m ((c : Thread nD τ).loc main_arg10))) (ix1 i) :=
  (host3_v11 (Fr.Wd4 m ρ c) i).trans (by rw [Fr.Wd4_arg7, Fr.Wd4_arg10])

/-- After the second host stretch the reshaped offset reads, at `(0, i)`, β − μ · scale at `i`. -/
theorem res_sh (c : Dev nD) (i : Fin 256) :
    (Fr.Vd5 (F := Ideal) m ρ c main_v12 : S1x256.Idx → EReal) (ix2 0 i) = (Cert.Spec.shift (m ((c : Thread nD τ).loc main_arg8)) (m ((c : Thread nD τ).loc main_arg9)) (Cert.Spec.invStd (m ((c : Thread nD τ).loc main_arg7)) (m ((c : Thread nD τ).loc main_arg10)))) (ix1 i) :=
  (host3_v12 (Fr.Wd4 m ρ c) i).trans (by rw [Fr.Wd4_arg7, Fr.Wd4_arg8, Fr.Wd4_arg9, Fr.Wd4_arg10])

/-! ## The result -/

/-- After region 3 the result buffer holds the network of the eleven argument arrays' launch contents. -/
theorem result (c : Dev nD) :
    Fr.Wd6 (F := Ideal) m ρ c (Proc.devRef .tc main_v13)
      = Cert.Spec.G (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10)) := by
  have hA : Fr.Vd5 (F := Ideal) m ρ c main_arg2 = (m ((c : Thread nD τ).loc main_arg2)) := Fr.Wd5_arg2 m ρ c
  have hS : Fr.Vd5 (F := Ideal) m ρ c main_v3 = Cert.Spec.mm (Cert.Spec.hidden (m ((c : Thread nD τ).loc main_arg1)) (Cert.Spec.mm (m ((c : Thread nD τ).loc main_arg0)) (m ((c : Thread nD τ).loc main_arg3))) (m ((c : Thread nD τ).loc main_arg4))) (m ((c : Thread nD τ).loc main_arg5)) :=
    (Fr.Wd5_keep m ρ c main_v3 (by decide)).trans (res_v3 m ρ c)
  exact (Fr.Wd6_arr m ρ c 5).trans
    ((arr3 (Fr.Vd5 m ρ) c (m ((c : Thread nD τ).loc main_arg6)) (Cert.Spec.invStd (m ((c : Thread nD τ).loc main_arg7)) (m ((c : Thread nD τ).loc main_arg10)))
        (Cert.Spec.shift (m ((c : Thread nD τ).loc main_arg8)) (m ((c : Thread nD τ).loc main_arg9)) (Cert.Spec.invStd (m ((c : Thread nD τ).loc main_arg7)) (m ((c : Thread nD τ).loc main_arg10))))
        (res_b2 m ρ c) (res_sc m ρ c) (res_sh m ρ c)).trans (by rw [hA, hS]; rfl))

/-! ## The run -/

/-- From any memory with zero counters every weakly fair execution of the kernel program terminates, nothing faulting,
    with the result buffer at the network of the argument arrays' launch contents and the arguments unchanged. -/
theorem kernel_run : θ_run defs (onTc (τ := τ) (main (F := Ideal))) ⟨m, fun _ => 0, ρ⟩ (fun r => ∀ c : Dev nD,
      r.2.mem ((c.tc : Thread nD τ).loc main_v13)
          = Cert.Spec.G (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (Fr.mem_ucH main_v13 (by decide))).trans (result m ρ c),
     (h c _ (Fr.mem_ucH main_arg0 (by decide))).trans (Fr.Wd6_arg0 m ρ c),
     (h c _ (Fr.mem_ucH main_arg1 (by decide))).trans (Fr.Wd6_arg1 m ρ c),
     (h c _ (Fr.mem_ucH main_arg2 (by decide))).trans (Fr.Wd6_arg2 m ρ c),
     (h c _ (Fr.mem_ucH main_arg3 (by decide))).trans (Fr.Wd6_arg3 m ρ c),
     (h c _ (Fr.mem_ucH main_arg4 (by decide))).trans (Fr.Wd6_arg4 m ρ c),
     (h c _ (Fr.mem_ucH main_arg5 (by decide))).trans (Fr.Wd6_arg5 m ρ c),
     (h c _ (Fr.mem_ucH main_arg6 (by decide))).trans (Fr.Wd6_arg6 m ρ c),
     (h c _ (Fr.mem_ucH main_arg7 (by decide))).trans (Fr.Wd6_arg7 m ρ c),
     (h c _ (Fr.mem_ucH main_arg8 (by decide))).trans (Fr.Wd6_arg8 m ρ c),
     (h c _ (Fr.mem_ucH main_arg9 (by decide))).trans (Fr.Wd6_arg9 m ρ c),
     (h c _ (Fr.mem_ucH main_arg10 (by decide))).trans (Fr.Wd6_arg10 m ρ c)⟩)
    (Fr.run_main (F := Ideal) m ρ)

end Cert.KernelIdeal.Val

end
-- ==== Proof.RefValue.lean ====
/-
  The reference program's result, at the extended reals, is the network `Cert.Spec.G` of its eleven argument arrays.

  The reference computes, in order: S₁ = X · W₁; A₁ · S₁; the bias b₁ broadcast along the rows and added; the
  maximum with a broadcast zero; the product with W₂; the product of A₂ with that; the bias b₂ added; the scale
  γ · rsqrt (σ² + ε) and the offset β − μ · scale, both computed once on length-256 vectors and broadcast along the rows;
  the final multiply and add. Each stage is identified, as an array, with the matching piece of `G`: a contraction
  is the plain sum over the contracted coordinate, a broadcast of a vector along the rows reads the vector at the
  column coordinate, and the pointwise operations are the extended reals' own.
-/
import proofs.«111958_j2972117368867_1_alg».proof.Proof.Gen.ReferenceIdeal.Read
import proofs.«111958_j2972117368867_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (Mat Vec1 mm hidden invStd shift affine G)

/-! ## Indices -/

/-- A sum whose `k`-th term is `l (r, k) * w (k, c)` is the matrix product's entry `(r, c)`. -/
theorem sum_eq_mm {M K N : Nat} (l : Mat M K) (w : Mat K N) (j : (⟨2, ![M, N]⟩ : Shape).Idx) (f : Fin K → EReal)
    (h : ∀ k, f k = l (ix2 (j 0) k) * w (ix2 k (j 1))) : (∑ k : Fin K, f k) = mm l w j :=
  Finset.sum_congr rfl fun k _ => h k

theorem l0 (i : S8192x512.Idx) (k : Fin 1024) : Read.lidx_main_v0 i k = ix2 (i 0) k := by
  funext a; match a with | ⟨0, _⟩ => rfl | ⟨1, _⟩ => rfl
theorem r0 (i : S8192x512.Idx) (k : Fin 1024) : Read.ridx_main_v0 i k = ix2 k (i 1) := by
  funext a; match a with | ⟨0, _⟩ => rfl | ⟨1, _⟩ => rfl
theorem l1 (i : S8192x512.Idx) (k : Fin 8192) : Read.lidx_main_v1 i k = ix2 (i 0) k := by
  funext a; match a with | ⟨0, _⟩ => rfl | ⟨1, _⟩ => rfl
theorem r1 (i : S8192x512.Idx) (k : Fin 8192) : Read.ridx_main_v1 i k = ix2 k (i 1) := by
  funext a; match a with | ⟨0, _⟩ => rfl | ⟨1, _⟩ => rfl
theorem l6 (i : S8192x256.Idx) (k : Fin 512) : Read.lidx_main_v6 i k = ix2 (i 0) k := by
  funext a; match a with | ⟨0, _⟩ => rfl | ⟨1, _⟩ => rfl
theorem r6 (i : S8192x256.Idx) (k : Fin 512) : Read.ridx_main_v6 i k = ix2 k (i 1) := by
  funext a; match a with | ⟨0, _⟩ => rfl | ⟨1, _⟩ => rfl
theorem l7 (i : S8192x256.Idx) (k : Fin 8192) : Read.lidx_main_v7 i k = ix2 (i 0) k := by
  funext a; match a with | ⟨0, _⟩ => rfl | ⟨1, _⟩ => rfl
theorem r7 (i : S8192x256.Idx) (k : Fin 8192) : Read.ridx_main_v7 i k = ix2 k (i 1) := by
  funext a; match a with | ⟨0, _⟩ => rfl | ⟨1, _⟩ => rfl

/-- A length-512 vector broadcast to one row and then along the rows is read at the column coordinate. -/
theorem col3 (i : S8192x512.Idx) : Read.idx_main_v2 (Read.idx_main_v3 i) = ix1 (i 1) := by
  funext a; match a with | ⟨0, _⟩ => rfl
theorem col9 (i : S8192x256.Idx) : Read.idx_main_v8 (Read.idx_main_v9 i) = ix1 (i 1) := by
  funext a; match a with | ⟨0, _⟩ => rfl
theorem col16 (i : S8192x256.Idx) : Read.idx_main_v15 (Read.idx_main_v16 i) = ix1 (i 1) := by
  funext a; match a with | ⟨0, _⟩ => rfl
theorem col21 (i : S8192x256.Idx) : Read.idx_main_v20 (Read.idx_main_v21 i) = ix1 (i 1) := by
  funext a; match a with | ⟨0, _⟩ => rfl

/-! ## The stages -/

/-- S₁ = X · W₁. -/
theorem v0_eq (x : Mat 8192 1024) (W1 : Mat 1024 512) : Read.val_main_v0 (F := Ideal) x W1 = mm x W1 := by
  funext i
  rw [Read.val_main_v0_apply]
  exact sum_eq_mm x W1 i _ fun k => by rw [l0 i k, r0 i k]; rfl

/-- A₁ · S₁. -/
theorem v1_eq (x : Mat 8192 1024) (A1 : Mat 8192 8192) (W1 : Mat 1024 512) :
    Read.val_main_v1 (F := Ideal) x A1 W1 = mm A1 (mm x W1) := by
  funext i
  rw [Read.val_main_v1_apply, v0_eq]
  exact sum_eq_mm A1 (mm x W1) i _ fun k => by rw [l1 i k, r1 i k]; rfl

/-- H = max (A₁ · S₁ + b₁, 0). -/
theorem v5_eq (x : Mat 8192 1024) (A1 : Mat 8192 8192) (W1 : Mat 1024 512) (b1 : Vec1 512) :
    Read.val_main_v5 (F := Ideal) x A1 W1 b1 = hidden A1 (mm x W1) b1 := by
  funext i
  rw [Read.val_main_v5_apply, Read.val_main_v4_apply, Read.val_main_v3_apply, Read.val_main_v2_apply,
    Read.val_main_call0_v0_apply, Read.val_main_call0_cst_apply, v1_eq, col3 i]
  rfl

/-- S₂ = H · W₂. -/
theorem v6_eq (x : Mat 8192 1024) (A1 : Mat 8192 8192) (W1 : Mat 1024 512) (b1 : Vec1 512) (W2 : Mat 512 256) :
    Read.val_main_v6 (F := Ideal) x A1 W1 b1 W2 = mm (hidden A1 (mm x W1) b1) W2 := by
  funext i
  rw [Read.val_main_v6_apply, v5_eq]
  exact sum_eq_mm (hidden A1 (mm x W1) b1) W2 i _ fun k => by rw [l6 i k, r6 i k]; rfl

/-- A₂ · S₂. -/
theorem v7_eq (x : Mat 8192 1024) (A1 A2 : Mat 8192 8192) (W1 : Mat 1024 512) (b1 : Vec1 512) (W2 : Mat 512 256) :
    Read.val_main_v7 (F := Ideal) x A1 A2 W1 b1 W2 = mm A2 (mm (hidden A1 (mm x W1) b1) W2) := by
  funext i
  rw [Read.val_main_v7_apply, v6_eq]
  exact sum_eq_mm A2 (mm (hidden A1 (mm x W1) b1) W2) i _ fun k => by rw [l7 i k, r7 i k]; rfl

/-- The scale γ · rsqrt (σ² + ε). -/
theorem v14_eq (g va : Vec1 256) : Read.val_main_v14 (F := Ideal) g va = invStd g va := by
  funext i
  rw [Read.val_main_v14_apply, Read.val_main_v13_apply, Read.val_main_v12_apply, Read.val_main_v11_apply,
    Read.val_main_cst_apply]
  rfl

/-- The offset β − μ · scale. -/
theorem v19_eq (g be mu va : Vec1 256) : Read.val_main_v19 (F := Ideal) g be mu va = shift be mu (invStd g va) := by
  funext i
  rw [Read.val_main_v19_apply, Read.val_main_v18_apply, v14_eq]
  rfl

/-! ## The result -/

/-- The reference's result array is the network of its eleven argument arrays. -/
theorem ref_eq (x : Mat 8192 1024) (A1 A2 : Mat 8192 8192) (W1 : Mat 1024 512) (b1 : Vec1 512) (W2 : Mat 512 256)
    (b2 g be mu va : Vec1 256) :
    Read.val_main_v22 (F := Ideal) x A1 A2 W1 b1 W2 b2 g be mu va = G x A1 A2 W1 b1 W2 b2 g be mu va := by
  funext i
  rw [Read.val_main_v22_apply, Read.val_main_v17_apply, Read.val_main_v10_apply, Read.val_main_v9_apply,
    Read.val_main_v8_apply, Read.val_main_v16_apply, Read.val_main_v15_apply, Read.val_main_v21_apply,
    Read.val_main_v20_apply, v7_eq, v14_eq, v19_eq, col9 i, col16 i, col21 i]
  rfl

/-! ## The run -/

/-- Every weakly fair execution of the reference, from any memory with zero counters, ends with its result buffer at
    the network of the eleven argument arrays' initial contents, and with the arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v22)
          = G (m' ((c.tc : Thread nD τ).loc main_arg0))
              (m' ((c.tc : Thread nD τ).loc main_arg1))
              (m' ((c.tc : Thread nD τ).loc main_arg2))
              (m' ((c.tc : Thread nD τ).loc main_arg3))
              (m' ((c.tc : Thread nD τ).loc main_arg4))
              (m' ((c.tc : Thread nD τ).loc main_arg5))
              (m' ((c.tc : Thread nD τ).loc main_arg6))
              (m' ((c.tc : Thread nD τ).loc main_arg7))
              (m' ((c.tc : Thread nD τ).loc main_arg8))
              (m' ((c.tc : Thread nD τ).loc main_arg9))
              (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10) :=
  (θ_run defs _ _).mono
    (fun _ h c => ⟨(h c).1.trans (by rw [Read.val_main_v22_eq]; exact ref_eq _ _ _ _ _ _ _ _ _ _ _), (h c).2⟩)
    (Cert.ReferenceIdeal.Value.run (F := Ideal) m' ρ')

end Cert.ReferenceIdeal.RefValue

end
-- ==== Proof.Algebraic.lean ====
/-
  The kernel program and the reference program, run at the extended reals from memories that agree on the eleven
  argument arrays, both terminate with their result buffers at one and the same array: the network `Cert.Spec.G` of
  the arguments. The kernel's run ends there by following its four regions and two host stretches; the reference's
  run ends there stage by stage; the agreement of the arguments identifies the two instances of `G`.
-/
import proofs.«111958_j2972117368867_1_alg».proof.Defs
import proofs.«111958_j2972117368867_1_alg».proof.Proof.Gen.Pre_finite_inputs
import proofs.«111958_j2972117368867_1_alg».proof.Proof.KI.Result
import proofs.«111958_j2972117368867_1_alg».proof.Proof.RefValue

set_option maxRecDepth 16384

noncomputable section

namespace Cert.Proof.Algebraic

open Idealize.ShloMosaic Idealize.ShloMosaic.TcCoe Idealize.SL.Sem

/-- Both programs end at the network of the (agreeing) argument arrays, with the arguments unchanged. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Val.kernel_run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8, h9, h10⟩ := hagree c
  rw [h0, h1, h2, h3, h4, h5, h6, h7, h8, h9, h10]

end Cert.Proof.Algebraic

end
-- ==== Proof.lean ====
/-
  The certificate of a two-layer graph convolution with an evaluation-mode batch normalization, computed by four
  tiled kernels (two dense products, and two adjacency products accumulated over eight column blocks in a scratch
  buffer, the second and fourth with a fused epilogue) against its plain array reference.

  On the extended reals both programs compute, index by index, the one function `Cert.Spec.G` of the argument arrays:
  a matrix product accumulated block by block from zero is the plain sum over the contracted axis (sums regroup freely;
  no finiteness is used), rounding the operands to sixteen bits is the identity, and the bias, the rectifier and the
  normalization's scale and offset are the same pointwise operations on both sides.

  The frames: each program's @main is followed segment by segment (proof/Proof/KI/Run.lean and its word-level twin under
  proof/Proof/K/), every region from its own body triple; the reference is a line of host operations. The ideal pass
  rewrote nothing, so the idealization claim is trivial.
-/
import proofs.«111958_j2972117368867_1_alg».proof.Defs
import proofs.«111958_j2972117368867_1_alg».proof.Proof.Gen.Kernel
import proofs.«111958_j2972117368867_1_alg».proof.Proof.Gen.KernelIdeal
import proofs.«111958_j2972117368867_1_alg».proof.Proof.Gen.ReferenceIdeal
import proofs.«111958_j2972117368867_1_alg».proof.Proof.Gen.Pre_finite_inputs
import proofs.«111958_j2972117368867_1_alg».proof.Proof.Gen.ReferenceIdeal.Read
import proofs.«111958_j2972117368867_1_alg».proof.Proof.K.Args
import proofs.«111958_j2972117368867_1_alg».proof.Proof.KI.Args
import proofs.«111958_j2972117368867_1_alg».proof.Proof.Algebraic

noncomputable section

namespace Cert.Proof

open Idealize.ShloMosaic Idealize.SL.Sem

/-- The word-level program runs to the end, faults nowhere and leaves its arguments unchanged. -/
theorem frame_kernel : Cert.frame_Kernel := fun m ρ _ => Cert.Kernel.Fr.frame m ρ
/-- The same of the idealized program. -/
theorem frame_kernelIdeal : Cert.frame_KernelIdeal := fun m ρ _ => Cert.KernelIdeal.Fr.frame m ρ
/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Algebraic.algebraic⟩

end Cert.Proof

end
